-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel
  reducesTo_S_S_d : S_.ReducesTo [] S_

variable [Facts]

def fn_part1 {F : FTy → Type} [FloatOps F] (main_v12 : IVec S_ 1) (main_v15 : IVec S_ 1) : IVec S_ 1 :=
  let main_v16 : IVec S_ 1 := andi main_v12 main_v15
  main_v16

def fn {F : FTy → Type} [FloatOps F] (main_arg0 : FVec F S8192x256 .f32) (main_arg1 : FVec F S8192x256 .f32) (main_arg2 : FVec F S_ .f32) (main_arg3 : FVec F S_ .f32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_v4 : FVec F S8192x256 .f32 := Host.absf main_arg1
  let main_cst_0 : FVec F S_ .f32 := constant S_ .f32 0x7F800000#32
  let main_v5 : FVec F S8192x256 .f32 := broadcastInDim S8192x256 ![] bcast_S_S8192x256 main_cst_0
  let main_v6 : IVec S8192x256 1 := cmpf .olt main_v4 main_v5
  let main_c_1 : IVec S_ 1 := constantI S_ 1 1#1
  let main_v7 : IVec S_ 1 := (fun x v => Host.reduce IntOp.andi x v reducesTo_S8192x256_S_d0_1 h_S_) main_v6 main_c_1
  let main_v8 : IVec S_ 1 := andi main_v3 main_v7
  let main_v9 : FVec F S_ .f32 := Host.absf main_arg2
  let main_cst_2 : FVec F S_ .f32 := constant S_ .f32 0x7F800000#32
  let main_v10 : IVec S_ 1 := cmpf .olt main_v9 main_cst_2
  let main_c_3 : IVec S_ 1 := constantI S_ 1 1#1
  let main_v11 : IVec S_ 1 := (fun x v => Host.reduce IntOp.andi x v reducesTo_S_S_d h_S_) main_v10 main_c_3
  let main_v12 : IVec S_ 1 := andi main_v8 main_v11
  let main_v13 : FVec F S_ .f32 := Host.absf main_arg3
  let main_cst_4 : FVec F S_ .f32 := constant S_ .f32 0x7F800000#32
  let main_v14 : IVec S_ 1 := cmpf .olt main_v13 main_cst_4
  let main_c_5 : IVec S_ 1 := constantI S_ 1 1#1
  let main_v15 : IVec S_ 1 := (fun x v => Host.reduce IntOp.andi x v reducesTo_S_S_d h_S_) main_v14 main_c_5
  fn_part1 (F := F) main_v12 main_v15
-- ==== Kernel.lean ====
abbrev S8192x256 : Shape := ⟨2, ![8192, 256]⟩
abbrev S_ : Shape := ⟨0, ![]⟩
abbrev S4096x256 : Shape := ⟨2, ![4096, 256]⟩
abbrev S1x8192x256 : Shape := ⟨3, ![1, 8192, 256]⟩
abbrev S2x8192x256 : Shape := ⟨3, ![2, 8192, 256]⟩
abbrev S1x1 : Shape := ⟨2, ![1, 1]⟩
abbrev S16384x1 : Shape := ⟨2, ![16384, 1]⟩
abbrev S256x1 : Shape := ⟨2, ![256, 1]⟩
abbrev S8192 : Shape := ⟨1, ![8192]⟩
abbrev S8192x1 : Shape := ⟨2, ![8192, 1]⟩
abbrev S256x256 : Shape := ⟨2, ![256, 256]⟩
abbrev S256x8192 : Shape := ⟨2, ![256, 8192]⟩
abbrev S256 : Shape := ⟨1, ![256]⟩

abbrev nBuf : Space → Nat
  | .hbm => 22
  | .vmem => 8
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S_, .f32⟩
  | .hbm, ⟨3, _⟩ => ⟨S_, .f32⟩
  | .hbm, ⟨4, _⟩ => ⟨S4096x256, .f32⟩
  | .hbm, ⟨5, _⟩ => ⟨S4096x256, .f32⟩
  | .hbm, ⟨6, _⟩ => ⟨S4096x256, .f32⟩
  | .hbm, ⟨7, _⟩ => ⟨S4096x256, .f32⟩
  | .hbm, ⟨8, _⟩ => ⟨S8192x256, .f32⟩
  | .hbm, ⟨9, _⟩ => ⟨S8192x256, .f32⟩
  | .hbm, ⟨10, _⟩ => ⟨S1x8192x256, .f32⟩
  | .hbm, ⟨11, _⟩ => ⟨S1x8192x256, .f32⟩
  | .hbm, ⟨12, _⟩ => ⟨S2x8192x256, .f32⟩
  | .hbm, ⟨13, _⟩ => ⟨S1x1, .f32⟩
  | .hbm, ⟨14, _⟩ => ⟨S1x1, .f32⟩
  | .hbm, ⟨15, _⟩ => ⟨S16384x1, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .local _ .vmem, ⟨0, _⟩ => ⟨S1x1, .f32⟩
  | .local _ .vmem, ⟨1, _⟩ => ⟨S1x1, .f32⟩
  | .local _ .vmem, ⟨2, _⟩ => ⟨S1x8192x256, .f32⟩
  | .local _ .vmem, ⟨3, _⟩ => ⟨S1x8192x256, .f32⟩
  | .local _ .vmem, ⟨4, _⟩ => ⟨S256x1, .f32⟩
  | .local _ .vmem, ⟨5, _⟩ => ⟨S256x1, .f32⟩
  | .local _ .vmem, ⟨6, _⟩ => ⟨S8192x256, .f32⟩
  | .local _ .vmem, ⟨7, _⟩ => ⟨S8192x256, .bf16⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst : Ref sig .tc := ⟨.hbm, 16, rfl⟩
abbrev main_v12 : Ref sig .tc := ⟨.hbm, 17, rfl⟩
abbrev main_cst_0 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![2, 32], ![false, false]⟩

def k0_mult1 (i : grid0.Coords) : BitVec 32 :=
  let arg1 : BitVec 32 := BitVec.ofNat 32 (i 1).val
  let c256_i32 : BitVec 32 := 256#32
  let v3 : BitVec 32 := Scalar.muli arg1 c256_i32
  v3
def k0_off1 (i : grid0.Coords) : Fin 2 → Nat :=
  let arg1 : BitVec 32 := BitVec.ofNat 32 (i 1).val
  let c256_i32 : BitVec 32 := 256#32
  let v3 : BitVec 32 := Scalar.muli arg1 c256_i32
  let v4 : BitVec 32 := v3
  let v9 : Index := Scalar.indexCast v4
  let c0_4 : Index := 0#32
  ![v9.toNat, 0]
def k0_mult2 (i : grid0.Coords) : BitVec 32 :=
  let arg1 : BitVec 32 := BitVec.ofNat 32 (i 1).val
  let c256_i32 : BitVec 32 := 256#32
  let v3 : BitVec 32 := Scalar.muli arg1 c256_i32
  let v4 : BitVec 32 := v3
  let c4096_i32 : BitVec 32 := 4096#32
  let v34 : BitVec 1 := Scalar.cmpi .slt v4 c4096_i32
  let c4096_i32_11 : BitVec 32 := 4096#32
  let c_m4096_i32 : BitVec 32 := 4294963200#32
  let v35 : BitVec 32 := Scalar.select v34 c4096_i32_11 c_m4096_i32
  let v36 : BitVec 32 := Scalar.addi v4 v35
  v36
def k0_off2 (i : grid0.Coords) : Fin 2 → Nat :=
  let arg1 : BitVec 32 := BitVec.ofNat 32 (i 1).val
  let c256_i32 : BitVec 32 := 256#32
  let v3 : BitVec 32 := Scalar.muli arg1 c256_i32
  let v4 : BitVec 32 := v3
  let c4096_i32 : BitVec 32 := 4096#32
  let v34 : BitVec 1 := Scalar.cmpi .slt v4 c4096_i32
  let c4096_i32_11 : BitVec 32 := 4096#32
  let c_m4096_i32 : BitVec 32 := 4294963200#32
  let v35 : BitVec 32 := Scalar.select v34 c4096_i32_11 c_m4096_i32
  let v36 : BitVec 32 := Scalar.addi v4 v35
  let v37 : BitVec 32 := v36
  let v38 : Index := Scalar.indexCast v37
  let c0_12 : Index := 0#32
  ![v38.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

abbrev stage0_0 : Fin 1 → Memref sig .tc .vmem S1x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x8192x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  slices_S8192x256_S4096x256_0_0 : S8192x256.Slices ![0, 0] S4096x256
  slices_S8192x256_S4096x256_4096_0 : S8192x256.Slices ![4096, 0] S4096x256
  concatenates_S4096x256_S4096x256_S8192x256_d0 : Shape.Concatenates [S4096x256, S4096x256] S8192x256 0
  bcast_S8192x256_S1x8192x256_1_2 : S8192x256.BroadcastsInDim S1x8192x256 (![1, 2] : Fin 2 → Fin S1x8192x256.rank)
  concatenates_S1x8192x256_S1x8192x256_S2x8192x256_d0 : Shape.Concatenates [S1x8192x256, S1x8192x256] S2x8192x256 0
  shapeCasts_S_S1x1 : S_.ShapeCasts S1x1
  inb_S1x8192x256_S1x8192x256_0_0_0 : ∀ a, (![0, 0, 0] : Fin 3 → Nat) a + S1x8192x256.size a ≤ S1x8192x256.size a
  h_S1x8192x256 : 0 < S1x8192x256.numel
  shapeCasts_S1x8192x256_S8192x256 : S1x8192x256.ShapeCasts S8192x256
  reduces_S8192x256_S8192 : S8192x256.Reduces [1] S8192
  shapeCasts_S8192_S8192x1 : S8192.ShapeCasts S8192x1
  broadcasts_S8192x1_S8192x256 : S8192x1.Broadcasts S8192x256
  inb_S8192x256_S8192x256_0_0 : ∀ a, (![0, 0] : Fin 2 → Nat) a + S8192x256.size a ≤ S8192x256.size a
  h_S8192x256 : 0 < S8192x256.numel
  shapeCasts_S8192x256_S8192x256 : S8192x256.ShapeCasts S8192x256
  bitsLt_bf16_f32 : FTy.bits .bf16 < FTy.bits .f32
  packedbf16_S8192x256_S8192x256_0_0 : (Rect.unit (s := S8192x256) ![0, 0] S8192x256.size inb_S8192x256_S8192x256_0_0).PackedRows (EltTy.packing .bf16)
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  h_S256x256 : 0 < S256x256.numel
  reduces_S256x8192_S256 : S256x8192.Reduces [1] S256
  shapeCasts_S256_S256x1 : S256.ShapeCasts S256x1
  iota_S256x8192_d1_w32 : S256x8192.Iotas .tc 32 [1]
  iota_S256x8192_d0_w32 : S256x8192.Iotas .tc 32 [0]
  broadcasts_S256x1_S256x8192 : S256x1.Broadcasts S256x8192
  reduces_S256x256_S256 : S256x256.Reduces [1] S256
  inb_S256x1_S256x1_0_0 : ∀ a, (![0, 0] : Fin 2 → Nat) a + S256x1.size a ≤ S256x1.size a
  h_S256x1 : 0 < S256x1.numel
  reducesTo_S16384x1_S_d0_1 : S16384x1.ReducesTo [0, 1] S_
  h_S_ : 0 < S_.numel
  dot_S256x256_S8192x256_S256x8192_1_1_0_0_n_n_wf : DotDims.WF S256x256 S8192x256 S256x8192 [1] [1] [0] [0] [] []
  hrank0 : 0 < grid0.rank
  k0_mult1_dvd : ∀ i : grid0.Coords, 256 ∣ (k0_mult1 i).toNat
  k0_off1_inb : ∀ i : grid0.Coords, ∀ a, (k0_off1 i) a + S256x256.size a ≤ S8192x256.size a
  k0_mult2_dvd : ∀ i : grid0.Coords, 256 ∣ (k0_mult2 i).toNat
  k0_off2_inb : ∀ i : grid0.Coords, ∀ a, (k0_off2 i) a + S256x256.size a ≤ S8192x256.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x1.size a ≤ S1x1.size a
  hwx0_0 : ∀ i : grid0.Coords, EltTy.bits .f32 = 32 ∨ (Rect.block (s := S1x1) S1x1.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x1.size a ≤ S1x1.size a
  hwx0_1 : ∀ i : grid0.Coords, EltTy.bits .f32 = 32 ∨ (Rect.block (s := S1x1) S1x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x8192x256.size a ≤ S2x8192x256.size a
  hwx0_2 : ∀ i : grid0.Coords, EltTy.bits .f32 = 32 ∨ (Rect.block (s := S2x8192x256) S1x8192x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x1.size a ≤ S16384x1.size a
  hwx0_3 : ∀ i : grid0.Coords, EltTy.bits .f32 = 32 ∨ (Rect.block (s := S16384x1) S256x1.size (cc0_transform_3 i) (hinb0_3 i)).WholeWords (EltTy.packing .f32)

variable [Facts₀]

def dot_S256x256_S8192x256_S256x8192_1_1_0_0_n_n : DotDims S256x256 S8192x256 S256x8192 where
  lhsContracting := [1]
  rhsContracting := [1]
  lhsNonContracting := [0]
  rhsNonContracting := [0]
  lhsBatch := []
  rhsBatch := []
  wf := dot_S256x256_S8192x256_S256x8192_1_1_0_0_n_n_wf

abbrev win0_0 : Pipeline.Window sig grid0 :=
  Pipeline.Window.ofSpec (Memref.whole main_v9) S1x1.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v10) S1x1.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v8) S1x8192x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v11) S256x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8192x256 : Shape := ⟨2, ![8192, 256]⟩
abbrev S_ : Shape := ⟨0, ![]⟩
abbrev S4096x4096 : Shape := ⟨2, ![4096, 4096]⟩
abbrev S1x4096x1x4096 : Shape := ⟨4, ![1, 4096, 1, 4096]⟩
abbrev S2x4096x2x4096 : Shape := ⟨4, ![2, 4096, 2, 4096]⟩
abbrev S8192x8192 : Shape := ⟨2, ![8192, 8192]⟩
abbrev S2x4096x256 : Shape := ⟨3, ![2, 4096, 256]⟩
abbrev S1x4096x256 : Shape := ⟨3, ![1, 4096, 256]⟩
abbrev S4096x256 : Shape := ⟨2, ![4096, 256]⟩
abbrev S8192 : Shape := ⟨1, ![8192]⟩
abbrev S8192x1 : Shape := ⟨2, ![8192, 1]⟩
abbrev S256x8192 : Shape := ⟨2, ![256, 8192]⟩

abbrev nBuf : Space → Nat
  | .hbm => 130
  | .vmem => 0
  | .smem => 0
  | _ => 0

abbrev hbmTy0_0 (i : Nat) : BufTy := match i % 128 with
  | 0 => ⟨S8192x256, .f32⟩
  | 1 => ⟨S8192x256, .f32⟩
  | 2 => ⟨S_, .f32⟩
  | 3 => ⟨S_, .f32⟩
  | 4 => ⟨S4096x4096, .i32⟩
  | 5 => ⟨S4096x4096, .i32⟩
  | 6 => ⟨S_, .i32⟩
  | 7 => ⟨S4096x4096, .i32⟩
  | 8 => ⟨S4096x4096, .i32⟩
  | 9 => ⟨S4096x4096, .i1⟩
  | 10 => ⟨S4096x4096, .f32⟩
  | 11 => ⟨S1x4096x1x4096, .f32⟩
  | 12 => ⟨S2x4096x2x4096, .f32⟩
  | 13 => ⟨S8192x8192, .f32⟩
  | 14 => ⟨S8192x8192, .i32⟩
  | 15 => ⟨S8192x8192, .i32⟩
  | 16 => ⟨S_, .i32⟩
  | 17 => ⟨S8192x8192, .i32⟩
  | 18 => ⟨S8192x8192, .i32⟩
  | 19 => ⟨S8192x8192, .i1⟩
  | 20 => ⟨S8192x8192, .f32⟩
  | 21 => ⟨S_, .f32⟩
  | 22 => ⟨S8192x8192, .f32⟩
  | 23 => ⟨S8192x8192, .f32⟩
  | 24 => ⟨S8192x8192, .f32⟩
  | 25 => ⟨S2x4096x256, .f32⟩
  | 26 => ⟨S2x4096x256, .f32⟩
  | 27 => ⟨S1x4096x256, .f32⟩
  | 28 => ⟨S4096x256, .f32⟩
  | 29 => ⟨S1x4096x256, .f32⟩
  | 30 => ⟨S4096x256, .f32⟩
  | 31 => ⟨S8192x256, .f32⟩
  | 32 => ⟨S8192x256, .f32⟩
  | 33 => ⟨S_, .f32⟩
  | 34 => ⟨S8192, .f32⟩
  | 35 => ⟨S8192x1, .f32⟩
  | 36 => ⟨S8192x1, .f32⟩
  | 37 => ⟨S_, .f32⟩
  | 38 => ⟨S8192x1, .f32⟩
  | 39 => ⟨S8192x1, .f32⟩
  | 40 => ⟨S8192x256, .f32⟩
  | 41 => ⟨S8192x256, .f32⟩
  | 42 => ⟨S256x8192, .f32⟩
  | 43 => ⟨S8192x8192, .f32⟩
  | 44 => ⟨S8192x8192, .f32⟩
  | 45 => ⟨S8192x8192, .f32⟩
  | 46 => ⟨S8192x8192, .f32⟩
  | 47 => ⟨S8192x8192, .f32⟩
  | 48 => ⟨S_, .f32⟩
  | 49 => ⟨S8192x8192, .f32⟩
  | 50 => ⟨S8192x8192, .f32⟩
  | 51 => ⟨S_, .f32⟩
  | 52 => ⟨S8192, .f32⟩
  | 53 => ⟨S8192x1, .f32⟩
  | 54 => ⟨S8192x8192, .f32⟩
  | 55 => ⟨S8192x8192, .f32⟩
  | 56 => ⟨S8192x8192, .f32⟩
  | 57 => ⟨S8192x8192, .f32⟩
  | 58 => ⟨S_, .f32⟩
  | 59 => ⟨S8192, .f32⟩
  | 60 => ⟨S8192x1, .f32⟩
  | 61 => ⟨S8192x1, .f32⟩
  | 62 => ⟨S8192x8192, .f32⟩
  | 63 => ⟨S8192x8192, .f32⟩
  | 64 => ⟨S8192x8192, .f32⟩
  | 65 => ⟨S_, .f32⟩
  | 66 => ⟨S8192, .f32⟩
  | 67 => ⟨S_, .f32⟩
  | 68 => ⟨S8192, .f32⟩
  | 69 => ⟨S8192, .f32⟩
  | 70 => ⟨S_, .f32⟩
  | 71 => ⟨S_, .f32⟩
  | 72 => ⟨S_, .f32⟩
  | 73 => ⟨S_, .f32⟩
  | 74 => ⟨S_, .f32⟩
  | 75 => ⟨S_, .f32⟩
  | 76 => ⟨S_, .f32⟩
  | 77 => ⟨S_, .f32⟩
  | 78 => ⟨S1x4096x256, .f32⟩
  | 79 => ⟨S4096x256, .f32⟩
  | 80 => ⟨S1x4096x256, .f32⟩
  | 81 => ⟨S4096x256, .f32⟩
  | 82 => ⟨S8192x256, .f32⟩
  | 83 => ⟨S8192x256, .f32⟩
  | 84 => ⟨S_, .f32⟩
  | 85 => ⟨S8192, .f32⟩
  | 86 => ⟨S8192x1, .f32⟩
  | 87 => ⟨S8192x1, .f32⟩
  | 88 => ⟨S_, .f32⟩
  | 89 => ⟨S8192x1, .f32⟩
  | 90 => ⟨S8192x1, .f32⟩
  | 91 => ⟨S8192x256, .f32⟩
  | 92 => ⟨S8192x256, .f32⟩
  | 93 => ⟨S256x8192, .f32⟩
  | 94 => ⟨S8192x8192, .f32⟩
  | 95 => ⟨S8192x8192, .f32⟩
  | 96 => ⟨S8192x8192, .f32⟩
  | 97 => ⟨S8192x8192, .f32⟩
  | 98 => ⟨S8192x8192, .f32⟩
  | 99 => ⟨S_, .f32⟩
  | 100 => ⟨S8192x8192, .f32⟩
  | 101 => ⟨S8192x8192, .f32⟩
  | 102 => ⟨S_, .f32⟩
  | 103 => ⟨S8192, .f32⟩
  | 104 => ⟨S8192x1, .f32⟩
  | 105 => ⟨S8192x8192, .f32⟩
  | 106 => ⟨S8192x8192, .f32⟩
  | 107 => ⟨S8192x8192, .f32⟩
  | 108 => ⟨S8192x8192, .f32⟩
  | 109 => ⟨S_, .f32⟩
  | 110 => ⟨S8192, .f32⟩
  | 111 => ⟨S8192x1, .f32⟩
  | 112 => ⟨S8192x1, .f32⟩
  | 113 => ⟨S8192x8192, .f32⟩
  | 114 => ⟨S8192x8192, .f32⟩
  | 115 => ⟨S8192x8192, .f32⟩
  | 116 => ⟨S_, .f32⟩
  | 117 => ⟨S8192, .f32⟩
  | 118 => ⟨S_, .f32⟩
  | 119 => ⟨S8192, .f32⟩
  | 120 => ⟨S8192, .f32⟩
  | 121 => ⟨S_, .f32⟩
  | 122 => ⟨S_, .f32⟩
  | 123 => ⟨S_, .f32⟩
  | 124 => ⟨S_, .f32⟩
  | 125 => ⟨S_, .f32⟩
  | 126 => ⟨S_, .f32⟩
  | 127 => ⟨S_, .f32⟩
  | _ => ⟨S8192x256, .f32⟩

abbrev hbmTy0_1 (i : Nat) : BufTy := match i % 128 with
  | 0 => ⟨S_, .f32⟩
  | 1 => ⟨S_, .f32⟩
  | _ => ⟨S8192x256, .f32⟩

abbrev hbmTy (i : Nat) : BufTy := match i / 128 with
  | 0 => hbmTy0_0 i
  | 1 => hbmTy0_1 i
  | _ => ⟨S8192x256, .f32⟩

abbrev bufTy : (tb : Table) → Fin (tcTables nBuf tb) → BufTy
  | .hbm, ⟨i, _⟩ => hbmTy i
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_c_0 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_call0_v0 : Ref sig .tc := ⟨.hbm, 32, rfl⟩
abbrev main_call0_cst : Ref sig .tc := ⟨.hbm, 33, rfl⟩
abbrev main_call0_v1 : Ref sig .tc := ⟨.hbm, 34, rfl⟩
abbrev main_call0_v2 : Ref sig .tc := ⟨.hbm, 35, rfl⟩
abbrev main_v25 : Ref sig .tc := ⟨.hbm, 36, rfl⟩
abbrev main_cst_1 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_2 : Ref sig .tc := ⟨.hbm, 48, rfl⟩
abbrev main_v36 : Ref sig .tc := ⟨.hbm, 49, rfl⟩
abbrev main_v37 : Ref sig .tc := ⟨.hbm, 50, rfl⟩
abbrev main_cst_3 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_cst_4 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_cst_5 : Ref sig .tc := ⟨.hbm, 65, rfl⟩
abbrev main_v50 : Ref sig .tc := ⟨.hbm, 66, rfl⟩
abbrev main_cst_6 : Ref sig .tc := ⟨.hbm, 67, rfl⟩
abbrev main_v51 : Ref sig .tc := ⟨.hbm, 68, rfl⟩
abbrev main_v52 : Ref sig .tc := ⟨.hbm, 69, rfl⟩
abbrev main_cst_7 : Ref sig .tc := ⟨.hbm, 70, rfl⟩
abbrev main_v53 : Ref sig .tc := ⟨.hbm, 71, rfl⟩
abbrev main_cst_8 : Ref sig .tc := ⟨.hbm, 72, rfl⟩
abbrev main_v54 : Ref sig .tc := ⟨.hbm, 73, rfl⟩
abbrev main_cst_9 : Ref sig .tc := ⟨.hbm, 74, rfl⟩
abbrev main_v55 : Ref sig .tc := ⟨.hbm, 75, rfl⟩
abbrev main_cst_10 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_call1_v0 : Ref sig .tc := ⟨.hbm, 83, rfl⟩
abbrev main_call1_cst : Ref sig .tc := ⟨.hbm, 84, rfl⟩
abbrev main_call1_v1 : Ref sig .tc := ⟨.hbm, 85, rfl⟩
abbrev main_call1_v2 : Ref sig .tc := ⟨.hbm, 86, rfl⟩
abbrev main_v62 : Ref sig .tc := ⟨.hbm, 87, rfl⟩
abbrev main_cst_11 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_cst_12 : Ref sig .tc := ⟨.hbm, 99, rfl⟩
abbrev main_v73 : Ref sig .tc := ⟨.hbm, 100, rfl⟩
abbrev main_v74 : Ref sig .tc := ⟨.hbm, 101, rfl⟩
abbrev main_cst_13 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_cst_14 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_cst_15 : Ref sig .tc := ⟨.hbm, 116, rfl⟩
abbrev main_v87 : Ref sig .tc := ⟨.hbm, 117, rfl⟩
abbrev main_cst_16 : Ref sig .tc := ⟨.hbm, 118, rfl⟩
abbrev main_v88 : Ref sig .tc := ⟨.hbm, 119, rfl⟩
abbrev main_v89 : Ref sig .tc := ⟨.hbm, 120, rfl⟩
abbrev main_cst_17 : Ref sig .tc := ⟨.hbm, 121, rfl⟩
abbrev main_v90 : Ref sig .tc := ⟨.hbm, 122, rfl⟩
abbrev main_cst_18 : Ref sig .tc := ⟨.hbm, 123, rfl⟩
abbrev main_v91 : Ref sig .tc := ⟨.hbm, 124, rfl⟩
abbrev main_cst_19 : Ref sig .tc := ⟨.hbm, 125, rfl⟩
abbrev main_v92 : Ref sig .tc := ⟨.hbm, 126, rfl⟩
abbrev main_v93 : Ref sig .tc := ⟨.hbm, 127, rfl⟩
abbrev main_cst_20 : Ref sig .tc := ⟨.hbm, 128, rfl⟩
abbrev main_v94 : Ref sig .tc := ⟨.hbm, 129, rfl⟩

abbrev nD : Nat := 1
abbrev τ : Topo := Topo.v7x

variable {F : FTy → Type} [FloatOps F]

class Facts₀ : Prop where
  bcast_S_S4096x4096 : S_.BroadcastsInDim S4096x4096 (![] : Fin 0 → Fin S4096x4096.rank)
  shapeCasts_S4096x4096_S1x4096x1x4096 : S4096x4096.ShapeCasts S1x4096x1x4096
  bcast_S1x4096x1x4096_S2x4096x2x4096_0_1_2_3 : S1x4096x1x4096.BroadcastsInDim S2x4096x2x4096 (![0, 1, 2, 3] : Fin 4 → Fin S2x4096x2x4096.rank)
  shapeCasts_S2x4096x2x4096_S8192x8192 : S2x4096x2x4096.ShapeCasts S8192x8192
  bcast_S_S8192x8192 : S_.BroadcastsInDim S8192x8192 (![] : Fin 0 → Fin S8192x8192.rank)
  shapeCasts_S8192x256_S2x4096x256 : S8192x256.ShapeCasts S2x4096x256
  slices_S2x4096x256_S1x4096x256_0_0_0 : S2x4096x256.Slices ![0, 0, 0] S1x4096x256
  shapeCasts_S1x4096x256_S4096x256 : S1x4096x256.ShapeCasts S4096x256
  slices_S2x4096x256_S1x4096x256_1_0_0 : S2x4096x256.Slices ![1, 0, 0] S1x4096x256
  concatenates_S4096x256_S4096x256_S8192x256_d0 : Shape.Concatenates [S4096x256, S4096x256] S8192x256 0
  reducesTo_S8192x256_S8192_d1 : S8192x256.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x256_0_1 : S8192x1.BroadcastsInDim S8192x256 (![0, 1] : Fin 2 → Fin S8192x256.rank)
  transposes_S8192x256_S256x8192_1_0 : S8192x256.Transposes [1, 0] S256x8192
  reducesTo_S8192x8192_S8192_d1 : S8192x8192.ReducesTo [1] S8192
  bcast_S8192x1_S8192x8192_0_1 : S8192x1.BroadcastsInDim S8192x8192 (![0, 1] : Fin 2 → Fin S8192x8192.rank)
  reducesTo_S8192_S_d0 : S8192.ReducesTo [0] S_
  dot_S8192x256_S256x8192_S8192x8192_1_0_0_1_n_n_wf : DotDims.WF S8192x256 S256x8192 S8192x8192 [1] [0] [0] [1] [] []

variable [Facts₀]

def dot_S8192x256_S256x8192_S8192x8192_1_0_0_1_n_n : DotDims S8192x256 S256x8192 S8192x8192 where
  lhsContracting := [1]
  rhsContracting := [0]
  lhsNonContracting := [0]
  rhsNonContracting := [1]
  lhsBatch := []
  rhsBatch := []
  wf := dot_S8192x256_S256x8192_S8192x8192_1_0_0_1_n_n_wf

class Facts : Prop extends Facts₀ where

variable [Facts]
-- ==== Proof.WordPointRun.lean ====
import proofs.«111949_j33792802685631_1_alg».proof.Proof.Gen.Kernel.Frame
import proofs.«111949_j33792802685631_1_alg».proof.Proof.Gen.Kernel.Skeleton

set_option maxRecDepth 16384

noncomputable section

namespace Cert.Kernel.Pt

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Where the positive rows start

The second slice of the normalized features starts 4096 rows after the row block in the first half of
the rows and 4096 rows before it in the second half: modulo 8192 it is the row block's start plus 4096. -/

theorem posRows_eq : ∀ i : grid0.Coords, k0_off2 i = ![(256 * (i 1).val + 4096) % 8192, 0] := by decide +kernel
instance closedOff_posRows (i : grid0.Coords) : ClosedOff (k0_off2 i) := ⟨![(256 * (i 1).val + 4096) % 8192, 0], posRows_eq i⟩

/-! ## The branch on the row block -/

/-- The body normalizes the features exactly when the row-block coordinate is zero. -/
abbrev firstBlock (i : grid0.Coords) : Prop := (Scalar.cmpi .ne (Scalar.extui (Scalar.cmpi .eq (BitVec.ofNat 32 (i 1).val) 0#32)) 0#32) = 1#1
theorem firstBlock_iff : ∀ t : Fin cfg0.N, firstBlock (grid0.coords t) ↔ t.val % 32 = 0 :=
  (by decide +kernel : ∀ t : Fin grid0.N, firstBlock (grid0.coords t) ↔ t.val % 32 = 0)

/-! ## The memrefs the body is called with -/

abbrev ms0 (t : Fin cfg0.N) : Memref sig .tc .vmem S1x1 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x1 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x8192x256 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S256x1 .f32 := win0_3.stage (cfg0.slots t 3)
abbrev hs3 (t : Fin cfg0.N) : (ms3 t).IsWhole := hstage0_3 ((cfg0.slots t 3).cast nbuf0_3)
/-- The two scratch buffers: the normalized features in f32 and in bf16. -/
abbrev nrm : Memref sig .tc .vmem S8192x256 .f32 := Memref.whole cc0_scratch0
abbrev nrmH : Memref sig .tc .vmem S8192x256 .bf16 := Memref.whole cc0_scratch1

/-- The region invariant of the plain frame, with the two scratch buffers as memrefs owned at some contents. -/
theorem PhiA_eq (c : Dev nD) :
    (Pipeline.ΦA spec0 c : sProp 𝕄)
      = iprop(iprop((∃ d, owns (c : Thread nD τ) nrm fullShare d) ∗ (∃ d, owns (c : Thread nD τ) nrmH fullShare d)) ∗ (∃ r, prngReg c r)) := by
  unfold Pipeline.ΦA; rw [scopedRest0_eq]; simp only [nrm, nrmH, owns_whole]; try rfl

/-! ## The body at a grid point

At a point whose row block is the first of its term the body reads the term's features, stores their
normalization into both scratch buffers and then computes its block of rows from them; at every other
point it reads the two scratch buffers as the earlier point left them. In both cases the output block is
stored whole. The stores each buffer ends with are found by running the body. -/

set_option maxHeartbeats 4000000 in
/-- First row block of a term: the pieces stored into the output block and into the two scratch buffers,
    with the body's triple from the inputs' contents. -/
noncomputable def runFirst (c : Dev nD) (i : grid0.Coords) (arg2 : Memref sig .tc .vmem S1x1 .f32) (harg2 : arg2.IsWhole) (arg3 : Memref sig .tc .vmem S1x1 .f32) (harg3 : arg3.IsWhole) (arg4 : Memref sig .tc .vmem S1x8192x256 .f32) (harg4 : arg4.IsWhole) (arg5 : Memref sig .tc .vmem S256x1 .f32) (harg5 : arg5.IsWhole) (arg6 : Memref sig .tc .vmem S8192x256 .f32) (harg6 : arg6.IsWhole) (arg7 : Memref sig .tc .vmem S8192x256 .bf16) (harg7 : arg7.IsWhole) (hc0 : firstBlock i)
    (x0 : Vec F S1x1 .f32) (x1 : Vec F S1x1 .f32) (x2 : Vec F S1x8192x256 .f32) :
    Σ' (L3 : List (View.Piece (Elt F) S256x1 .f32)) (LS0 : List (View.Piece (Elt F) S8192x256 .f32)), { LS1 : List (View.Piece (Elt F) S8192x256 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f LS0)
                ∗ (∃ f, arg7.view.loc (c : Thread nD τ) ↦[arg7.view.set]{fullShare} arg7.view.writes (Elt F) f LS1)) -∗ K ⟨⟩))
          ⊢ wp frame (wpE (defs₀ (F := F)) Variants.none c none) E (cc0__contrastive_kernel i arg2 harg2 arg3 harg3 arg4 harg4 arg5 harg5 arg6 harg6 arg7 harg7) K } := by
  refine ⟨?_, ?_, ?_, fun E K => ?run⟩
  case run =>
    simp only [cc0__contrastive_kernel_eq_skeleton]; unfold cc0__contrastive_kernel_skel
    simp only [k0_part1_eq_skeleton]
    unfold owns
    iintro ⟨⟨%f0, %hf0, H0⟩, ⟨%f1, %hf1, H1⟩, ⟨%f2, %hf2, H2⟩, ⟨%d3, %f3, -, H3⟩, ⟨%ds0, %fs0, -, HS0⟩, ⟨%ds1, %fs1, -, HS1⟩, Hk⟩
    obtain rfl := harg2.eq_unread hf0; obtain rfl := harg3.eq_unread hf1; obtain rfl := harg4.eq_unread hf2
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [HS0]; · iexists _; iexact HS0
    iexists _; iexact HS1

set_option maxHeartbeats 4000000 in
/-- A later row block of a term: the pieces stored into the output block, with the body's triple from the
    inputs' contents and the two scratch buffers' contents, which it only reads. -/
noncomputable def runLater (c : Dev nD) (i : grid0.Coords) (arg2 : Memref sig .tc .vmem S1x1 .f32) (harg2 : arg2.IsWhole) (arg3 : Memref sig .tc .vmem S1x1 .f32) (harg3 : arg3.IsWhole) (arg4 : Memref sig .tc .vmem S1x8192x256 .f32) (harg4 : arg4.IsWhole) (arg5 : Memref sig .tc .vmem S256x1 .f32) (harg5 : arg5.IsWhole) (arg6 : Memref sig .tc .vmem S8192x256 .f32) (harg6 : arg6.IsWhole) (arg7 : Memref sig .tc .vmem S8192x256 .bf16) (harg7 : arg7.IsWhole) (hc0 : ¬firstBlock i)
    (x0 : Vec F S1x1 .f32) (x1 : Vec F S1x1 .f32) (x2 : Vec F S1x8192x256 .f32) (xs0 : Vec F S8192x256 .f32) (xs1 : Vec F S8192x256 .bf16) :
    { L3 : List (View.Piece (Elt F) S256x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0 ∗ owns (c : Thread nD τ) arg7 fullShare xs1
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ owns (c : Thread nD τ) arg6 fullShare xs0 ∗ owns (c : Thread nD τ) arg7 fullShare xs1) -∗ K ⟨⟩))
          ⊢ wp frame (wpE (defs₀ (F := F)) Variants.none c none) E (cc0__contrastive_kernel i arg2 harg2 arg3 harg3 arg4 harg4 arg5 harg5 arg6 harg6 arg7 harg7) K } := by
  refine ⟨?_, fun E K => ?run⟩
  case run =>
    simp only [cc0__contrastive_kernel_eq_skeleton]; unfold cc0__contrastive_kernel_skel
    simp only [k0_part1_eq_skeleton]
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, Hk⟩
    obtain rfl := harg2.eq_unread hf0; obtain rfl := harg3.eq_unread hf1; obtain rfl := harg4.eq_unread hf2
    obtain rfl := harg6.eq_unread hfs0; obtain rfl := harg7.eq_unread hfs1
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [HS0]
    · iexists _; isplitr; · ipureintro; exact harg6.read_unread _
      iexact HS0
    iexists _; isplitr; · ipureintro; exact harg7.read_unread _
    iexact HS1

/-! ## What the stores leave

Each buffer's contents after a point are its stored pieces read back; the pieces tile the buffer, so the
contents do not depend on what it held before. -/

/-- A staging buffer of the output window, through which its contents are stated. -/
abbrev VO : View sig .tc .vmem S256x1 .f32 := (Memref.whole cc0_stg3_0 : Memref sig .tc .vmem S256x1 .f32).view
abbrev VN : View sig .tc .vmem S8192x256 .f32 := nrm.view
abbrev VH : View sig .tc .vmem S8192x256 .bf16 := nrmH.view

theorem coverFirst_out (c : Dev nD) (i : grid0.Coords) (arg2 : Memref sig .tc .vmem S1x1 .f32) (harg2 : arg2.IsWhole) (arg3 : Memref sig .tc .vmem S1x1 .f32) (harg3 : arg3.IsWhole) (arg4 : Memref sig .tc .vmem S1x8192x256 .f32) (harg4 : arg4.IsWhole) (arg5 : Memref sig .tc .vmem S256x1 .f32) (harg5 : arg5.IsWhole) (arg6 : Memref sig .tc .vmem S8192x256 .f32) (harg6 : arg6.IsWhole) (arg7 : Memref sig .tc .vmem S8192x256 .bf16) (harg7 : arg7.IsWhole) (hc0 : firstBlock i)
    (x0 : Vec F S1x1 .f32) (x1 : Vec F S1x1 .f32) (x2 : Vec F S1x8192x256 .f32) (y : S256x1.Idx) :
    ∃ pc ∈ (runFirst c i arg2 harg2 arg3 harg3 arg4 harg4 arg5 harg5 arg6 harg6 arg7 harg7 hc0 x0 x1 x2).1, y ∈ pc.1.set :=
  View.cover_of_tiledL (runFirst c i arg2 harg2 arg3 harg3 arg4 harg4 arg5 harg5 arg6 harg6 arg7 harg7 hc0 x0 x1 x2).1 S256x1.size (by sl_kernel_rfl) y
theorem coverFirst_nrm (c : Dev nD) (i : grid0.Coords) (arg2 : Memref sig .tc .vmem S1x1 .f32) (harg2 : arg2.IsWhole) (arg3 : Memref sig .tc .vmem S1x1 .f32) (harg3 : arg3.IsWhole) (arg4 : Memref sig .tc .vmem S1x8192x256 .f32) (harg4 : arg4.IsWhole) (arg5 : Memref sig .tc .vmem S256x1 .f32) (harg5 : arg5.IsWhole) (arg6 : Memref sig .tc .vmem S8192x256 .f32) (harg6 : arg6.IsWhole) (arg7 : Memref sig .tc .vmem S8192x256 .bf16) (harg7 : arg7.IsWhole) (hc0 : firstBlock i)
    (x0 : Vec F S1x1 .f32) (x1 : Vec F S1x1 .f32) (x2 : Vec F S1x8192x256 .f32) (y : S8192x256.Idx) :
    ∃ pc ∈ (runFirst c i arg2 harg2 arg3 harg3 arg4 harg4 arg5 harg5 arg6 harg6 arg7 harg7 hc0 x0 x1 x2).2.1, y ∈ pc.1.set :=
  View.cover_of_tiledL (runFirst c i arg2 harg2 arg3 harg3 arg4 harg4 arg5 harg5 arg6 harg6 arg7 harg7 hc0 x0 x1 x2).2.1 S8192x256.size (by sl_kernel_rfl) y
theorem coverFirst_nrmH (c : Dev nD) (i : grid0.Coords) (arg2 : Memref sig .tc .vmem S1x1 .f32) (harg2 : arg2.IsWhole) (arg3 : Memref sig .tc .vmem S1x1 .f32) (harg3 : arg3.IsWhole) (arg4 : Memref sig .tc .vmem S1x8192x256 .f32) (harg4 : arg4.IsWhole) (arg5 : Memref sig .tc .vmem S256x1 .f32) (harg5 : arg5.IsWhole) (arg6 : Memref sig .tc .vmem S8192x256 .f32) (harg6 : arg6.IsWhole) (arg7 : Memref sig .tc .vmem S8192x256 .bf16) (harg7 : arg7.IsWhole) (hc0 : firstBlock i)
    (x0 : Vec F S1x1 .f32) (x1 : Vec F S1x1 .f32) (x2 : Vec F S1x8192x256 .f32) (y : S8192x256.Idx) :
    ∃ pc ∈ (runFirst c i arg2 harg2 arg3 harg3 arg4 harg4 arg5 harg5 arg6 harg6 arg7 harg7 hc0 x0 x1 x2).2.2.1, y ∈ pc.1.set :=
  View.cover_of_tiledL (runFirst c i arg2 harg2 arg3 harg3 arg4 harg4 arg5 harg5 arg6 harg6 arg7 harg7 hc0 x0 x1 x2).2.2.1 S8192x256.size (by sl_kernel_rfl) y
theorem coverLater_out (c : Dev nD) (i : grid0.Coords) (arg2 : Memref sig .tc .vmem S1x1 .f32) (harg2 : arg2.IsWhole) (arg3 : Memref sig .tc .vmem S1x1 .f32) (harg3 : arg3.IsWhole) (arg4 : Memref sig .tc .vmem S1x8192x256 .f32) (harg4 : arg4.IsWhole) (arg5 : Memref sig .tc .vmem S256x1 .f32) (harg5 : arg5.IsWhole) (arg6 : Memref sig .tc .vmem S8192x256 .f32) (harg6 : arg6.IsWhole) (arg7 : Memref sig .tc .vmem S8192x256 .bf16) (harg7 : arg7.IsWhole) (hc0 : ¬firstBlock i)
    (x0 : Vec F S1x1 .f32) (x1 : Vec F S1x1 .f32) (x2 : Vec F S1x8192x256 .f32) (xs0 : Vec F S8192x256 .f32) (xs1 : Vec F S8192x256 .bf16) (y : S256x1.Idx) :
    ∃ pc ∈ (runLater c i arg2 harg2 arg3 harg3 arg4 harg4 arg5 harg5 arg6 harg6 arg7 harg7 hc0 x0 x1 x2 xs0 xs1).1, y ∈ pc.1.set :=
  View.cover_of_tiledL (runLater c i arg2 harg2 arg3 harg3 arg4 harg4 arg5 harg5 arg6 harg6 arg7 harg7 hc0 x0 x1 x2 xs0 xs1).1 S256x1.size (by sl_kernel_rfl) y

/-- The output block after a first row block. -/
def outFirst (c : Dev nD) (i : grid0.Coords) (arg2 : Memref sig .tc .vmem S1x1 .f32) (harg2 : arg2.IsWhole) (arg3 : Memref sig .tc .vmem S1x1 .f32) (harg3 : arg3.IsWhole) (arg4 : Memref sig .tc .vmem S1x8192x256 .f32) (harg4 : arg4.IsWhole) (arg5 : Memref sig .tc .vmem S256x1 .f32) (harg5 : arg5.IsWhole) (arg6 : Memref sig .tc .vmem S8192x256 .f32) (harg6 : arg6.IsWhole) (arg7 : Memref sig .tc .vmem S8192x256 .bf16) (harg7 : arg7.IsWhole) (hc0 : firstBlock i)
    (x0 : Vec F S1x1 .f32) (x1 : Vec F S1x1 .f32) (x2 : Vec F S1x8192x256 .f32) : Vec F S256x1 .f32 :=
  VO.read (Elt F) (VO.writes (Elt F) VO.junk (runFirst c i arg2 harg2 arg3 harg3 arg4 harg4 arg5 harg5 arg6 harg6 arg7 harg7 hc0 x0 x1 x2).1)
/-- The normalized features a first row block leaves in the f32 scratch buffer. -/
def nrmFirst (c : Dev nD) (i : grid0.Coords) (arg2 : Memref sig .tc .vmem S1x1 .f32) (harg2 : arg2.IsWhole) (arg3 : Memref sig .tc .vmem S1x1 .f32) (harg3 : arg3.IsWhole) (arg4 : Memref sig .tc .vmem S1x8192x256 .f32) (harg4 : arg4.IsWhole) (arg5 : Memref sig .tc .vmem S256x1 .f32) (harg5 : arg5.IsWhole) (arg6 : Memref sig .tc .vmem S8192x256 .f32) (harg6 : arg6.IsWhole) (arg7 : Memref sig .tc .vmem S8192x256 .bf16) (harg7 : arg7.IsWhole) (hc0 : firstBlock i)
    (x0 : Vec F S1x1 .f32) (x1 : Vec F S1x1 .f32) (x2 : Vec F S1x8192x256 .f32) : Vec F S8192x256 .f32 :=
  VN.read (Elt F) (VN.writes (Elt F) VN.junk (runFirst c i arg2 harg2 arg3 harg3 arg4 harg4 arg5 harg5 arg6 harg6 arg7 harg7 hc0 x0 x1 x2).2.1)
/-- The same in the bf16 scratch buffer. -/
def nrmHFirst (c : Dev nD) (i : grid0.Coords) (arg2 : Memref sig .tc .vmem S1x1 .f32) (harg2 : arg2.IsWhole) (arg3 : Memref sig .tc .vmem S1x1 .f32) (harg3 : arg3.IsWhole) (arg4 : Memref sig .tc .vmem S1x8192x256 .f32) (harg4 : arg4.IsWhole) (arg5 : Memref sig .tc .vmem S256x1 .f32) (harg5 : arg5.IsWhole) (arg6 : Memref sig .tc .vmem S8192x256 .f32) (harg6 : arg6.IsWhole) (arg7 : Memref sig .tc .vmem S8192x256 .bf16) (harg7 : arg7.IsWhole) (hc0 : firstBlock i)
    (x0 : Vec F S1x1 .f32) (x1 : Vec F S1x1 .f32) (x2 : Vec F S1x8192x256 .f32) : Vec F S8192x256 .bf16 :=
  VH.read (Elt F) (VH.writes (Elt F) VH.junk (runFirst c i arg2 harg2 arg3 harg3 arg4 harg4 arg5 harg5 arg6 harg6 arg7 harg7 hc0 x0 x1 x2).2.2.1)
/-- The output block after a later row block, from the scratch buffers' contents. -/
def outLater (c : Dev nD) (i : grid0.Coords) (arg2 : Memref sig .tc .vmem S1x1 .f32) (harg2 : arg2.IsWhole) (arg3 : Memref sig .tc .vmem S1x1 .f32) (harg3 : arg3.IsWhole) (arg4 : Memref sig .tc .vmem S1x8192x256 .f32) (harg4 : arg4.IsWhole) (arg5 : Memref sig .tc .vmem S256x1 .f32) (harg5 : arg5.IsWhole) (arg6 : Memref sig .tc .vmem S8192x256 .f32) (harg6 : arg6.IsWhole) (arg7 : Memref sig .tc .vmem S8192x256 .bf16) (harg7 : arg7.IsWhole) (hc0 : ¬firstBlock i)
    (x0 : Vec F S1x1 .f32) (x1 : Vec F S1x1 .f32) (x2 : Vec F S1x8192x256 .f32) (xs0 : Vec F S8192x256 .f32) (xs1 : Vec F S8192x256 .bf16) : Vec F S256x1 .f32 :=
  VO.read (Elt F) (VO.writes (Elt F) VO.junk (runLater c i arg2 harg2 arg3 harg3 arg4 harg4 arg5 harg5 arg6 harg6 arg7 harg7 hc0 x0 x1 x2 xs0 xs1).1)

end Cert.Kernel.Pt

end
-- ==== Proof.WordPointFrame.lean ====
import proofs.«111949_j33792802685631_1_alg».proof.Proof.WordPointRun

set_option maxRecDepth 16384

noncomputable section

namespace Cert.Kernel.Pt

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The three buffers after each point

After point `n` the output's staging buffer holds that point's block, and the two scratch buffers hold the
normalization of the features of the point's term: stored by the term's first row block, kept by the later ones. -/

/-- A first row block: everything from the point's input blocks. -/
def firstAt (c : Dev nD) (t : Fin cfg0.N) (h : t.val % 32 = 0) : Vec F S256x1 .f32 × Vec F S8192x256 .f32 × Vec F S8192x256 .bf16 :=
  (outFirst c (grid0.coords t) (ms0 t) (hs0 t) (ms1 t) (hs1 t) (ms2 t) (hs2 t) (ms3 t) (hs3 t) nrm (Memref.isWhole_whole _) nrmH (Memref.isWhole_whole _) ((firstBlock_iff t).mpr h) (iblk m c 0 t) (iblk m c 1 t) (iblk m c 2 t),
   nrmFirst c (grid0.coords t) (ms0 t) (hs0 t) (ms1 t) (hs1 t) (ms2 t) (hs2 t) (ms3 t) (hs3 t) nrm (Memref.isWhole_whole _) nrmH (Memref.isWhole_whole _) ((firstBlock_iff t).mpr h) (iblk m c 0 t) (iblk m c 1 t) (iblk m c 2 t),
   nrmHFirst c (grid0.coords t) (ms0 t) (hs0 t) (ms1 t) (hs1 t) (ms2 t) (hs2 t) (ms3 t) (hs3 t) nrm (Memref.isWhole_whole _) nrmH (Memref.isWhole_whole _) ((firstBlock_iff t).mpr h) (iblk m c 0 t) (iblk m c 1 t) (iblk m c 2 t))

/-- A later row block: the output from the scratch buffers' contents, which stay. -/
def laterAt (c : Dev nD) (t : Fin cfg0.N) (h : ¬t.val % 32 = 0) (xs0 : Vec F S8192x256 .f32) (xs1 : Vec F S8192x256 .bf16) :
    Vec F S256x1 .f32 × Vec F S8192x256 .f32 × Vec F S8192x256 .bf16 :=
  (outLater c (grid0.coords t) (ms0 t) (hs0 t) (ms1 t) (hs1 t) (ms2 t) (hs2 t) (ms3 t) (hs3 t) nrm (Memref.isWhole_whole _) nrmH (Memref.isWhole_whole _) (fun hh => h ((firstBlock_iff t).mp hh)) (iblk m c 0 t) (iblk m c 1 t) (iblk m c 2 t) xs0 xs1, xs0, xs1)

def outsAt (c : Dev nD) : (n : ℕ) → n < cfg0.N → Vec F S256x1 .f32 × Vec F S8192x256 .f32 × Vec F S8192x256 .bf16
  | 0, hn => firstAt m c ⟨0, hn⟩ (Nat.zero_mod _)
  | n + 1, hn =>
    if h0 : (n + 1) % 32 = 0 then firstAt m c ⟨n + 1, hn⟩ h0
    else laterAt m c ⟨n + 1, hn⟩ h0 (outsAt c n (Nat.lt_of_succ_lt hn)).2.1 (outsAt c n (Nat.lt_of_succ_lt hn)).2.2

theorem outsAt_first (c : Dev nD) (t : Fin cfg0.N) (h0 : t.val % 32 = 0) : outsAt m c t.val t.isLt = firstAt m c t h0 := by
  obtain ⟨n, hn⟩ := t
  cases n with
  | zero => exact rfl
  | succ n => exact (dif_pos h0).trans rfl

theorem outsAt_later (c : Dev nD) (t : Fin cfg0.N) (h0 : ¬t.val % 32 = 0) :
    outsAt m c t.val t.isLt = laterAt m c t h0 (outsAt m c (t.val - 1) (Nat.lt_of_le_of_lt (Nat.sub_le _ _) t.isLt)).2.1
      (outsAt m c (t.val - 1) (Nat.lt_of_le_of_lt (Nat.sub_le _ _) t.isLt)).2.2 := by
  obtain ⟨n, hn⟩ := t
  cases n with
  | zero => exact absurd (Nat.zero_mod _) h0
  | succ n => exact (dif_neg h0).trans rfl

/-- The region invariant before point `n`: before the first point both scratch buffers hold anything; afterwards
    they hold what the point before left. The generator register is at some state throughout. -/
def PhiS (c : Dev nD) : (n : ℕ) → n ≤ cfg0.N → sProp 𝕄
  | 0, _ => Pipeline.ΦA spec0 c
  | n + 1, hn => iprop(iprop(owns (c : Thread nD τ) nrm fullShare ((outsAt m c n hn).2.1) ∗ owns (c : Thread nD τ) nrmH fullShare ((outsAt m c n hn).2.2)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) nrm fullShare ((outsAt m c n hn).2.1) ∗ owns (c : Thread nD τ) nrmH fullShare ((outsAt m c n hn).2.2)) ∗ (∃ r, prngReg c r)) := rfl
theorem PhiS_pos (c : Dev nD) (n : ℕ) (h : n ≤ cfg0.N) (hz : n ≠ 0) :
    PhiS m c n h = iprop(iprop(owns (c : Thread nD τ) nrm fullShare ((outsAt m c (n - 1) (by omega)).2.1) ∗ owns (c : Thread nD τ) nrmH fullShare ((outsAt m c (n - 1) (by omega)).2.2)) ∗ (∃ r, prngReg c r)) := by
  cases n with
  | zero => exact absurd rfl hz
  | succ n => rfl

/-! ## The pipeline's proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = (outsAt m c t.val t.isLt).1 := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t))

set_option maxHeartbeats 4800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2]
  rw [show (dats m 0 c).owesAt () t.succ = (dats m 0 c).owesAt () t.castSucc from rfl]
  rw [show (dats m 0 c).Φ t.succ = PhiS m c (t.val + 1) t.isLt from rfl, PhiS_succ]
  rw [after_0, after_1, after_2, after_3]
  have hN : t.val < 64 := lt_of_lt_of_eq t.isLt (show cfg0.N = 64 from N_0)
  by_cases h0 : t.val % 32 = 0
  · rw [outsAt_first m c t h0]
    unfold firstAt outFirst nrmFirst nrmHFirst; (try dsimp only)
    by_cases hz : t.val = 0
    · rw [PhiS_castSucc m c t, PhiS_zero m c _ _ hz, PhiA_eq]
      iintro ⟨⟨⟨HS0, HS1⟩, Hg⟩, Ho, ⟨%d0, H0⟩, ⟨%d1, H1⟩, ⟨%d2, H2⟩, ⟨%d3, H3⟩⟩
      iapply ((runFirst c (grid0.coords t) _ _ _ _ _ _ _ _ _ _ _ _ ((firstBlock_iff t).mpr h0) (iblk m c 0 t) (iblk m c 1 t) (iblk m c 2 t)).2.2.2 Set.univ _)
      isplitl [H0]; · iexact H0
      isplitl [H1]; · iexact H1
      isplitl [H2]; · iexact H2
      isplitl [H3]; · iexists _; iexact H3
      isplitl [HS0]; · iexact HS0
      isplitl [HS1]; · iexact HS1
      iintro ⟨H0, H1, H2, ⟨%e3, H3⟩, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (coverFirst_nrm c _ _ _ _ _ _ _ _ _ _ _ _ _ _ _ _ _)
          unfold owns; iexists _; isplitr
          swap; · iexact HS1
          ipureintro; exact View.read_writes_of_cover _ _ _ _ _ (coverFirst_nrmH c _ _ _ _ _ _ _ _ _ _ _ _ _ _ _ _ _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (coverFirst_out c _ _ _ _ _ _ _ _ _ _ _ _ _ _ _ _ _)
    · rw [PhiS_castSucc m c t, PhiS_pos m c _ _ hz]
      iintro ⟨⟨⟨HS0, HS1⟩, Hg⟩, Ho, ⟨%d0, H0⟩, ⟨%d1, H1⟩, ⟨%d2, H2⟩, ⟨%d3, H3⟩⟩
      iapply ((runFirst c (grid0.coords t) _ _ _ _ _ _ _ _ _ _ _ _ ((firstBlock_iff t).mpr h0) (iblk m c 0 t) (iblk m c 1 t) (iblk m c 2 t)).2.2.2 Set.univ _)
      isplitl [H0]; · iexact H0
      isplitl [H1]; · iexact H1
      isplitl [H2]; · iexact H2
      isplitl [H3]; · iexists _; iexact H3
      isplitl [HS0]; · iexists _; iexact HS0
      isplitl [HS1]; · iexists _; iexact HS1
      iintro ⟨H0, H1, H2, ⟨%e3, H3⟩, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (coverFirst_nrm c _ _ _ _ _ _ _ _ _ _ _ _ _ _ _ _ _)
          unfold owns; iexists _; isplitr
          swap; · iexact HS1
          ipureintro; exact View.read_writes_of_cover _ _ _ _ _ (coverFirst_nrmH c _ _ _ _ _ _ _ _ _ _ _ _ _ _ _ _ _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (coverFirst_out c _ _ _ _ _ _ _ _ _ _ _ _ _ _ _ _ _)
  · rw [outsAt_later m c t h0]
    unfold laterAt outLater; (try dsimp only)
    have hz : t.val ≠ 0 := fun hz => h0 (by rw [hz])
    rw [PhiS_castSucc m c t, PhiS_pos m c _ _ hz]
    iintro ⟨⟨⟨HS0, HS1⟩, Hg⟩, Ho, ⟨%d0, H0⟩, ⟨%d1, H1⟩, ⟨%d2, H2⟩, ⟨%d3, H3⟩⟩
    iapply ((runLater c (grid0.coords t) _ _ _ _ _ _ _ _ _ _ _ _ (fun hh => h0 ((firstBlock_iff t).mp hh)) (iblk m c 0 t) (iblk m c 1 t) (iblk m c 2 t) _ _).2 Set.univ _)
    isplitl [H0]; · iexact H0
    isplitl [H1]; · iexact H1
    isplitl [H2]; · iexact H2
    isplitl [H3]; · iexists _; iexact H3
    isplitl [HS0]; · iexact HS0
    isplitl [HS1]; · iexact HS1
    iintro ⟨H0, H1, H2, ⟨%e3, H3⟩, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (coverLater_out c _ _ _ _ _ _ _ _ _ _ _ _ _ _ _ _ _ _ _)

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 64 := N_0; omega), PhiA_eq]
  iintro ⟨⟨HS0, HS1⟩, Hg⟩
  isplitl [HS0 HS1]
  · isplitl [HS0]
    · iexists _; iexact HS0
    iexists _; iexact HS1
  iexact Hg

/-! ## The run and the frame -/

set_option backward.isDefEq.respectTransparency.types false in
/-- Every weakly fair execution of @main terminates; the output array ends at what the proof data's blocks
    make of it, every other buffer as the lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame: the program runs and its four argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.Kernel.Pt

end
-- ==== Proof.PointRun.lean ====
import proofs.«111949_j33792802685631_1_alg».proof.Proof.Gen.KernelIdeal.Frame
import proofs.«111949_j33792802685631_1_alg».proof.Proof.Gen.KernelIdeal.Skeleton

set_option maxRecDepth 16384

noncomputable section

namespace Cert.KernelIdeal.Pt

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Where the positive rows start

The second slice of the normalized features starts 4096 rows after the row block in the first half of
the rows and 4096 rows before it in the second half: modulo 8192 it is the row block's start plus 4096. -/

theorem posRows_eq : ∀ i : grid0.Coords, k0_off2 i = ![(256 * (i 1).val + 4096) % 8192, 0] := by decide +kernel
instance closedOff_posRows (i : grid0.Coords) : ClosedOff (k0_off2 i) := ⟨![(256 * (i 1).val + 4096) % 8192, 0], posRows_eq i⟩

/-! ## The branch on the row block -/

/-- The body normalizes the features exactly when the row-block coordinate is zero. -/
abbrev firstBlock (i : grid0.Coords) : Prop := (Scalar.cmpi .ne (Scalar.extui (Scalar.cmpi .eq (BitVec.ofNat 32 (i 1).val) 0#32)) 0#32) = 1#1
theorem firstBlock_iff : ∀ t : Fin cfg0.N, firstBlock (grid0.coords t) ↔ t.val % 32 = 0 :=
  (by decide +kernel : ∀ t : Fin grid0.N, firstBlock (grid0.coords t) ↔ t.val % 32 = 0)

/-! ## The memrefs the body is called with -/

abbrev ms0 (t : Fin cfg0.N) : Memref sig .tc .vmem S1x1 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x1 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x8192x256 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S256x1 .f32 := win0_3.stage (cfg0.slots t 3)
abbrev hs3 (t : Fin cfg0.N) : (ms3 t).IsWhole := hstage0_3 ((cfg0.slots t 3).cast nbuf0_3)
/-- The two scratch buffers: the normalized features in f32 and in bf16. -/
abbrev nrm : Memref sig .tc .vmem S8192x256 .f32 := Memref.whole cc0_scratch0
abbrev nrmH : Memref sig .tc .vmem S8192x256 .bf16 := Memref.whole cc0_scratch1

/-- The region invariant of the plain frame, with the two scratch buffers as memrefs owned at some contents. -/
theorem PhiA_eq (c : Dev nD) :
    (Pipeline.ΦA spec0 c : sProp 𝕄)
      = iprop(iprop((∃ d, owns (c : Thread nD τ) nrm fullShare d) ∗ (∃ d, owns (c : Thread nD τ) nrmH fullShare d)) ∗ (∃ r, prngReg c r)) := by
  unfold Pipeline.ΦA; rw [scopedRest0_eq]; simp only [nrm, nrmH, owns_whole]; try rfl

/-! ## The body at a grid point

At a point whose row block is the first of its term the body reads the term's features, stores their
normalization into both scratch buffers and then computes its block of rows from them; at every other
point it reads the two scratch buffers as the earlier point left them. In both cases the output block is
stored whole. The stores each buffer ends with are found by running the body. -/

set_option maxHeartbeats 4000000 in
/-- First row block of a term: the pieces stored into the output block and into the two scratch buffers,
    with the body's triple from the inputs' contents. -/
noncomputable def runFirst (c : Dev nD) (i : grid0.Coords) (arg2 : Memref sig .tc .vmem S1x1 .f32) (harg2 : arg2.IsWhole) (arg3 : Memref sig .tc .vmem S1x1 .f32) (harg3 : arg3.IsWhole) (arg4 : Memref sig .tc .vmem S1x8192x256 .f32) (harg4 : arg4.IsWhole) (arg5 : Memref sig .tc .vmem S256x1 .f32) (harg5 : arg5.IsWhole) (arg6 : Memref sig .tc .vmem S8192x256 .f32) (harg6 : arg6.IsWhole) (arg7 : Memref sig .tc .vmem S8192x256 .bf16) (harg7 : arg7.IsWhole) (hc0 : firstBlock i)
    (x0 : Vec F S1x1 .f32) (x1 : Vec F S1x1 .f32) (x2 : Vec F S1x8192x256 .f32) :
    Σ' (L3 : List (View.Piece (Elt F) S256x1 .f32)) (LS0 : List (View.Piece (Elt F) S8192x256 .f32)), { LS1 : List (View.Piece (Elt F) S8192x256 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f LS0)
                ∗ (∃ f, arg7.view.loc (c : Thread nD τ) ↦[arg7.view.set]{fullShare} arg7.view.writes (Elt F) f LS1)) -∗ K ⟨⟩))
          ⊢ wp frame (wpE (defs₀ (F := F)) Variants.none c none) E (cc0__contrastive_kernel i arg2 harg2 arg3 harg3 arg4 harg4 arg5 harg5 arg6 harg6 arg7 harg7) K } := by
  refine ⟨?_, ?_, ?_, fun E K => ?run⟩
  case run =>
    simp only [cc0__contrastive_kernel_eq_skeleton]; unfold cc0__contrastive_kernel_skel
    simp only [k0_part1_eq_skeleton]
    unfold owns
    iintro ⟨⟨%f0, %hf0, H0⟩, ⟨%f1, %hf1, H1⟩, ⟨%f2, %hf2, H2⟩, ⟨%d3, %f3, -, H3⟩, ⟨%ds0, %fs0, -, HS0⟩, ⟨%ds1, %fs1, -, HS1⟩, Hk⟩
    obtain rfl := harg2.eq_unread hf0; obtain rfl := harg3.eq_unread hf1; obtain rfl := harg4.eq_unread hf2
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [HS0]; · iexists _; iexact HS0
    iexists _; iexact HS1

set_option maxHeartbeats 4000000 in
/-- A later row block of a term: the pieces stored into the output block, with the body's triple from the
    inputs' contents and the two scratch buffers' contents, which it only reads. -/
noncomputable def runLater (c : Dev nD) (i : grid0.Coords) (arg2 : Memref sig .tc .vmem S1x1 .f32) (harg2 : arg2.IsWhole) (arg3 : Memref sig .tc .vmem S1x1 .f32) (harg3 : arg3.IsWhole) (arg4 : Memref sig .tc .vmem S1x8192x256 .f32) (harg4 : arg4.IsWhole) (arg5 : Memref sig .tc .vmem S256x1 .f32) (harg5 : arg5.IsWhole) (arg6 : Memref sig .tc .vmem S8192x256 .f32) (harg6 : arg6.IsWhole) (arg7 : Memref sig .tc .vmem S8192x256 .bf16) (harg7 : arg7.IsWhole) (hc0 : ¬firstBlock i)
    (x0 : Vec F S1x1 .f32) (x1 : Vec F S1x1 .f32) (x2 : Vec F S1x8192x256 .f32) (xs0 : Vec F S8192x256 .f32) (xs1 : Vec F S8192x256 .bf16) :
    { L3 : List (View.Piece (Elt F) S256x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0 ∗ owns (c : Thread nD τ) arg7 fullShare xs1
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ owns (c : Thread nD τ) arg6 fullShare xs0 ∗ owns (c : Thread nD τ) arg7 fullShare xs1) -∗ K ⟨⟩))
          ⊢ wp frame (wpE (defs₀ (F := F)) Variants.none c none) E (cc0__contrastive_kernel i arg2 harg2 arg3 harg3 arg4 harg4 arg5 harg5 arg6 harg6 arg7 harg7) K } := by
  refine ⟨?_, fun E K => ?run⟩
  case run =>
    simp only [cc0__contrastive_kernel_eq_skeleton]; unfold cc0__contrastive_kernel_skel
    simp only [k0_part1_eq_skeleton]
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, Hk⟩
    obtain rfl := harg2.eq_unread hf0; obtain rfl := harg3.eq_unread hf1; obtain rfl := harg4.eq_unread hf2
    obtain rfl := harg6.eq_unread hfs0; obtain rfl := harg7.eq_unread hfs1
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [HS0]
    · iexists _; isplitr; · ipureintro; exact harg6.read_unread _
      iexact HS0
    iexists _; isplitr; · ipureintro; exact harg7.read_unread _
    iexact HS1

/-! ## What the stores leave

Each buffer's contents after a point are its stored pieces read back; the pieces tile the buffer, so the
contents do not depend on what it held before. -/

/-- A staging buffer of the output window, through which its contents are stated. -/
abbrev VO : View sig .tc .vmem S256x1 .f32 := (Memref.whole cc0_stg3_0 : Memref sig .tc .vmem S256x1 .f32).view
abbrev VN : View sig .tc .vmem S8192x256 .f32 := nrm.view
abbrev VH : View sig .tc .vmem S8192x256 .bf16 := nrmH.view

theorem coverFirst_out (c : Dev nD) (i : grid0.Coords) (arg2 : Memref sig .tc .vmem S1x1 .f32) (harg2 : arg2.IsWhole) (arg3 : Memref sig .tc .vmem S1x1 .f32) (harg3 : arg3.IsWhole) (arg4 : Memref sig .tc .vmem S1x8192x256 .f32) (harg4 : arg4.IsWhole) (arg5 : Memref sig .tc .vmem S256x1 .f32) (harg5 : arg5.IsWhole) (arg6 : Memref sig .tc .vmem S8192x256 .f32) (harg6 : arg6.IsWhole) (arg7 : Memref sig .tc .vmem S8192x256 .bf16) (harg7 : arg7.IsWhole) (hc0 : firstBlock i)
    (x0 : Vec F S1x1 .f32) (x1 : Vec F S1x1 .f32) (x2 : Vec F S1x8192x256 .f32) (y : S256x1.Idx) :
    ∃ pc ∈ (runFirst c i arg2 harg2 arg3 harg3 arg4 harg4 arg5 harg5 arg6 harg6 arg7 harg7 hc0 x0 x1 x2).1, y ∈ pc.1.set :=
  View.cover_of_tiledL (runFirst c i arg2 harg2 arg3 harg3 arg4 harg4 arg5 harg5 arg6 harg6 arg7 harg7 hc0 x0 x1 x2).1 S256x1.size (by sl_kernel_rfl) y
theorem coverFirst_nrm (c : Dev nD) (i : grid0.Coords) (arg2 : Memref sig .tc .vmem S1x1 .f32) (harg2 : arg2.IsWhole) (arg3 : Memref sig .tc .vmem S1x1 .f32) (harg3 : arg3.IsWhole) (arg4 : Memref sig .tc .vmem S1x8192x256 .f32) (harg4 : arg4.IsWhole) (arg5 : Memref sig .tc .vmem S256x1 .f32) (harg5 : arg5.IsWhole) (arg6 : Memref sig .tc .vmem S8192x256 .f32) (harg6 : arg6.IsWhole) (arg7 : Memref sig .tc .vmem S8192x256 .bf16) (harg7 : arg7.IsWhole) (hc0 : firstBlock i)
    (x0 : Vec F S1x1 .f32) (x1 : Vec F S1x1 .f32) (x2 : Vec F S1x8192x256 .f32) (y : S8192x256.Idx) :
    ∃ pc ∈ (runFirst c i arg2 harg2 arg3 harg3 arg4 harg4 arg5 harg5 arg6 harg6 arg7 harg7 hc0 x0 x1 x2).2.1, y ∈ pc.1.set :=
  View.cover_of_tiledL (runFirst c i arg2 harg2 arg3 harg3 arg4 harg4 arg5 harg5 arg6 harg6 arg7 harg7 hc0 x0 x1 x2).2.1 S8192x256.size (by sl_kernel_rfl) y
theorem coverFirst_nrmH (c : Dev nD) (i : grid0.Coords) (arg2 : Memref sig .tc .vmem S1x1 .f32) (harg2 : arg2.IsWhole) (arg3 : Memref sig .tc .vmem S1x1 .f32) (harg3 : arg3.IsWhole) (arg4 : Memref sig .tc .vmem S1x8192x256 .f32) (harg4 : arg4.IsWhole) (arg5 : Memref sig .tc .vmem S256x1 .f32) (harg5 : arg5.IsWhole) (arg6 : Memref sig .tc .vmem S8192x256 .f32) (harg6 : arg6.IsWhole) (arg7 : Memref sig .tc .vmem S8192x256 .bf16) (harg7 : arg7.IsWhole) (hc0 : firstBlock i)
    (x0 : Vec F S1x1 .f32) (x1 : Vec F S1x1 .f32) (x2 : Vec F S1x8192x256 .f32) (y : S8192x256.Idx) :
    ∃ pc ∈ (runFirst c i arg2 harg2 arg3 harg3 arg4 harg4 arg5 harg5 arg6 harg6 arg7 harg7 hc0 x0 x1 x2).2.2.1, y ∈ pc.1.set :=
  View.cover_of_tiledL (runFirst c i arg2 harg2 arg3 harg3 arg4 harg4 arg5 harg5 arg6 harg6 arg7 harg7 hc0 x0 x1 x2).2.2.1 S8192x256.size (by sl_kernel_rfl) y
theorem coverLater_out (c : Dev nD) (i : grid0.Coords) (arg2 : Memref sig .tc .vmem S1x1 .f32) (harg2 : arg2.IsWhole) (arg3 : Memref sig .tc .vmem S1x1 .f32) (harg3 : arg3.IsWhole) (arg4 : Memref sig .tc .vmem S1x8192x256 .f32) (harg4 : arg4.IsWhole) (arg5 : Memref sig .tc .vmem S256x1 .f32) (harg5 : arg5.IsWhole) (arg6 : Memref sig .tc .vmem S8192x256 .f32) (harg6 : arg6.IsWhole) (arg7 : Memref sig .tc .vmem S8192x256 .bf16) (harg7 : arg7.IsWhole) (hc0 : ¬firstBlock i)
    (x0 : Vec F S1x1 .f32) (x1 : Vec F S1x1 .f32) (x2 : Vec F S1x8192x256 .f32) (xs0 : Vec F S8192x256 .f32) (xs1 : Vec F S8192x256 .bf16) (y : S256x1.Idx) :
    ∃ pc ∈ (runLater c i arg2 harg2 arg3 harg3 arg4 harg4 arg5 harg5 arg6 harg6 arg7 harg7 hc0 x0 x1 x2 xs0 xs1).1, y ∈ pc.1.set :=
  View.cover_of_tiledL (runLater c i arg2 harg2 arg3 harg3 arg4 harg4 arg5 harg5 arg6 harg6 arg7 harg7 hc0 x0 x1 x2 xs0 xs1).1 S256x1.size (by sl_kernel_rfl) y

/-- The output block after a first row block. -/
def outFirst (c : Dev nD) (i : grid0.Coords) (arg2 : Memref sig .tc .vmem S1x1 .f32) (harg2 : arg2.IsWhole) (arg3 : Memref sig .tc .vmem S1x1 .f32) (harg3 : arg3.IsWhole) (arg4 : Memref sig .tc .vmem S1x8192x256 .f32) (harg4 : arg4.IsWhole) (arg5 : Memref sig .tc .vmem S256x1 .f32) (harg5 : arg5.IsWhole) (arg6 : Memref sig .tc .vmem S8192x256 .f32) (harg6 : arg6.IsWhole) (arg7 : Memref sig .tc .vmem S8192x256 .bf16) (harg7 : arg7.IsWhole) (hc0 : firstBlock i)
    (x0 : Vec F S1x1 .f32) (x1 : Vec F S1x1 .f32) (x2 : Vec F S1x8192x256 .f32) : Vec F S256x1 .f32 :=
  VO.read (Elt F) (VO.writes (Elt F) VO.junk (runFirst c i arg2 harg2 arg3 harg3 arg4 harg4 arg5 harg5 arg6 harg6 arg7 harg7 hc0 x0 x1 x2).1)
/-- The normalized features a first row block leaves in the f32 scratch buffer. -/
def nrmFirst (c : Dev nD) (i : grid0.Coords) (arg2 : Memref sig .tc .vmem S1x1 .f32) (harg2 : arg2.IsWhole) (arg3 : Memref sig .tc .vmem S1x1 .f32) (harg3 : arg3.IsWhole) (arg4 : Memref sig .tc .vmem S1x8192x256 .f32) (harg4 : arg4.IsWhole) (arg5 : Memref sig .tc .vmem S256x1 .f32) (harg5 : arg5.IsWhole) (arg6 : Memref sig .tc .vmem S8192x256 .f32) (harg6 : arg6.IsWhole) (arg7 : Memref sig .tc .vmem S8192x256 .bf16) (harg7 : arg7.IsWhole) (hc0 : firstBlock i)
    (x0 : Vec F S1x1 .f32) (x1 : Vec F S1x1 .f32) (x2 : Vec F S1x8192x256 .f32) : Vec F S8192x256 .f32 :=
  VN.read (Elt F) (VN.writes (Elt F) VN.junk (runFirst c i arg2 harg2 arg3 harg3 arg4 harg4 arg5 harg5 arg6 harg6 arg7 harg7 hc0 x0 x1 x2).2.1)
/-- The same in the bf16 scratch buffer. -/
def nrmHFirst (c : Dev nD) (i : grid0.Coords) (arg2 : Memref sig .tc .vmem S1x1 .f32) (harg2 : arg2.IsWhole) (arg3 : Memref sig .tc .vmem S1x1 .f32) (harg3 : arg3.IsWhole) (arg4 : Memref sig .tc .vmem S1x8192x256 .f32) (harg4 : arg4.IsWhole) (arg5 : Memref sig .tc .vmem S256x1 .f32) (harg5 : arg5.IsWhole) (arg6 : Memref sig .tc .vmem S8192x256 .f32) (harg6 : arg6.IsWhole) (arg7 : Memref sig .tc .vmem S8192x256 .bf16) (harg7 : arg7.IsWhole) (hc0 : firstBlock i)
    (x0 : Vec F S1x1 .f32) (x1 : Vec F S1x1 .f32) (x2 : Vec F S1x8192x256 .f32) : Vec F S8192x256 .bf16 :=
  VH.read (Elt F) (VH.writes (Elt F) VH.junk (runFirst c i arg2 harg2 arg3 harg3 arg4 harg4 arg5 harg5 arg6 harg6 arg7 harg7 hc0 x0 x1 x2).2.2.1)
/-- The output block after a later row block, from the scratch buffers' contents. -/
def outLater (c : Dev nD) (i : grid0.Coords) (arg2 : Memref sig .tc .vmem S1x1 .f32) (harg2 : arg2.IsWhole) (arg3 : Memref sig .tc .vmem S1x1 .f32) (harg3 : arg3.IsWhole) (arg4 : Memref sig .tc .vmem S1x8192x256 .f32) (harg4 : arg4.IsWhole) (arg5 : Memref sig .tc .vmem S256x1 .f32) (harg5 : arg5.IsWhole) (arg6 : Memref sig .tc .vmem S8192x256 .f32) (harg6 : arg6.IsWhole) (arg7 : Memref sig .tc .vmem S8192x256 .bf16) (harg7 : arg7.IsWhole) (hc0 : ¬firstBlock i)
    (x0 : Vec F S1x1 .f32) (x1 : Vec F S1x1 .f32) (x2 : Vec F S1x8192x256 .f32) (xs0 : Vec F S8192x256 .f32) (xs1 : Vec F S8192x256 .bf16) : Vec F S256x1 .f32 :=
  VO.read (Elt F) (VO.writes (Elt F) VO.junk (runLater c i arg2 harg2 arg3 harg3 arg4 harg4 arg5 harg5 arg6 harg6 arg7 harg7 hc0 x0 x1 x2 xs0 xs1).1)

end Cert.KernelIdeal.Pt

end
-- ==== Proof.PointFrame.lean ====
import proofs.«111949_j33792802685631_1_alg».proof.Proof.PointRun

set_option maxRecDepth 16384

noncomputable section

namespace Cert.KernelIdeal.Pt

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The three buffers after each point

After point `n` the output's staging buffer holds that point's block, and the two scratch buffers hold the
normalization of the features of the point's term: stored by the term's first row block, kept by the later ones. -/

/-- A first row block: everything from the point's input blocks. -/
def firstAt (c : Dev nD) (t : Fin cfg0.N) (h : t.val % 32 = 0) : Vec F S256x1 .f32 × Vec F S8192x256 .f32 × Vec F S8192x256 .bf16 :=
  (outFirst c (grid0.coords t) (ms0 t) (hs0 t) (ms1 t) (hs1 t) (ms2 t) (hs2 t) (ms3 t) (hs3 t) nrm (Memref.isWhole_whole _) nrmH (Memref.isWhole_whole _) ((firstBlock_iff t).mpr h) (iblk m c 0 t) (iblk m c 1 t) (iblk m c 2 t),
   nrmFirst c (grid0.coords t) (ms0 t) (hs0 t) (ms1 t) (hs1 t) (ms2 t) (hs2 t) (ms3 t) (hs3 t) nrm (Memref.isWhole_whole _) nrmH (Memref.isWhole_whole _) ((firstBlock_iff t).mpr h) (iblk m c 0 t) (iblk m c 1 t) (iblk m c 2 t),
   nrmHFirst c (grid0.coords t) (ms0 t) (hs0 t) (ms1 t) (hs1 t) (ms2 t) (hs2 t) (ms3 t) (hs3 t) nrm (Memref.isWhole_whole _) nrmH (Memref.isWhole_whole _) ((firstBlock_iff t).mpr h) (iblk m c 0 t) (iblk m c 1 t) (iblk m c 2 t))

/-- A later row block: the output from the scratch buffers' contents, which stay. -/
def laterAt (c : Dev nD) (t : Fin cfg0.N) (h : ¬t.val % 32 = 0) (xs0 : Vec F S8192x256 .f32) (xs1 : Vec F S8192x256 .bf16) :
    Vec F S256x1 .f32 × Vec F S8192x256 .f32 × Vec F S8192x256 .bf16 :=
  (outLater c (grid0.coords t) (ms0 t) (hs0 t) (ms1 t) (hs1 t) (ms2 t) (hs2 t) (ms3 t) (hs3 t) nrm (Memref.isWhole_whole _) nrmH (Memref.isWhole_whole _) (fun hh => h ((firstBlock_iff t).mp hh)) (iblk m c 0 t) (iblk m c 1 t) (iblk m c 2 t) xs0 xs1, xs0, xs1)

def outsAt (c : Dev nD) : (n : ℕ) → n < cfg0.N → Vec F S256x1 .f32 × Vec F S8192x256 .f32 × Vec F S8192x256 .bf16
  | 0, hn => firstAt m c ⟨0, hn⟩ (Nat.zero_mod _)
  | n + 1, hn =>
    if h0 : (n + 1) % 32 = 0 then firstAt m c ⟨n + 1, hn⟩ h0
    else laterAt m c ⟨n + 1, hn⟩ h0 (outsAt c n (Nat.lt_of_succ_lt hn)).2.1 (outsAt c n (Nat.lt_of_succ_lt hn)).2.2

theorem outsAt_first (c : Dev nD) (t : Fin cfg0.N) (h0 : t.val % 32 = 0) : outsAt m c t.val t.isLt = firstAt m c t h0 := by
  obtain ⟨n, hn⟩ := t
  cases n with
  | zero => exact rfl
  | succ n => exact (dif_pos h0).trans rfl

theorem outsAt_later (c : Dev nD) (t : Fin cfg0.N) (h0 : ¬t.val % 32 = 0) :
    outsAt m c t.val t.isLt = laterAt m c t h0 (outsAt m c (t.val - 1) (Nat.lt_of_le_of_lt (Nat.sub_le _ _) t.isLt)).2.1
      (outsAt m c (t.val - 1) (Nat.lt_of_le_of_lt (Nat.sub_le _ _) t.isLt)).2.2 := by
  obtain ⟨n, hn⟩ := t
  cases n with
  | zero => exact absurd (Nat.zero_mod _) h0
  | succ n => exact (dif_neg h0).trans rfl

/-- The region invariant before point `n`: before the first point both scratch buffers hold anything; afterwards
    they hold what the point before left. The generator register is at some state throughout. -/
def PhiS (c : Dev nD) : (n : ℕ) → n ≤ cfg0.N → sProp 𝕄
  | 0, _ => Pipeline.ΦA spec0 c
  | n + 1, hn => iprop(iprop(owns (c : Thread nD τ) nrm fullShare ((outsAt m c n hn).2.1) ∗ owns (c : Thread nD τ) nrmH fullShare ((outsAt m c n hn).2.2)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) nrm fullShare ((outsAt m c n hn).2.1) ∗ owns (c : Thread nD τ) nrmH fullShare ((outsAt m c n hn).2.2)) ∗ (∃ r, prngReg c r)) := rfl
theorem PhiS_pos (c : Dev nD) (n : ℕ) (h : n ≤ cfg0.N) (hz : n ≠ 0) :
    PhiS m c n h = iprop(iprop(owns (c : Thread nD τ) nrm fullShare ((outsAt m c (n - 1) (by omega)).2.1) ∗ owns (c : Thread nD τ) nrmH fullShare ((outsAt m c (n - 1) (by omega)).2.2)) ∗ (∃ r, prngReg c r)) := by
  cases n with
  | zero => exact absurd rfl hz
  | succ n => rfl

/-! ## The pipeline's proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = (outsAt m c t.val t.isLt).1 := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t))

set_option maxHeartbeats 4800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2]
  rw [show (dats m 0 c).owesAt () t.succ = (dats m 0 c).owesAt () t.castSucc from rfl]
  rw [show (dats m 0 c).Φ t.succ = PhiS m c (t.val + 1) t.isLt from rfl, PhiS_succ]
  rw [after_0, after_1, after_2, after_3]
  have hN : t.val < 64 := lt_of_lt_of_eq t.isLt (show cfg0.N = 64 from N_0)
  by_cases h0 : t.val % 32 = 0
  · rw [outsAt_first m c t h0]
    unfold firstAt outFirst nrmFirst nrmHFirst; (try dsimp only)
    by_cases hz : t.val = 0
    · rw [PhiS_castSucc m c t, PhiS_zero m c _ _ hz, PhiA_eq]
      iintro ⟨⟨⟨HS0, HS1⟩, Hg⟩, Ho, ⟨%d0, H0⟩, ⟨%d1, H1⟩, ⟨%d2, H2⟩, ⟨%d3, H3⟩⟩
      iapply ((runFirst c (grid0.coords t) _ _ _ _ _ _ _ _ _ _ _ _ ((firstBlock_iff t).mpr h0) (iblk m c 0 t) (iblk m c 1 t) (iblk m c 2 t)).2.2.2 Set.univ _)
      isplitl [H0]; · iexact H0
      isplitl [H1]; · iexact H1
      isplitl [H2]; · iexact H2
      isplitl [H3]; · iexists _; iexact H3
      isplitl [HS0]; · iexact HS0
      isplitl [HS1]; · iexact HS1
      iintro ⟨H0, H1, H2, ⟨%e3, H3⟩, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (coverFirst_nrm c _ _ _ _ _ _ _ _ _ _ _ _ _ _ _ _ _)
          unfold owns; iexists _; isplitr
          swap; · iexact HS1
          ipureintro; exact View.read_writes_of_cover _ _ _ _ _ (coverFirst_nrmH c _ _ _ _ _ _ _ _ _ _ _ _ _ _ _ _ _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (coverFirst_out c _ _ _ _ _ _ _ _ _ _ _ _ _ _ _ _ _)
    · rw [PhiS_castSucc m c t, PhiS_pos m c _ _ hz]
      iintro ⟨⟨⟨HS0, HS1⟩, Hg⟩, Ho, ⟨%d0, H0⟩, ⟨%d1, H1⟩, ⟨%d2, H2⟩, ⟨%d3, H3⟩⟩
      iapply ((runFirst c (grid0.coords t) _ _ _ _ _ _ _ _ _ _ _ _ ((firstBlock_iff t).mpr h0) (iblk m c 0 t) (iblk m c 1 t) (iblk m c 2 t)).2.2.2 Set.univ _)
      isplitl [H0]; · iexact H0
      isplitl [H1]; · iexact H1
      isplitl [H2]; · iexact H2
      isplitl [H3]; · iexists _; iexact H3
      isplitl [HS0]; · iexists _; iexact HS0
      isplitl [HS1]; · iexists _; iexact HS1
      iintro ⟨H0, H1, H2, ⟨%e3, H3⟩, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (coverFirst_nrm c _ _ _ _ _ _ _ _ _ _ _ _ _ _ _ _ _)
          unfold owns; iexists _; isplitr
          swap; · iexact HS1
          ipureintro; exact View.read_writes_of_cover _ _ _ _ _ (coverFirst_nrmH c _ _ _ _ _ _ _ _ _ _ _ _ _ _ _ _ _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (coverFirst_out c _ _ _ _ _ _ _ _ _ _ _ _ _ _ _ _ _)
  · rw [outsAt_later m c t h0]
    unfold laterAt outLater; (try dsimp only)
    have hz : t.val ≠ 0 := fun hz => h0 (by rw [hz])
    rw [PhiS_castSucc m c t, PhiS_pos m c _ _ hz]
    iintro ⟨⟨⟨HS0, HS1⟩, Hg⟩, Ho, ⟨%d0, H0⟩, ⟨%d1, H1⟩, ⟨%d2, H2⟩, ⟨%d3, H3⟩⟩
    iapply ((runLater c (grid0.coords t) _ _ _ _ _ _ _ _ _ _ _ _ (fun hh => h0 ((firstBlock_iff t).mp hh)) (iblk m c 0 t) (iblk m c 1 t) (iblk m c 2 t) _ _).2 Set.univ _)
    isplitl [H0]; · iexact H0
    isplitl [H1]; · iexact H1
    isplitl [H2]; · iexact H2
    isplitl [H3]; · iexists _; iexact H3
    isplitl [HS0]; · iexact HS0
    isplitl [HS1]; · iexact HS1
    iintro ⟨H0, H1, H2, ⟨%e3, H3⟩, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (coverLater_out c _ _ _ _ _ _ _ _ _ _ _ _ _ _ _ _ _ _ _)

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 64 := N_0; omega), PhiA_eq]
  iintro ⟨⟨HS0, HS1⟩, Hg⟩
  isplitl [HS0 HS1]
  · isplitl [HS0]
    · iexists _; iexact HS0
    iexists _; iexact HS1
  iexact Hg

/-! ## The run and the frame -/

set_option backward.isDefEq.respectTransparency.types false in
/-- Every weakly fair execution of @main terminates; the output array ends at what the proof data's blocks
    make of it, every other buffer as the lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame: the program runs and its four argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.KernelIdeal.Pt

end
-- ==== Proof.LibOneStore.lean ====
/-
  GENERAL LEMMA: what a buffer reads after ONE store through its whole-shape rectangle.

  A store through the rectangle of zero offsets and the buffer's own sizes (however the zeros are spelt) overwrites
  every element, so the buffer then reads the stored payload whatever it held before: the form a scratch buffer
  filled once and read back later takes (a load after it, through any rectangle, reads the payload there).
  Imports the library only.
-/
import Idealize.ShloMosaic.Lib.Pipeline.Value

noncomputable section

namespace Cert.LibOneStore

open Idealize.ShloMosaic

/-- One store through the whole-buffer rectangle leaves its payload, whatever the buffer held. -/
theorem read_one_store {sig' : RefSig} {κ : Kind} {sp : Space} {S : Shape} {e : EltTy} {Val : EltTy → Type} [∀ e, Nonempty (Val e)]
    (v : View sig' κ sp S e) (f : v.ty.Contents Val) {off : Fin S.rank → Nat} (h : off = fun _ => 0)
    (inb : ∀ a, off a + S.size a ≤ S.size a) (w : S.Idx → Val e) :
    v.read Val (v.writes Val f [(⟨Rect.unit off S.size inb, w⟩ : View.Piece Val S e)]) = w := by
  rw [View.read_writes_eq_canon _ _ _ (fun y => ⟨_, List.mem_singleton_self _, View.mem_set_unit_zero h inb y⟩),
    View.canon_unit_zero h]

end Cert.LibOneStore

end
-- ==== Proof.PointValue.lean ====
import proofs.«111949_j33792802685631_1_alg».proof.Proof.PointFrame
import proofs.«111949_j33792802685631_1_alg».proof.Proof.LibOneStore
import Idealize.ShloMosaic.Lib.Pipeline.Value

set_option maxRecDepth 16384

noncomputable section

namespace Cert.KernelIdeal.Pt

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The stored blocks as functions of what the body read

The pieces the runs found are single whole-buffer stores; read back they are the stored payloads, and a load
after such a store reads the payload at the load's rows. -/

open Cert.LibOneStore

/-- The 256 rows of the normalized features a row block works on, -/
abbrev qRows (i : grid0.Coords) : Rect S8192x256 := Rect.unit (s := S8192x256) (k0_off1 i) S256x256.size (k0_off1_inb i)
/-- and the 256 rows holding its rows' positive partners. -/
abbrev pRows (i : grid0.Coords) : Rect S8192x256 := Rect.unit (s := S8192x256) (k0_off2 i) S256x256.size (k0_off2_inb i)

/-- A row block's output from the scale and shift words and the normalized features `N` (f32) and `H` (bf16). -/
def rowsOut (i : grid0.Coords) (x0 x1 : Vec F S1x1 .f32) (N : Vec F S8192x256 .f32) (H : Vec F S8192x256 .bf16) : FVec F S256x1 .f32 :=
  k0_pay1 (k0_pay5 x0) (k0_pay6 x1) (View.ld N (qRows i)) (k0_pay8 x0 x1 (View.ld H (qRows i)) H)
    (k0_pay9 i x0 x1 (View.ld H (qRows i)) H) (View.ld N (pRows i))

theorem nrmFirst_eq (c : Dev nD) (i : grid0.Coords) (arg2 : Memref sig .tc .vmem S1x1 .f32) (harg2 : arg2.IsWhole) (arg3 : Memref sig .tc .vmem S1x1 .f32) (harg3 : arg3.IsWhole) (arg4 : Memref sig .tc .vmem S1x8192x256 .f32) (harg4 : arg4.IsWhole) (arg5 : Memref sig .tc .vmem S256x1 .f32) (harg5 : arg5.IsWhole) (arg6 : Memref sig .tc .vmem S8192x256 .f32) (harg6 : arg6.IsWhole) (arg7 : Memref sig .tc .vmem S8192x256 .bf16) (harg7 : arg7.IsWhole) (hc0 : firstBlock i)
    (x0 : Vec F S1x1 .f32) (x1 : Vec F S1x1 .f32) (x2 : Vec F S1x8192x256 .f32) :
    nrmFirst c i arg2 harg2 arg3 harg3 arg4 harg4 arg5 harg5 arg6 harg6 arg7 harg7 hc0 x0 x1 x2 = k0_pay3 x2 := by
  unfold nrmFirst
  rw [View.read_writes_eq_canon _ _ _ (coverFirst_nrm c i arg2 harg2 arg3 harg3 arg4 harg4 arg5 harg5 arg6 harg6 arg7 harg7 hc0 x0 x1 x2)]
  unfold runFirst
  dsimp only
  sl_unfold_run_names
  rw [View.canon_unit_zero (S := S8192x256) (off := ![0, 0]) (by funext a; fin_cases a <;> rfl)]
  simp only [View.readAt_eq_ld, harg4.read_unread, View.ld_unit_zero (S := S1x8192x256) (off := ![0, 0, 0]) (by funext a; fin_cases a <;> rfl)]

theorem nrmHFirst_eq (c : Dev nD) (i : grid0.Coords) (arg2 : Memref sig .tc .vmem S1x1 .f32) (harg2 : arg2.IsWhole) (arg3 : Memref sig .tc .vmem S1x1 .f32) (harg3 : arg3.IsWhole) (arg4 : Memref sig .tc .vmem S1x8192x256 .f32) (harg4 : arg4.IsWhole) (arg5 : Memref sig .tc .vmem S256x1 .f32) (harg5 : arg5.IsWhole) (arg6 : Memref sig .tc .vmem S8192x256 .f32) (harg6 : arg6.IsWhole) (arg7 : Memref sig .tc .vmem S8192x256 .bf16) (harg7 : arg7.IsWhole) (hc0 : firstBlock i)
    (x0 : Vec F S1x1 .f32) (x1 : Vec F S1x1 .f32) (x2 : Vec F S1x8192x256 .f32) :
    nrmHFirst c i arg2 harg2 arg3 harg3 arg4 harg4 arg5 harg5 arg6 harg6 arg7 harg7 hc0 x0 x1 x2 = k0_pay4 x2 := by
  unfold nrmHFirst
  rw [View.read_writes_eq_canon _ _ _ (coverFirst_nrmH c i arg2 harg2 arg3 harg3 arg4 harg4 arg5 harg5 arg6 harg6 arg7 harg7 hc0 x0 x1 x2)]
  unfold runFirst
  dsimp only
  sl_unfold_run_names
  rw [View.canon_unit_zero (S := S8192x256) (off := ![0, 0]) (by funext a; fin_cases a <;> rfl)]
  simp only [View.readAt_eq_ld, harg4.read_unread, View.ld_unit_zero (S := S1x8192x256) (off := ![0, 0, 0]) (by funext a; fin_cases a <;> rfl)]

theorem outLater_eq (c : Dev nD) (i : grid0.Coords) (arg2 : Memref sig .tc .vmem S1x1 .f32) (harg2 : arg2.IsWhole) (arg3 : Memref sig .tc .vmem S1x1 .f32) (harg3 : arg3.IsWhole) (arg4 : Memref sig .tc .vmem S1x8192x256 .f32) (harg4 : arg4.IsWhole) (arg5 : Memref sig .tc .vmem S256x1 .f32) (harg5 : arg5.IsWhole) (arg6 : Memref sig .tc .vmem S8192x256 .f32) (harg6 : arg6.IsWhole) (arg7 : Memref sig .tc .vmem S8192x256 .bf16) (harg7 : arg7.IsWhole) (hc0 : ¬firstBlock i)
    (x0 : Vec F S1x1 .f32) (x1 : Vec F S1x1 .f32) (x2 : Vec F S1x8192x256 .f32) (xs0 : Vec F S8192x256 .f32) (xs1 : Vec F S8192x256 .bf16) :
    outLater c i arg2 harg2 arg3 harg3 arg4 harg4 arg5 harg5 arg6 harg6 arg7 harg7 hc0 x0 x1 x2 xs0 xs1 = rowsOut i x0 x1 xs0 xs1 := by
  unfold outLater
  rw [View.read_writes_eq_canon _ _ _ (coverLater_out c i arg2 harg2 arg3 harg3 arg4 harg4 arg5 harg5 arg6 harg6 arg7 harg7 hc0 x0 x1 x2 xs0 xs1)]
  unfold runLater
  dsimp only
  sl_unfold_run_names
  rw [View.canon_unit_zero (S := S256x1) (off := ![0, 0]) (by funext a; fin_cases a <;> rfl)]
  simp only [View.readAt_eq_ld, harg2.read_unread, harg3.read_unread, harg6.read_unread, harg7.read_unread,
    View.ld_unit_zero (S := S1x1) (off := ![0, 0]) (by funext a; fin_cases a <;> rfl), View.ld_unit_zero (S := S8192x256) (off := ![0, 0]) (by funext a; fin_cases a <;> rfl)]
  rfl

theorem outFirst_eq (c : Dev nD) (i : grid0.Coords) (arg2 : Memref sig .tc .vmem S1x1 .f32) (harg2 : arg2.IsWhole) (arg3 : Memref sig .tc .vmem S1x1 .f32) (harg3 : arg3.IsWhole) (arg4 : Memref sig .tc .vmem S1x8192x256 .f32) (harg4 : arg4.IsWhole) (arg5 : Memref sig .tc .vmem S256x1 .f32) (harg5 : arg5.IsWhole) (arg6 : Memref sig .tc .vmem S8192x256 .f32) (harg6 : arg6.IsWhole) (arg7 : Memref sig .tc .vmem S8192x256 .bf16) (harg7 : arg7.IsWhole) (hc0 : firstBlock i)
    (x0 : Vec F S1x1 .f32) (x1 : Vec F S1x1 .f32) (x2 : Vec F S1x8192x256 .f32) :
    outFirst c i arg2 harg2 arg3 harg3 arg4 harg4 arg5 harg5 arg6 harg6 arg7 harg7 hc0 x0 x1 x2 = rowsOut i x0 x1 (k0_pay3 x2) (k0_pay4 x2) := by
  unfold outFirst
  rw [View.read_writes_eq_canon _ _ _ (coverFirst_out c i arg2 harg2 arg3 harg3 arg4 harg4 arg5 harg5 arg6 harg6 arg7 harg7 hc0 x0 x1 x2)]
  unfold runFirst
  dsimp only
  sl_unfold_run_names
  rw [View.canon_unit_zero (S := S256x1) (off := ![0, 0]) (by funext a; fin_cases a <;> rfl)]
  simp only [View.readAt_eq_ld, harg2.read_unread, harg3.read_unread, harg4.read_unread,
    read_one_store (S := S8192x256) _ _ (off := ![0, 0]) (by funext a; fin_cases a <;> rfl), View.readCov_unit_zero (S := S8192x256) _ (off := ![0, 0]) (by funext a; fin_cases a <;> rfl),
    View.ld_unit_zero (S := S1x1) (off := ![0, 0]) (by funext a; fin_cases a <;> rfl), View.ld_unit_zero (S := S1x8192x256) (off := ![0, 0, 0]) (by funext a; fin_cases a <;> rfl)]
  rfl

end Cert.KernelIdeal.Pt

end
-- ==== Proof.PointBlocks.lean ====
import proofs.«111949_j33792802685631_1_alg».proof.Proof.PointValue
import Idealize.ShloMosaic.Lib.ValueIdx

set_option maxRecDepth 16384

noncomputable section

namespace Cert.KernelIdeal.Pt

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (m : (ℓ : Loc nD τ sig) → Buf (Elt F) ℓ)

/-! ## The blocks as plain arrays

The scale and shift windows are their whole 1 × 1 arrays at every point; the feature window's block at a point
is the plane of the stacked features of the point's term; the output window's block at point `t` is rows
`256 t … 256 t + 255` of the output array. -/

theorem index_facts : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 3) = t.val / 32 ∧ win0_2.index t (1 : Fin 3) = 0 ∧ win0_2.index t (2 : Fin 3) = 0
    ∧ win0_3.index t (0 : Fin 2) = t.val ∧ win0_3.index t (1 : Fin 2) = 0 :=
  (by decide +kernel : ∀ t : Fin grid0.N, _)

/-- The grid point of position `n`: term `n / 32`, row block `n % 32`. -/
def pointOf (n : ℕ) : grid0.Coords := fun a => match a with
  | ⟨0, _⟩ => ⟨(n / 32) % 2, Nat.mod_lt _ (by norm_num)⟩
  | ⟨1, _⟩ => ⟨n % 32, Nat.mod_lt _ (by norm_num)⟩

theorem coords_eq : ∀ t : Fin cfg0.N, grid0.coords t = pointOf t.val :=
  (by decide +kernel : ∀ t : Fin grid0.N, grid0.coords t = pointOf t.val)

/-- The features of term `j` as the region finds them: plane `j` of the stacked array. -/
def termFeats (c : Dev nD) (j : ℕ) : Vec F S1x8192x256 .f32 :=
  fun y => V m c main_v8 (ix3 (⟨j % 2, Nat.mod_lt _ (by norm_num)⟩ : Fin 2) (y 1) (y 2))

theorem iblk0_eq (c : Dev nD) (t : Fin cfg0.N) : (iblk m c 0 t : Vec F S1x1 .f32) = V m c main_v9 := by
  obtain ⟨e0, e1, -⟩ := index_facts t
  funext y
  show V m c main_v9 (((cfg0.win 0).blk t).view.emb y) = V m c main_v9 y
  refine congrArg (V m c main_v9) (funext fun a => Fin.ext ?_)
  match a with
  | ⟨0, _⟩ => show win0_0.index t (0 : Fin 2) * 1 + 1 * (y 0).val = (y 0).val; omega
  | ⟨1, _⟩ => show win0_0.index t (1 : Fin 2) * 1 + 1 * (y 1).val = (y 1).val; omega

theorem iblk1_eq (c : Dev nD) (t : Fin cfg0.N) : (iblk m c 1 t : Vec F S1x1 .f32) = V m c main_v10 := by
  obtain ⟨-, -, e0, e1, -⟩ := index_facts t
  funext y
  show V m c main_v10 (((cfg0.win 1).blk t).view.emb y) = V m c main_v10 y
  refine congrArg (V m c main_v10) (funext fun a => Fin.ext ?_)
  match a with
  | ⟨0, _⟩ => show win0_1.index t (0 : Fin 2) * 1 + 1 * (y 0).val = (y 0).val; omega
  | ⟨1, _⟩ => show win0_1.index t (1 : Fin 2) * 1 + 1 * (y 1).val = (y 1).val; omega

theorem iblk2_eq (c : Dev nD) (t : Fin cfg0.N) : (iblk m c 2 t : Vec F S1x8192x256 .f32) = termFeats m c (t.val / 32) := by
  obtain ⟨-, -, -, -, e0, e1, e2, -⟩ := index_facts t
  have hN : t.val < 64 := lt_of_lt_of_eq t.isLt (show cfg0.N = 64 from N_0)
  funext y
  show V m c main_v8 (((cfg0.win 2).blk t).view.emb y) = V m c main_v8 _
  refine congrArg (V m c main_v8) (funext fun a => Fin.ext ?_)
  match a with
  | ⟨0, _⟩ =>
    show win0_2.index t (0 : Fin 3) * 1 + 1 * (y 0).val = t.val / 32 % 2
    have hy : (y 0).val < 1 := (y 0).isLt
    omega
  | ⟨1, _⟩ => show win0_2.index t (1 : Fin 3) * 8192 + 1 * (y 1).val = (y 1).val; omega
  | ⟨2, _⟩ => show win0_2.index t (2 : Fin 3) * 256 + 1 * (y 2).val = (y 2).val; omega

/-- The rows a point stores, from the region-entry arrays alone. -/
def rowsAt (c : Dev nD) (n : ℕ) : FVec F S256x1 .f32 :=
  rowsOut (pointOf n) (V m c main_v9) (V m c main_v10) (k0_pay3 (termFeats m c (n / 32))) (k0_pay4 (termFeats m c (n / 32)))

/-- After point `n` the output block holds the point's rows and the scratch buffers the normalization of its
    term's features. -/
theorem outsAt_eq (c : Dev nD) : ∀ (n : ℕ) (hn : n < cfg0.N),
    outsAt m c n hn = (rowsAt m c n, k0_pay3 (termFeats m c (n / 32)), k0_pay4 (termFeats m c (n / 32))) := by
  intro n
  induction n with
  | zero =>
    intro hn
    show firstAt m c ⟨0, hn⟩ (Nat.zero_mod _) = _
    unfold firstAt rowsAt
    rw [outFirst_eq, nrmFirst_eq, nrmHFirst_eq, iblk0_eq, iblk1_eq, iblk2_eq, coords_eq]
  | succ n ih =>
    intro hn
    have e : outsAt m c (n + 1) hn = if h0 : (n + 1) % 32 = 0 then firstAt m c ⟨n + 1, hn⟩ h0
        else laterAt m c ⟨n + 1, hn⟩ h0 (outsAt m c n (Nat.lt_of_succ_lt hn)).2.1 (outsAt m c n (Nat.lt_of_succ_lt hn)).2.2 := rfl
    rw [e]
    split
    · unfold firstAt rowsAt
      rw [outFirst_eq, nrmFirst_eq, nrmHFirst_eq, iblk0_eq, iblk1_eq, iblk2_eq, coords_eq]
    · rename_i h0
      rw [ih (Nat.lt_of_succ_lt hn)]
      have hq : (n + 1) / 32 = n / 32 := by omega
      unfold laterAt rowsAt
      dsimp only
      rw [outLater_eq, iblk0_eq, iblk1_eq, coords_eq, hq]

/-! ## The output array after the run -/

/-- All 16384 stored values: row `r` is row `r % 256` of what point `r / 256` stores. -/
def lpAll (c : Dev nD) : S16384x1.Idx → F .f32 :=
  fun i => rowsAt m c ((i 0).val / 256) (ix2 (⟨(i 0).val % 256, Nat.mod_lt _ (by norm_num)⟩ : Fin 256) (0 : Fin 1))

theorem flushed_eq (c : Dev nD) (t : Fin cfg0.N) :
    (dats m 0 c).flushed 3 t = ((cfg0.win 3).blk t).view.read (Elt F) (lpAll m c) := by
  show (cfg0.win 3).cut (grid0.coords t) ((dats m 0 c).after 3 t) = _
  rw [after_3, outsAt_eq]
  obtain ⟨-, -, -, -, -, -, -, e0, e1⟩ := index_facts t
  funext j
  show rowsAt m c t.val j = lpAll m c (((cfg0.win 3).blk t).view.emb j)
  unfold lpAll
  have hj0 : (j 0).val < 256 := (j 0).isLt
  have hj1 : (j 1).val < 1 := (j 1).isLt
  have hv : ((((cfg0.win 3).blk t).view.emb j) 0).val = t.val * 256 + (j 0).val := by
    show win0_3.index t (0 : Fin 2) * 256 + 1 * (j 0).val = _
    omega
  have hq : ((((cfg0.win 3).blk t).view.emb j) 0).val / 256 = t.val := by rw [hv]; omega
  have hr : ((((cfg0.win 3).blk t).view.emb j) 0).val % 256 = (j 0).val := by rw [hv]; omega
  rw [hq]
  refine congrArg (rowsAt m c t.val) (funext fun a => Fin.ext ?_)
  match a with
  | ⟨0, _⟩ => exact hr.symm
  | ⟨1, _⟩ => show (j 1).val = 0; omega

end Cert.KernelIdeal.Pt

end
-- ==== Proof.LibLogExp.lean ====
/-
  GENERAL LEMMAS: the exponential and the logarithm of the ideal instance on the extended reals, as order facts.

  With no finiteness hypothesis: the exponential is never negative; the logarithm undoes the exponential at every
  extended real (−∞ ↦ 0 ↦ −∞, +∞ ↦ +∞ ↦ +∞); the logarithm is monotone on all of the extended reals (it is −∞ up to
  zero and the real logarithm after); and `x − y ≤ 0` whenever `x ≤ y`, the infinities included. Together they give
  what a log-softmax needs: a log-probability `z − log (∑ … + exp z + …)` is never positive.
  Imports the library only.
-/
import Idealize.ShloMosaic.PureOps.Ideal

noncomputable section

namespace Cert.LibLogExp

open Idealize.ShloMosaic

/-- The exponential is never negative. -/
theorem exp_nonneg (z : EReal) : 0 ≤ Ideal.exp z := by
  induction z using EReal.rec with
  | bot => exact le_refl _
  | coe a => rw [Ideal.exp_coe]; exact EReal.coe_nonneg.mpr (Real.exp_pos a).le
  | top => exact le_top

/-- The logarithm undoes the exponential, at the infinities too. -/
theorem log_exp (z : EReal) : Ideal.log (Ideal.exp z) = z := by
  induction z using EReal.rec with
  | bot =>
    show Ideal.log ((0 : ℝ) : EReal) = ⊥
    rw [Ideal.log_coe, if_pos (le_refl _)]
  | coe a =>
    rw [Ideal.exp_coe, Ideal.log_coe, if_neg (not_le.mpr (Real.exp_pos a)), Real.log_exp]
  | top => rfl

/-- The logarithm is monotone on all of the extended reals. -/
theorem log_mono {x y : EReal} (h : x ≤ y) : Ideal.log x ≤ Ideal.log y := by
  induction x using EReal.rec with
  | bot => exact bot_le
  | top => rw [top_le_iff.mp h]
  | coe a =>
    induction y using EReal.rec with
    | bot => exact absurd (le_bot_iff.mp h) (EReal.coe_ne_bot a)
    | top => exact le_top
    | coe b =>
      have hab : a ≤ b := EReal.coe_le_coe_iff.mp h
      rw [Ideal.log_coe, Ideal.log_coe]
      by_cases ha : a ≤ 0
      · rw [if_pos ha]; exact bot_le
      · have hb : ¬b ≤ 0 := fun hb => ha (hab.trans hb)
        rw [if_neg ha, if_neg hb]
        exact EReal.coe_le_coe_iff.mpr (Real.log_le_log (not_le.mp ha) hab)

/-- A difference of a smaller from a larger extended real, taken the other way round, is never positive. -/
theorem sub_nonpos_of_le {x y : EReal} (h : x ≤ y) : x - y ≤ 0 := by
  induction y using EReal.rec with
  | bot => rw [le_bot_iff.mp h]; simp
  | top => simp [sub_eq_add_neg]
  | coe b =>
    induction x using EReal.rec with
    | bot => simp [sub_eq_add_neg]
    | top => exact absurd (top_le_iff.mp h) (EReal.coe_ne_top b)
    | coe a =>
      have hab : a ≤ b := EReal.coe_le_coe_iff.mp h
      rw [← EReal.coe_sub]
      exact EReal.coe_nonpos.mpr (sub_nonpos.mpr hab)

/-- A log-probability is never positive: `z` less the logarithm of anything at least `exp z`. -/
theorem sub_log_nonpos {z s : EReal} (h : Ideal.exp z ≤ s) : z - Ideal.log s ≤ 0 :=
  sub_nonpos_of_le ((log_exp z).symm.le.trans (log_mono h))

end Cert.LibLogExp

end
-- ==== Proof.Spec.lean ====
/-
  The mathematics of the contrastive loss, over the extended reals.

  For one term's 8192 × 256 feature array `X`: every row is divided by the larger of its Euclidean norm and a tiny
  constant; the logit of rows `r`, `s` is their cosine similarity scaled by `w` and shifted by `b`; the value of
  row `r` is the logit against its partner row (4096 rows away, cyclically) minus the row's largest logit minus the
  logarithm of the sum, over the other rows `s ≠ r`, of the exponentials of the logits less that maximum. Since the
  partner is one of those other rows, that value is never positive — on the extended reals too, with no
  finiteness assumed — and this is what lets the mean over both terms be split into the mean of the two terms' means.
-/
import Idealize.ShloMosaic.PureOps.Ideal
import Idealize.ShloMosaic.PureOps.Ideal.Laws
import Idealize.ShloMosaic.Lib.ValueIdx
import proofs.«111949_j33792802685631_1_alg».proof.Proof.LibLogExp

noncomputable section

open scoped BigOperators

namespace Cert.Contrast

open Idealize.ShloMosaic Idealize.ShloMosaic.ValueIdx Cert.LibLogExp

/-- One term's features. -/
abbrev Feats := (⟨2, ![8192, 256]⟩ : Shape).Idx → EReal

/-- The lower bound on a row's norm (the float nearest 1e-8). -/
def tiny : EReal := Ideal.ofBits .f32 0x322BCC77#32

/-- Rows divided by the larger of their norm and `tiny`. -/
def unitRows (X : Feats) : Feats :=
  fun i => Ideal.div (X i) (max (Ideal.sqrt (∑ d : Fin 256, X (ix2 (i 0) d) * X (ix2 (i 0) d))) tiny)

def cosim (X : Feats) (r s : Fin 8192) : EReal := ∑ d : Fin 256, unitRows X (ix2 r d) * unitRows X (ix2 s d)

def logit (X : Feats) (w b : EReal) (r s : Fin 8192) : EReal := cosim X r s * w + b

def rowMax (X : Feats) (w b : EReal) (r : Fin 8192) : EReal :=
  (Finset.univ : Finset (Fin 8192)).fold max ⊥ (fun s => logit X w b r s)

def offSum (X : Feats) (w b : EReal) (r : Fin 8192) : EReal :=
  ∑ s : Fin 8192, if s = r then 0 else Ideal.exp (logit X w b r s - rowMax X w b r)

/-- The row holding the other view of row `r`'s sample. -/
def partner (r : Fin 8192) : Fin 8192 := ⟨(r.val + 4096) % 8192, Nat.mod_lt _ (by norm_num)⟩

theorem partner_ne (r : Fin 8192) : partner r ≠ r := by
  intro h
  have := congrArg Fin.val h
  have hr := r.isLt
  simp only [partner] at this
  omega

def logProb (X : Feats) (w b : EReal) (r : Fin 8192) : EReal :=
  (logit X w b r (partner r) - rowMax X w b r) - Ideal.log (offSum X w b r)

/-- A row's value is never positive: its partner's exponential is one of the summands under the logarithm. -/
theorem logProb_nonpos (X : Feats) (w b : EReal) (r : Fin 8192) : logProb X w b r ≤ 0 := by
  unfold logProb
  have h1 : Ideal.exp (logit X w b r (partner r) - rowMax X w b r) ≤ offSum X w b r := by
    unfold offSum
    have := Finset.single_le_sum (f := fun s : Fin 8192 => if s = r then (0 : EReal) else Ideal.exp (logit X w b r s - rowMax X w b r))
      (fun s _ => by
        show (0 : EReal) ≤ if s = r then (0 : EReal) else Ideal.exp (logit X w b r s - rowMax X w b r)
        split
        · exact le_refl _
        · exact exp_nonneg _) (Finset.mem_univ (partner r))
    simpa only [if_neg (partner_ne r)] using this
  exact sub_log_nonpos h1

/-! ## The constants, and the mean of two means -/

theorem ofBits_16384 : Ideal.ofBits .f32 0x46800000#32 = ((16384 : ℝ) : EReal) := by
  simp [Ideal.ofBits, Ideal.ieee, -EReal.coe_mul]; norm_num
theorem ofBits_8192 : Ideal.ofBits .f32 0x46000000#32 = ((8192 : ℝ) : EReal) := by
  simp [Ideal.ofBits, Ideal.ieee, -EReal.coe_mul]; norm_num
theorem ofBits_two : Ideal.ofBits .f32 0x40000000#32 = ((2 : ℝ) : EReal) := by
  simp [Ideal.ofBits, Ideal.ieee, -EReal.coe_mul]; norm_num
theorem ofBits_one : Ideal.ofBits .f32 0x3F800000#32 = ((1 : ℝ) : EReal) := by
  simp [Ideal.ofBits, Ideal.ieee, -EReal.coe_mul]; norm_num
theorem ofBits_negInf : Ideal.ofBits .f32 0xFF800000#32 = ⊥ := by
  simp [Ideal.ofBits, Ideal.ieee]
/-- The scale of the loss, −1/0.07 rounded to a float, is a negative real. -/
theorem ofBits_scale : ∃ c : ℝ, c < 0 ∧ Ideal.ofBits .f32 0xC1649249#32 = (c : EReal) := by
  refine ⟨-(14979657 : ℝ) * (2 : ℝ) ^ (-20 : ℤ), by norm_num, ?_⟩
  simp [Ideal.ofBits, Ideal.ieee, -EReal.coe_mul] <;> norm_num

end Cert.Contrast

end
-- ==== Proof.LibKeepdims.lean ====
/-
  Layout operations of a `keepdims` reduction, read at an index given by coordinates, and a rank-2 float sum along one
  axis read at the extended reals.

  A vector of `a` entries viewed as an `a × 1` column holds entry `i` at `(i, 0)`; an `a × 1` column broadcast to
  `a × b` holds, at `(p, c)`, the column's entry `(p, 0)`; the sum of an `a × b` array along its second axis is, at
  row `r`, the sum over the `b` columns of the entries of that row, and along its first axis, at column `c`, the sum
  over the `a` rows of the entries of that column.  Indices are written with the literal-size constructors
  `ix1`, `ix2`, so that each lemma applies to a printed operation by unification.
-/
import Idealize.ShloMosaic.Lib.Pipeline.Value
import Idealize.ShloMosaic.Lib.ValueIdx
import Idealize.ShloMosaic.PureOps.Ideal.Laws

open scoped BigOperators

namespace Cert.LibKeepdims

open Idealize.ShloMosaic Idealize.ShloMosaic.ValueIdx

variable {α : Type}

/-- A vector cast to a column, `[a] → [a, 1]`, reads entry `i` at `(i, 0)`: both sit at row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column broadcast along its unit axis, `[a, 1] → [a, b]`, reads at `(p, c)` the column's entry `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

variable {φ : FTy}

/-- ROW SUMS. At the extended reals the float sum of an `a × b` array along its second axis is, at row `r`, the sum
    over the columns `c` of the entries `(r, c)`. -/
theorem multiReduction_add_rows {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (r : Fin a) :
    multiReduction .add [1] ⟨1, ![a]⟩ src acc h hφ hacc (ix1 r) = ∑ c : Fin b, src (ix2 r c) := by
  refine (Ideal.multiReduction_add_single src acc h hφ hacc (ix1 r)).trans ?_
  refine Finset.sum_congr rfl fun c _ => congrArg src (funext fun ax => Fin.ext ?_)
  rw [h.lift_val]
  unfold Shape.Reduces.liftVal
  match ax with
  | ⟨0, _⟩ => rfl
  | ⟨1, _⟩ => rfl

/-- COLUMN SUMS. Along its first axis the sum is, at column `c`, the sum over the rows `r` of the entries `(r, c)`. -/
theorem multiReduction_add_cols {a b : ℕ} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ) (c : Fin b) :
    multiReduction .add [0] ⟨1, ![b]⟩ src acc h hφ hacc (ix1 c) = ∑ r : Fin a, src (ix2 r c) := by
  refine (Ideal.multiReduction_add_single src acc h hφ hacc (ix1 c)).trans ?_
  refine Finset.sum_congr rfl fun r _ => congrArg src (funext fun ax => Fin.ext ?_)
  rw [h.lift_val]
  unfold Shape.Reduces.liftVal
  match ax with
  | ⟨0, _⟩ => rfl
  | ⟨1, _⟩ => rfl

end Cert.LibKeepdims
-- ==== Proof.LibRowMax.lean ====
/-
  Row maxima of a rank-2 float array, read at the extended reals with indices given by coordinates.

  The maximum of an `a × b` array along its second axis, taken from a starting value, is at row `r` the maximum of
  that value and the `b` entries `(r, c)` of the row — written here as the fold of `max` from the starting value
  over the columns `c`, for a vector reduction (whose starting value is its accumulator word) and for a host
  reduction (whose starting value is its scalar operand).  Indices are written with the literal-size constructors
  `ix1`, `ix2`, so that each lemma applies to a printed operation by unification.
-/
import Idealize.ShloMosaic.Lib.ValueIdx
import Idealize.ShloMosaic.PureOps.Ideal.Laws

namespace Cert.LibRowMax

open Idealize.ShloMosaic Idealize.ShloMosaic.ValueIdx

variable {φ : FTy}

/-- Inserting column `c` into the rank-1 index `r` at the second axis gives the index `(r, c)`. -/
theorem lift_rows {a b : ℕ} (h : (⟨2, ![a, b]⟩ : Shape).Reduces [1] ⟨1, ![a]⟩) (r : Fin a) (c : Fin b) :
    h.lift (ix1 r) c = ix2 r c :=
  funext fun ax => Fin.ext (by
    refine (h.lift_val (ix1 r) c ax).trans ?_
    unfold Shape.Reduces.liftVal
    match ax with
    | ⟨0, _⟩ => rfl
    | ⟨1, _⟩ => rfl)

/-- ROW MAXIMA of a vector reduction: at row `r`, the fold of `max` from the accumulator's value over the columns. -/
theorem multiReduction_maximumf_rows {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (r : Fin a) :
    multiReduction .maximumf [1] ⟨1, ![a]⟩ src acc h hφ hacc (ix1 r)
      = (Finset.univ : Finset (Fin b)).fold max (Ideal.ofBits φ acc) (fun c => src (ix2 r c)) := by
  refine (Ideal.multiReduction_maximumf_single src acc h hφ hacc (ix1 r)).trans ?_
  exact congrArg (fun f => (Finset.univ : Finset (Fin b)).fold max (Ideal.ofBits φ acc) f)
    (funext fun c => congrArg src (lift_rows h r c))

/-- ROW MAXIMA of a host reduction with a `maximum` body: at row `r`, the fold of `max` from the initial value over
    the columns. -/
theorem hostReduce_maximumf_rows {a b : ℕ} {u : Shape} (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (r : Fin a) :
    Host.reduce (FloatOps.maximumf (F := Ideal) (φ := φ)) x init h' hu (ix1 r)
      = (Finset.univ : Finset (Fin b)).fold max (init (Shape.Idx.first hu)) (fun c => x (ix2 r c)) := by
  refine (Host.reduce_eq_fold_single (FloatOps.maximumf (F := Ideal) (φ := φ)) x init h' h hu (ix1 r)).trans ?_
  exact congrArg (fun f => (Finset.univ : Finset (Fin b)).fold max (init (Shape.Idx.first hu)) f)
    (funext fun c => congrArg x (lift_rows h r c))

end Cert.LibRowMax
-- ==== Proof.KernelRead.lean ====
/-
  The kernel's stored values, read at the extended reals: each of the 16384 values the kernel stores is the
  contrastive log-probability of one row of one term's features.
-/
import proofs.«111949_j33792802685631_1_alg».proof.Proof.PointBlocks
import proofs.«111949_j33792802685631_1_alg».proof.Proof.Spec
import proofs.«111949_j33792802685631_1_alg».proof.Proof.LibKeepdims
import proofs.«111949_j33792802685631_1_alg».proof.Proof.LibRowMax
import Idealize.ShloMosaic.PureOps.Ideal.Laws
import Idealize.ShloMosaic.Lib.Pipeline.Value
import Idealize.ShloMosaic.Lib.ValueIdx

set_option maxRecDepth 16384

noncomputable section

open scoped BigOperators

namespace Cert.KernelIdeal.Read

open Cert.KernelIdeal Cert.KernelIdeal.Gen Cert.KernelIdeal.Pt Cert.Contrast
open Idealize.ShloMosaic Idealize.ShloMosaic.ValueIdx

/-! ## Elementwise transcendentals at an index -/

theorem sqrt_at {s : Shape} {φ : FTy} (v : FVec Ideal s φ) (i : s.Idx) : sqrt v i = Ideal.sqrt (v i) := rfl
theorem exp_at {s : Shape} {φ : FTy} (v : FVec Ideal s φ) (i : s.Idx) : exp v i = Ideal.exp (v i) := rfl
theorem log_at {s : Shape} {φ : FTy} (v : FVec Ideal s φ) (i : s.Idx) : log v i = Ideal.log (v i) := rfl

/-! ## Row sums and row maxima, with the accumulator words as the kernel prints them -/

theorem rowSums {a b : ℕ} (src : FVec Ideal ⟨2, ![a, b]⟩ .f32) (h : (⟨2, ![a, b]⟩ : Shape).Reduces [1] ⟨1, ![a]⟩)
    (hφ : FKind.Formats .f32) (hacc : (0x00000000#32 : BitVec 32) = 0x00000000#32) (r : Fin a) :
    multiReduction .add [1] ⟨1, ![a]⟩ src 0x00000000#32 h hφ hacc (ix1 r) = ∑ c : Fin b, src (ix2 r c) :=
  LibKeepdims.multiReduction_add_rows src _ h hφ hacc r

theorem rowMaxs {a b : ℕ} (src : FVec Ideal ⟨2, ![a, b]⟩ .f32) (h : (⟨2, ![a, b]⟩ : Shape).Reduces [1] ⟨1, ![a]⟩)
    (hφ : FKind.Formats .f32) (hacc : (0xFF800000#32 : BitVec 32) = 0xFF800000#32) (r : Fin a) :
    multiReduction .maximumf [1] ⟨1, ![a]⟩ src 0xFF800000#32 h hφ hacc (ix1 r)
      = (Finset.univ : Finset (Fin b)).fold max ⊥ (fun c => src (ix2 r c)) := by
  refine (LibRowMax.multiReduction_maximumf_rows src _ h hφ hacc r).trans ?_
  rw [ofBits_negInf]

/-! ## The normalized features -/

/-- The one plane of a `1 × 8192 × 256` block, as an `8192 × 256` array. -/
def plane (X' : Vec Ideal S1x8192x256 .f32) : Feats := fun i => X' (ix3 (0 : Fin 1) (i 0) (i 1))

theorem cast_plane (X' : Vec Ideal S1x8192x256 .f32) (r : Fin 8192) (d : Fin 256) :
    (shapeCast S8192x256 X' shapeCasts_S1x8192x256_S8192x256 : FVec Ideal S8192x256 .f32) (ix2 r d) = X' (ix3 (0 : Fin 1) r d) :=
  shapeCast_apply (α := Ideal .f32) X' _ _ _ (by
    rw [Shape.rowMajor_val_three, Shape.rowMajor_val_two]
    show (0 * 8192 + r.val) * 256 + d.val = r.val * 256 + d.val
    omega)

/-- What the first row block of a term computes from the features is their rows scaled to unit length. -/
theorem normalized_eq (X' : Vec Ideal S1x8192x256 .f32) (r : Fin 8192) (d : Fin 256) :
    k0_pay2 X' (ix2 r d) = unitRows (plane X') (ix2 r d) := by
  unfold k0_pay2 unitRows
  simp only [divf_apply, LibKeepdims.broadcastTo_a1_ab_apply, maximumf_apply, broadcast_apply, sqrt_at,
    LibKeepdims.shapeCast_a_a1_apply]
  rw [rowSums]
  simp only [mulf_apply, cast_plane]
  rfl

theorem nrm_eq (X' : Vec Ideal S1x8192x256 .f32) : k0_pay3 X' = unitRows (plane X') := by
  funext i
  obtain ⟨r, d, rfl⟩ : ∃ (r : Fin 8192) (d : Fin 256), i = ix2 r d := ⟨i 0, i 1, eq_ix2 i⟩
  unfold k0_pay3
  rw [shapeCast_self]
  exact normalized_eq X' r d

theorem nrmH_eq (X' : Vec Ideal S1x8192x256 .f32) : (k0_pay4 X' : S8192x256.Idx → EReal) = unitRows (plane X') := by
  funext i
  obtain ⟨r, d, rfl⟩ : ∃ (r : Fin 8192) (d : Fin 256), i = ix2 r d := ⟨i 0, i 1, eq_ix2 i⟩
  unfold k0_pay4
  rw [shapeCast_self]
  exact normalized_eq X' r d

/-! ## The similarity block: a product against the transposed features -/

theorem dk_lhs0 (j : S256x8192.Idx) (k : (dot_S256x256_S8192x256_S256x8192_1_1_0_0_n_n).contr.Idx) : ((dot_S256x256_S8192x256_S256x8192_1_1_0_0_n_n).lhsIdx j k 0 : ℕ) = j 0 := by
  simp [DotDims.lhsIdx, dot_S256x256_S8192x256_S256x8192_1_1_0_0_n_n]; rfl
theorem dk_lhs1 (j : S256x8192.Idx) (k : (dot_S256x256_S8192x256_S256x8192_1_1_0_0_n_n).contr.Idx) : ((dot_S256x256_S8192x256_S256x8192_1_1_0_0_n_n).lhsIdx j k 1 : ℕ) = k ⟨0, by decide⟩ := by
  simp [DotDims.lhsIdx, dot_S256x256_S8192x256_S256x8192_1_1_0_0_n_n]; rfl
theorem dk_rhs0 (j : S256x8192.Idx) (k : (dot_S256x256_S8192x256_S256x8192_1_1_0_0_n_n).contr.Idx) : ((dot_S256x256_S8192x256_S256x8192_1_1_0_0_n_n).rhsIdx j k 0 : ℕ) = j 1 := by
  simp [DotDims.rhsIdx, dot_S256x256_S8192x256_S256x8192_1_1_0_0_n_n]; rfl
theorem dk_rhs1 (j : S256x8192.Idx) (k : (dot_S256x256_S8192x256_S256x8192_1_1_0_0_n_n).contr.Idx) : ((dot_S256x256_S8192x256_S256x8192_1_1_0_0_n_n).rhsIdx j k 1 : ℕ) = k ⟨0, by decide⟩ := by
  simp [DotDims.rhsIdx, dot_S256x256_S8192x256_S256x8192_1_1_0_0_n_n]; rfl

/-- Entry `(j, s)` of the block: row `j` of the left operand against row `s` of the right one. -/
theorem simBlock (Q : FVec Ideal S256x256 .bf16) (H : FVec Ideal S8192x256 .bf16) (j : Fin 256) (s : Fin 8192) :
    matmul dot_S256x256_S8192x256_S256x8192_1_1_0_0_n_n none Q H (constant (F := Ideal) S256x8192 .f32 0x00000000#32) (ix2 j s)
      = ∑ d : Fin 256, Q (ix2 j d) * H (ix2 s d) := by
  simp only [matmul]
  rw [Ideal.matmul_constant_zero_apply]
  rw [← Equiv.sum_comp (contrEquiv1 dot_S256x256_S8192x256_S256x8192_1_1_0_0_n_n 256 (by decide) (by decide)).symm]
  refine Finset.sum_congr rfl fun k _ => ?_
  have hk := contrEquiv1_symm_val dot_S256x256_S8192x256_S256x8192_1_1_0_0_n_n 256 (by decide) (by decide) k
  have el : (dot_S256x256_S8192x256_S256x8192_1_1_0_0_n_n).lhsIdx (ix2 j s) ((contrEquiv1 dot_S256x256_S8192x256_S256x8192_1_1_0_0_n_n 256 (by decide) (by decide)).symm k) = ix2 j k :=
    funext fun a => Fin.ext (by
      match a with
      | ⟨0, _⟩ => exact dk_lhs0 _ _
      | ⟨1, _⟩ => exact (dk_lhs1 _ _).trans hk)
  have er : (dot_S256x256_S8192x256_S256x8192_1_1_0_0_n_n).rhsIdx (ix2 j s) ((contrEquiv1 dot_S256x256_S8192x256_S256x8192_1_1_0_0_n_n 256 (by decide) (by decide)).symm k) = ix2 s k :=
    funext fun a => Fin.ext (by
      match a with
      | ⟨0, _⟩ => exact dk_rhs0 _ _
      | ⟨1, _⟩ => exact (dk_rhs1 _ _).trans hk)
  rw [el, er]

/-! ## A row block's stored values -/

/-- The row of the term's features that row `j` of the block at position `n` works on. -/
def rowOf (n : ℕ) (j : Fin 256) : Fin 8192 := ⟨256 * (n % 32) + j.val, by have := j.isLt; omega⟩

theorem off_q0 (n : ℕ) : k0_off1 (pointOf n) (0 : Fin 2) = 256 * (n % 32) := by rw [k0_off1_eq]; rfl
theorem off_q1 (n : ℕ) : k0_off1 (pointOf n) (1 : Fin 2) = 0 := by rw [k0_off1_eq]; rfl
theorem off_p0 (n : ℕ) : k0_off2 (pointOf n) (0 : Fin 2) = (256 * (n % 32) + 4096) % 8192 := by rw [posRows_eq]; rfl
theorem off_p1 (n : ℕ) : k0_off2 (pointOf n) (1 : Fin 2) = 0 := by rw [posRows_eq]; rfl

/-- The block's own rows of an array held in the scratch buffer, -/
theorem ld_q {e : EltTy} (N : Vec Ideal S8192x256 e) (n : ℕ) (j d : Fin 256) :
    View.ld N (qRows (pointOf n)) (ix2 j d) = N (ix2 (rowOf n j) d) := by
  refine congrArg N (funext fun a => Fin.ext ?_)
  match a with
  | ⟨0, _⟩ =>
    show k0_off1 (pointOf n) (0 : Fin 2) + 1 * j.val = 256 * (n % 32) + j.val
    rw [off_q0]; omega
  | ⟨1, _⟩ =>
    show k0_off1 (pointOf n) (1 : Fin 2) + 1 * d.val = d.val
    rw [off_q1]; omega

/-- and its rows' partners. -/
theorem ld_p {e : EltTy} (N : Vec Ideal S8192x256 e) (n : ℕ) (j d : Fin 256) :
    View.ld N (pRows (pointOf n)) (ix2 j d) = N (ix2 (partner (rowOf n j)) d) := by
  refine congrArg N (funext fun a => Fin.ext ?_)
  match a with
  | ⟨0, _⟩ =>
    show k0_off2 (pointOf n) (0 : Fin 2) + 1 * j.val = (256 * (n % 32) + j.val + 4096) % 8192
    have hj := j.isLt
    rw [off_p0]; omega
  | ⟨1, _⟩ =>
    show k0_off2 (pointOf n) (1 : Fin 2) + 1 * d.val = d.val
    rw [off_p1]; omega

/-- The diagonal test: column `s` of row `j` of the block at position `n` is on the diagonal exactly at `s = rowOf n j`. -/
theorem diag_eq (n : ℕ) (j : Fin 256) (s : Fin 8192) :
    IntOp.cmpi .eq (BitVec.ofNat 32 (0 * 8192 + s.val))
        (IntOp.addi (Scalar.muli (BitVec.ofNat 32 (pointOf n 1).val) 256#32) (BitVec.ofNat 32 (0 * 256 + j.val)))
      = if s = rowOf n j then 1#1 else 0#1 := by
  have hs := s.isLt
  have hj := j.isLt
  have hn : (pointOf n 1).val = n % 32 := rfl
  have hlt : n % 32 < 32 := Nat.mod_lt _ (by norm_num)
  have key : (BitVec.ofNat 32 (0 * 8192 + s.val) = IntOp.addi (Scalar.muli (BitVec.ofNat 32 (pointOf n 1).val) 256#32) (BitVec.ofNat 32 (0 * 256 + j.val)))
      ↔ s = rowOf n j := by
    rw [hn]
    constructor
    · intro h
      have := congrArg BitVec.toNat h
      simp only [IntOp.addi, Scalar.muli, IntOp.muli, BitVec.toNat_add, BitVec.toNat_mul, BitVec.toNat_ofNat] at this
      apply Fin.ext
      show s.val = 256 * (n % 32) + j.val
      omega
    · intro h
      apply BitVec.eq_of_toNat_eq
      simp only [IntOp.addi, Scalar.muli, IntOp.muli, BitVec.toNat_add, BitVec.toNat_mul, BitVec.toNat_ofNat]
      have : s.val = 256 * (n % 32) + j.val := congrArg Fin.val h
      omega
  unfold IntOp.cmpi
  by_cases h : s = rowOf n j
  · rw [if_pos h, key.mpr h, beq_self_eq_true]
    rfl
  · rw [if_neg h]
    have : ¬(BitVec.ofNat 32 (0 * 8192 + s.val) = IntOp.addi (Scalar.muli (BitVec.ofNat 32 (pointOf n 1).val) 256#32) (BitVec.ofNat 32 (0 * 256 + j.val))) := fun hh => h (key.mp hh)
    rw [beq_eq_false_iff_ne.mpr this]
    rfl

section
variable (n : ℕ) (x0 x1 : Vec Ideal S1x1 .f32) (X : Feats) (N : Vec Ideal S8192x256 .f32) (H : Vec Ideal S8192x256 .bf16)
  (hN : ∀ i, N i = unitRows X i) (hH : ∀ i, H i = unitRows X i) (j : Fin 256)

include hH in
/-- The block's logits: row `j` against every row `s` of the term. -/
theorem logits_read (s : Fin 8192) :
    k0_pay7 x0 x1 (View.ld H (qRows (pointOf n))) H (ix2 j s) = logit X (k0_pay5 x0) (k0_pay6 x1) (rowOf n j) s := by
  unfold k0_pay7
  simp only [addf_apply, mulf_apply, broadcast_apply]
  rw [simBlock]
  unfold logit cosim
  refine congrArg (fun t => t * k0_pay5 x0 + k0_pay6 x1) (Finset.sum_congr rfl fun d _ => ?_)
  rw [ld_q, hH, hH]

include hH in
theorem rowMax_read :
    k0_pay8 x0 x1 (View.ld H (qRows (pointOf n))) H (ix2 j (0 : Fin 1)) = rowMax X (k0_pay5 x0) (k0_pay6 x1) (rowOf n j) := by
  unfold k0_pay8
  rw [LibKeepdims.shapeCast_a_a1_apply, rowMaxs]
  unfold rowMax
  exact congrArg (fun f => (Finset.univ : Finset (Fin 8192)).fold max ⊥ f) (funext fun s => logits_read n x0 x1 X H hH j s)

include hH in
theorem logSum_read :
    k0_pay9 (pointOf n) x0 x1 (View.ld H (qRows (pointOf n))) H (ix2 j (0 : Fin 1))
      = Ideal.log (offSum X (k0_pay5 x0) (k0_pay6 x1) (rowOf n j)) := by
  unfold k0_pay9
  dsimp only
  rw [log_at, LibKeepdims.shapeCast_a_a1_apply, rowSums]
  unfold offSum
  refine congrArg Ideal.log (Finset.sum_congr rfl fun s _ => ?_)
  rw [select_apply]
  have hd : cmpi .eq (iota .tc S256x8192 32 [1] iota_S256x8192_d1_w32)
      (addi (broadcast S256x8192 (Scalar.muli (BitVec.ofNat 32 (pointOf n 1).val) 256#32)) (iota .tc S256x8192 32 [0] iota_S256x8192_d0_w32)) (ix2 j s)
      = if s = rowOf n j then 1#1 else 0#1 := diag_eq n j s
  rw [hd]
  split
  · rw [select_one, broadcast_apply]
    exact Ideal.ofBits_zero_f32
  · rw [select_zero, exp_at, subf_apply, LibKeepdims.broadcastTo_a1_ab_apply, logits_read n x0 x1 X H hH j s,
      rowMax_read n x0 x1 X H hH j]

include hN hH in
/-- Row `j` of what the block at position `n` stores is the log-probability of row `rowOf n j` of its term. -/
theorem rowsOut_read :
    rowsOut (pointOf n) x0 x1 N H (ix2 j (0 : Fin 1)) = logProb X (k0_pay5 x0) (k0_pay6 x1) (rowOf n j) := by
  unfold rowsOut k0_pay1 logProb
  simp only [subf_apply, addf_apply, mulf_apply, broadcast_apply]
  rw [rowMax_read n x0 x1 X H hH j, logSum_read n x0 x1 X H hH j, LibKeepdims.shapeCast_a_a1_apply, rowSums]
  unfold logit cosim
  refine congrArg (fun t => t * k0_pay5 x0 + k0_pay6 x1 - rowMax X (k0_pay5 x0) (k0_pay6 x1) (rowOf n j)
    - Ideal.log (offSum X (k0_pay5 x0) (k0_pay6 x1) (rowOf n j))) (Finset.sum_congr rfl fun d _ => ?_)
  rw [mulf_apply, ld_q, ld_p, hN, hN]

end

end Cert.KernelIdeal.Read

end
-- ==== Proof.KernelResult.lean ====
import proofs.«111949_j33792802685631_1_alg».proof.Proof.PointBlocks

set_option maxRecDepth 16384

noncomputable section

namespace Cert.KernelIdeal.Pt

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (m : (ℓ : Loc nD τ sig) → Buf (Elt F) ℓ) (ρ : Dev nD → PrngReg)

/-! ## The output array, and what the host makes of it -/

theorem mem_outBlock (t : Fin cfg0.N) (i : S16384x1.Idx) :
    i ∈ ((cfg0.win 3).blk t).view.set ↔ ∀ a : Fin 2, win0_3.index t a * S256x1.size a ≤ (i a).val ∧ (i a).val < win0_3.index t a * S256x1.size a + S256x1.size a := by
  show i ∈ ((View.whole main_v11).slice (win0_3.rect t)).set ↔ _
  rw [View.set_slice_whole, Rect.mem_set_unit]
  exact Iff.rfl

/-- The 64 blocks of 256 rows tile the 16384 rows: the output array ends holding every point's rows. -/
theorem outArray_eq (c : Dev nD) : (dats m 0 c).arrAt 3 cfg0.N = lpAll m c :=
  (dats m 0 c).arrAt_eq_of_cover 3 (lpAll m c) (fun t _ => flushed_eq m c t) fun i => by
    have hi0 : (i 0).val < 16384 := (i 0).isLt
    have hi1 : (i 1).val < 1 := (i 1).isLt
    have hN : cfg0.N = 64 := N_0
    have hlt : (i 0).val / 256 < cfg0.N := by omega
    refine ⟨⟨(i 0).val / 256, hlt⟩, flush0_3 _, ?_⟩
    rw [mem_outBlock]
    obtain ⟨-, -, -, -, -, -, -, e0, e1⟩ := index_facts ⟨(i 0).val / 256, hlt⟩
    intro a
    match a with
    | ⟨0, _⟩ =>
      show win0_3.index ⟨(i 0).val / 256, hlt⟩ (0 : Fin 2) * 256 ≤ (i 0).val ∧ (i 0).val < win0_3.index ⟨(i 0).val / 256, hlt⟩ (0 : Fin 2) * 256 + 256
      rw [e0]; dsimp only; omega
    | ⟨1, _⟩ =>
      show win0_3.index ⟨(i 0).val / 256, hlt⟩ (1 : Fin 2) * 1 ≤ (i 1).val ∧ (i 1).val < win0_3.index ⟨(i 0).val / 256, hlt⟩ (1 : Fin 2) * 1 + 1
      rw [e1]; omega

/-- The host's lines after the region: the sum of the 16384 values from zero, divided by 16384, scaled. -/
def scaledMean (G : S16384x1.Idx → F .f32) : S_.Idx → F .f32 :=
  mulf (constant (F := F) S_ .f32 0xC1649249#32)
    (Host.divf (Host.reduceAdd G (constant (F := F) S_ .f32 0x00000000#32) reducesTo_S16384x1_S_d0_1 h_S_) (constant (F := F) S_ .f32 0x46800000#32))

theorem tail_eq (c : Dev nD) :
    Pipeline.afterTail₀ cfgs (dats m) 0 (V0 m) [hostOps1] c main_v14 = scaledMean (lpAll m c) := by
  unfold Pipeline.afterTail₀
  show StableHlo.after hostOps1 _ (Proc.devRef .tc main_v14) = _
  after_results
  have hA := Pipeline.withArrays_arr (τ := τ) spec0 launch0.win.arr_inj c (V0 m c) (fun w => (dats m 0 c).arrAt w (cfgs 0).N) 3
  show scaledMean (Pipeline.withArrays (cfgs 0).spec c (V0 m c) (fun w => (dats m 0 c).arrAt w (cfgs 0).N) (Proc.devRef .tc (Pipeline.arrRef spec0 3))) = _
  exact congrArg scaledMean (hA.trans (outArray_eq m c))

/-- The kernel program's run, read: the result is the scaled mean of all rows' values; the arguments are kept. -/
theorem value_run : θ_run defs (onTc (τ := τ) (main (F := F))) ⟨m, fun _ => 0, ρ⟩ (fun r => ∀ c : Dev nD,
      r.2.mem ((c.tc : Thread nD τ).loc main_v14) = scaledMean (lpAll m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨
      ((h c).2 main_v14 (Pipeline.mem_restRefs_of main_v14 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Pt

end
-- ==== Proof.KernelSpec.lean ====
/-
  The kernel program's result at the extended reals: the scaled mean, over both terms and all 8192 rows of each, of
  the rows' log-probabilities.
-/
import proofs.«111949_j33792802685631_1_alg».proof.Proof.KernelRead
import proofs.«111949_j33792802685631_1_alg».proof.Proof.KernelResult
import Idealize.ShloMosaic.Lib.IdealHost

set_option maxRecDepth 16384

noncomputable section

open scoped BigOperators

namespace Cert.KernelIdeal.Read

open Cert.KernelIdeal Cert.KernelIdeal.Gen Cert.KernelIdeal.Pt Cert.Contrast
open Idealize.ShloMosaic Idealize.ShloMosaic.ValueIdx Idealize.SL.Sem

variable (m : (ℓ : Loc nD τ sig) → Buf (Elt Ideal) ℓ)

/-- The features of term `t` as the kernel's region finds them. -/
def featsK (c : Dev nD) (t : ℕ) : Feats := plane (termFeats m c t)
/-- The scale and the shift as the body extracts them from their 1 × 1 windows. -/
def scaleK (c : Dev nD) : EReal := k0_pay5 (F := Ideal) (V m c main_v9)
def shiftK (c : Dev nD) : EReal := k0_pay6 (F := Ideal) (V m c main_v10)

/-- Entry `i` of the kernel's output array: the log-probability of row `i % 8192` of term `i / 8192`. -/
theorem lpAll_read (c : Dev nD) (i : S16384x1.Idx) :
    lpAll m c i = logProb (featsK m c ((i 0).val / 8192)) (scaleK m c) (shiftK m c) ⟨(i 0).val % 8192, Nat.mod_lt _ (by norm_num)⟩ := by
  unfold lpAll rowsAt
  rw [rowsOut_read ((i 0).val / 256) _ _ (featsK m c ((i 0).val / 256 / 32)) _ _
    (fun y => congrFun (nrm_eq _) y) (fun y => congrFun (nrmH_eq _) y)]
  have h1 : (i 0).val / 256 / 32 = (i 0).val / 8192 := by omega
  have h2 : rowOf ((i 0).val / 256) ⟨(i 0).val % 256, Nat.mod_lt _ (by norm_num)⟩ = ⟨(i 0).val % 8192, Nat.mod_lt _ (by norm_num)⟩ :=
    Fin.ext (by show 256 * ((i 0).val / 256 % 32) + (i 0).val % 256 = (i 0).val % 8192; omega)
  rw [h1, h2]
  rfl

/-- A sum over 16384 consecutive rows is the sum over the two terms of the sums over their 8192 rows. -/
theorem sum_two_terms (g : Fin 16384 → EReal) :
    ∑ k, g k = ∑ a : Fin 2, ∑ b : Fin 8192, g ⟨b.val + 8192 * a.val, by have := a.isLt; have := b.isLt; omega⟩ := by
  rw [← Equiv.sum_comp (finProdFinEquiv (m := 2) (n := 8192)) g, Fintype.sum_prod_type]
  rfl

theorem kernel_total (c : Dev nD) (jz : S_.Idx) :
    scaledMean (F := Ideal) (lpAll m c) jz
      = Ideal.ofBits .f32 0xC1649249#32 * Ideal.div (0 + ∑ a : Fin 2, ∑ b : Fin 8192, logProb (featsK m c a.val) (scaleK m c) (shiftK m c) b)
          (Ideal.ofBits .f32 0x46800000#32) := by
  unfold scaledMean
  rw [mulf_apply, constant_apply, hostDivf_apply, hostReduceAdd_apply, Ideal.hostReduceAdd_total _ (fun b => b.elim0),
    constant_apply, constant_apply, Ideal.ofBits_zero_f32]
  have hs : ∑ i : S16384x1.Idx, lpAll m c i = ∑ a : Fin 2, ∑ b : Fin 8192, logProb (featsK m c a.val) (scaleK m c) (shiftK m c) b := by
    rw [sum_idx2]
    simp only [Finset.univ_unique, Finset.sum_singleton]
    rw [sum_two_terms]
    refine Finset.sum_congr rfl fun a _ => Finset.sum_congr rfl fun b _ => ?_
    rw [lpAll_read]
    have ha := a.isLt
    have hb := b.isLt
    have e1 : (b.val + 8192 * a.val) / 8192 = a.val := by omega
    have e2 : (b.val + 8192 * a.val) % 8192 = b.val := by omega
    show logProb (featsK m c ((b.val + 8192 * a.val) / 8192)) (scaleK m c) (shiftK m c) ⟨(b.val + 8192 * a.val) % 8192, _⟩ = _
    simp only [e1, e2]
  rw [hs]

end Cert.KernelIdeal.Read

end
-- ==== Proof.Bridge.lean ====
/-
  The algebra between the two programs' spellings, over the extended reals.

  The reference picks a row's partner entry with a 0/1 mask (a sum of 8192 products, all but one zero, divided by
  the mask's row sum, which is one), removes the diagonal by multiplying with a 0/1 mask, and divides its logits by
  one; the kernel reads the partner entry directly and removes the diagonal by a select. None of these needs a
  finiteness assumption. The one place where the extended reals could differ is the last: the kernel averages all
  16384 values at once, the reference averages each term's 8192 and then the two means. The two agree because no
  value is positive, so neither term's sum is +∞.
-/
import proofs.«111949_j33792802685631_1_alg».proof.Proof.Spec

noncomputable section

open scoped BigOperators

namespace Cert.Contrast

open Idealize.ShloMosaic

/-- The features of term `t` from the two argument arrays `A0` (student) and `A1` (teacher): term 0 stacks the teacher's
    first 4096 rows on the student's last 4096, term 1 the teacher's last 4096 on the student's first 4096. -/
def termRows (A0 A1 : Feats) (t : ℕ) : Feats := fun i =>
  if t % 2 = 0 then (if (i 0).val < 4096 then A1 i else A0 i)
  else (if h : (i 0).val < 4096 then A1 (ValueIdx.ix2 (⟨(i 0).val + 4096, by omega⟩ : Fin 8192) (i 1))
    else A0 (ValueIdx.ix2 (⟨(i 0).val - 4096, by have := ValueIdx.idx2_lt0 i; omega⟩ : Fin 8192) (i 1)))

/-- The partner mask: one at a row's partner, zero elsewhere. -/
def partnerMask (r s : Fin 8192) : EReal := if s = partner r then 1 else 0
/-- The off-diagonal mask. -/
def offDiag (r s : Fin 8192) : EReal := if s = r then 0 else 1

theorem div_one (x : EReal) : Ideal.div x 1 = x := by
  rw [← EReal.coe_one, Ideal.div_coe one_ne_zero]
  norm_num

/-- A masked mean with the partner mask is the partner's entry. -/
theorem masked_pick (r : Fin 8192) (v : Fin 8192 → EReal) :
    Ideal.div (0 + ∑ s, partnerMask r s * v s) (0 + ∑ s, partnerMask r s) = v (partner r) := by
  have h1 : ∑ s, partnerMask r s * v s = v (partner r) := by
    rw [Finset.sum_eq_single (partner r)]
    · simp [partnerMask]
    · intro s _ hs; simp [partnerMask, hs]
    · intro h; exact absurd (Finset.mem_univ _) h
  have h2 : ∑ s, partnerMask r s = 1 := by
    rw [Finset.sum_eq_single (partner r)]
    · simp [partnerMask]
    · intro s _ hs; simp [partnerMask, hs]
    · intro h; exact absurd (Finset.mem_univ _) h
  rw [h1, h2, zero_add, zero_add, div_one]

/-- A sum masked off the diagonal is the sum of the entries off the diagonal. -/
theorem offDiag_sum (r : Fin 8192) (d : Fin 8192 → EReal) :
    0 + ∑ s, Ideal.exp (d s) * offDiag r s = ∑ s, if s = r then 0 else Ideal.exp (d s) := by
  rw [zero_add]
  refine Finset.sum_congr rfl fun s _ => ?_
  unfold offDiag
  split
  · rw [mul_zero]
  · rw [mul_one]

/-- The mean of all values is the mean of the two terms' means, when neither term's sum is +∞. -/
theorem mean_of_means (c : ℝ) (hc : c < 0) (S0 S1 : EReal) (h0 : S0 ≤ 0) (h1 : S1 ≤ 0) :
    (c : EReal) * Ideal.div (0 + (S0 + S1)) ((16384 : ℝ) : EReal)
      = Ideal.div ((0 + (c : EReal) * Ideal.div (0 + S0) ((8192 : ℝ) : EReal)) + (c : EReal) * Ideal.div (0 + S1) ((8192 : ℝ) : EReal)) ((2 : ℝ) : EReal) := by
  simp only [zero_add]
  rw [Ideal.div_coe (by norm_num : (16384 : ℝ) ≠ 0), Ideal.div_coe (by norm_num : (8192 : ℝ) ≠ 0),
    Ideal.div_coe (by norm_num : (8192 : ℝ) ≠ 0), Ideal.div_coe (by norm_num : (2 : ℝ) ≠ 0)]
  have k1 : (0 : ℝ) < 1 / 16384 := by norm_num
  have k2 : (0 : ℝ) < 1 / 8192 := by norm_num
  have k3 : (0 : ℝ) < 1 / 2 := by norm_num
  induction S0 using EReal.rec with
  | top => exact absurd h0 (not_le.mpr EReal.zero_lt_top)
  | bot =>
    induction S1 using EReal.rec with
    | top => exact absurd h1 (not_le.mpr EReal.zero_lt_top)
    | bot =>
      simp only [EReal.bot_add, EReal.bot_mul_coe_of_pos k1, EReal.bot_mul_coe_of_pos k2, EReal.coe_mul_bot_of_neg hc,
        EReal.top_add_top, EReal.top_mul_coe_of_pos k3]
    | coe b =>
      simp only [EReal.bot_add, EReal.bot_mul_coe_of_pos k1, EReal.bot_mul_coe_of_pos k2, EReal.coe_mul_bot_of_neg hc,
        ← EReal.coe_mul, EReal.top_add_coe, EReal.top_mul_coe_of_pos k3]
  | coe a =>
    induction S1 using EReal.rec with
    | top => exact absurd h1 (not_le.mpr EReal.zero_lt_top)
    | bot =>
      simp only [EReal.add_bot, EReal.bot_mul_coe_of_pos k1, EReal.bot_mul_coe_of_pos k2, EReal.coe_mul_bot_of_neg hc,
        ← EReal.coe_mul, EReal.coe_add_top, EReal.top_mul_coe_of_pos k3]
    | coe b =>
      simp only [← EReal.coe_add, ← EReal.coe_mul]
      congr 1
      ring

/-- The two programs' totals: the scaled mean over both terms' rows, and the mean of the two terms' scaled means. -/
theorem totals_agree (A0 A1 : Feats) (w b : EReal) :
    Ideal.ofBits .f32 0xC1649249#32
        * Ideal.div (0 + ∑ a : Fin 2, ∑ r : Fin 8192, logProb (termRows A0 A1 a.val) w b r) (Ideal.ofBits .f32 0x46800000#32)
      = Ideal.div ((0 + Ideal.ofBits .f32 0xC1649249#32
              * Ideal.div (0 + ∑ r : Fin 8192, logProb (termRows A0 A1 0) w b r) (Ideal.ofBits .f32 0x46000000#32))
            + Ideal.ofBits .f32 0xC1649249#32
              * Ideal.div (0 + ∑ r : Fin 8192, logProb (termRows A0 A1 1) w b r) (Ideal.ofBits .f32 0x46000000#32))
          (Ideal.ofBits .f32 0x40000000#32) := by
  obtain ⟨c, hc, hcv⟩ := ofBits_scale
  rw [hcv, ofBits_16384, ofBits_8192, ofBits_two, Fin.sum_univ_two]
  exact mean_of_means c hc _ _ (Finset.sum_nonpos fun r _ => logProb_nonpos _ w b r)
    (Finset.sum_nonpos fun r _ => logProb_nonpos _ w b r)

end Cert.Contrast

end
-- ==== Proof.KernelArgs.lean ====
/-
  The kernel's inputs in terms of the program's arguments: the host stacks the two terms' features from halves of
  the two argument arrays, and hands the scale and the shift over as 1 × 1 arrays.
-/
import proofs.«111949_j33792802685631_1_alg».proof.Proof.KernelSpec
import proofs.«111949_j33792802685631_1_alg».proof.Proof.Bridge

set_option maxRecDepth 16384

noncomputable section

open scoped BigOperators

namespace Cert.KernelIdeal.Read

open Cert.KernelIdeal Cert.KernelIdeal.Gen Cert.KernelIdeal.Pt Cert.Contrast
open Idealize.ShloMosaic Idealize.ShloMosaic.TcCoe Idealize.ShloMosaic.ValueIdx Idealize.SL.Sem Idealize.ShloMosaic.StableHlo

variable (m : (ℓ : Loc nD τ sig) → Buf (Elt Ideal) ℓ)

/-- The stacked features as the host's operations build them from the two arguments. -/
def stacked (A0 A1 : FVec Ideal S8192x256 .f32) : FVec Ideal S2x8192x256 .f32 :=
  concatenate S2x8192x256 0
    [⟨S1x8192x256, broadcastInDim S1x8192x256 ![1, 2] bcast_S8192x256_S1x8192x256_1_2
        (concatenate S8192x256 0 [⟨S4096x256, extractStridedSlice S4096x256 ![0, 0] A1 slices_S8192x256_S4096x256_0_0⟩,
          ⟨S4096x256, extractStridedSlice S4096x256 ![4096, 0] A0 slices_S8192x256_S4096x256_4096_0⟩] concatenates_S4096x256_S4096x256_S8192x256_d0)⟩,
     ⟨S1x8192x256, broadcastInDim S1x8192x256 ![1, 2] bcast_S8192x256_S1x8192x256_1_2
        (concatenate S8192x256 0 [⟨S4096x256, extractStridedSlice S4096x256 ![4096, 0] A1 slices_S8192x256_S4096x256_4096_0⟩,
          ⟨S4096x256, extractStridedSlice S4096x256 ![0, 0] A0 slices_S8192x256_S4096x256_0_0⟩] concatenates_S4096x256_S4096x256_S8192x256_d0)⟩]
    concatenates_S1x8192x256_S1x8192x256_S2x8192x256_d0

theorem V_stacked (c : Dev nD) :
    (V m c main_v8 : S2x8192x256.Idx → EReal) = stacked (m ((c : Thread nD τ).loc main_arg0)) (m ((c : Thread nD τ).loc main_arg1)) := by
  show StableHlo.after hostOps0 (fun b => m (c, b)) (Proc.devRef .tc main_v8) = _
  after_results
  rfl

theorem V_scale (c : Dev nD) :
    (V m c main_v9 : S1x1.Idx → EReal) = shapeCast S1x1 (m ((c : Thread nD τ).loc main_arg2)) shapeCasts_S_S1x1 := by
  show StableHlo.after hostOps0 (fun b => m (c, b)) (Proc.devRef .tc main_v9) = _
  after_results
  rfl

theorem V_shift (c : Dev nD) :
    (V m c main_v10 : S1x1.Idx → EReal) = shapeCast S1x1 (m ((c : Thread nD τ).loc main_arg3)) shapeCasts_S_S1x1 := by
  show StableHlo.after hostOps0 (fun b => m (c, b)) (Proc.devRef .tc main_v10) = _
  after_results
  rfl

/-! ## The stacked features, entry by entry -/

theorem bcast_plane (Y : FVec Ideal S8192x256 .f32) (r : Fin 8192) (d : Fin 256) :
    broadcastInDim S1x8192x256 ![1, 2] bcast_S8192x256_S1x8192x256_1_2 Y (ix3 (0 : Fin 1) r d) = Y (ix2 r d) :=
  broadcastInDim_apply _ _ Y _ (ix2 r d) (fun a => by
    match a with
    | ⟨0, _⟩ => show r.val = if (8192 : ℕ) = 1 then 0 else r.val; rw [if_neg (by norm_num)]
    | ⟨1, _⟩ => show d.val = if (256 : ℕ) = 1 then 0 else d.val; rw [if_neg (by norm_num)])

/-- Two 4096-row halves stacked: the upper rows read the first, -/
theorem halves_upper (P Q : FVec Ideal S4096x256 .f32) (r : Fin 8192) (d : Fin 256) (hr : r.val < 4096) :
    concatenate S8192x256 0 [⟨S4096x256, P⟩, ⟨S4096x256, Q⟩] concatenates_S4096x256_S4096x256_S8192x256_d0 (ix2 r d)
      = P (ix2 (⟨r.val, hr⟩ : Fin 4096) d) :=
  concatenate_pair_apply_left 0 P Q _ (ix2 r d) rfl (ix2 (⟨r.val, hr⟩ : Fin 4096) d) (fun b => by
    match b with
    | ⟨0, _⟩ => rfl
    | ⟨1, _⟩ => rfl)

/-- the lower rows the second. -/
theorem halves_lower (P Q : FVec Ideal S4096x256 .f32) (r : Fin 8192) (d : Fin 256) (hr : ¬r.val < 4096) :
    concatenate S8192x256 0 [⟨S4096x256, P⟩, ⟨S4096x256, Q⟩] concatenates_S4096x256_S4096x256_S8192x256_d0 (ix2 r d)
      = Q (ix2 (⟨r.val - 4096, by have := r.isLt; omega⟩ : Fin 4096) d) :=
  concatenate_pair_apply_right 0 P Q _ (ix2 r d) rfl rfl (ix2 (⟨r.val - 4096, by have := r.isLt; omega⟩ : Fin 4096) d)
    (fun b hb => by
      match b with
      | ⟨0, _⟩ => exact absurd rfl hb
      | ⟨1, _⟩ => rfl)
    (by show r.val - 4096 + 4096 = r.val; omega)

theorem slice_top (A : FVec Ideal S8192x256 .f32) (p : Fin 4096) (d : Fin 256) :
    extractStridedSlice S4096x256 ![0, 0] A slices_S8192x256_S4096x256_0_0 (ix2 p d) = A (ix2 (⟨p.val, by have := p.isLt; omega⟩ : Fin 8192) d) :=
  extractStridedSlice_apply _ A _ (ix2 p d) (ix2 (⟨p.val, by have := p.isLt; omega⟩ : Fin 8192) d) (fun a => by
    match a with
    | ⟨0, _⟩ => show p.val = 0 + p.val; omega
    | ⟨1, _⟩ => show d.val = 0 + d.val; omega)

theorem slice_bottom (A : FVec Ideal S8192x256 .f32) (p : Fin 4096) (d : Fin 256) :
    extractStridedSlice S4096x256 ![4096, 0] A slices_S8192x256_S4096x256_4096_0 (ix2 p d) = A (ix2 (⟨p.val + 4096, by have := p.isLt; omega⟩ : Fin 8192) d) :=
  extractStridedSlice_apply _ A _ (ix2 p d) (ix2 (⟨p.val + 4096, by have := p.isLt; omega⟩ : Fin 8192) d) (fun a => by
    match a with
    | ⟨0, _⟩ => show p.val + 4096 = 4096 + p.val; omega
    | ⟨1, _⟩ => show d.val = 0 + d.val; omega)

theorem stacked_read (A0 A1 : FVec Ideal S8192x256 .f32) (t : Fin 2) (r : Fin 8192) (d : Fin 256) :
    stacked A0 A1 (ix3 t r d) = termRows A0 A1 t.val (ix2 r d) := by
  unfold stacked termRows
  match t with
  | ⟨0, _⟩ =>
    refine (concatenate_pair_apply_left (t := S2x8192x256) (s₁ := S1x8192x256) (s₂ := S1x8192x256) 0 _ _ _ (ix3 (⟨0, by norm_num⟩ : Fin 2) r d) rfl (ix3 (0 : Fin 1) r d) (fun b => by
      match b with
      | ⟨0, _⟩ => rfl
      | ⟨1, _⟩ => rfl
      | ⟨2, _⟩ => rfl)).trans ?_
    rw [bcast_plane]
    rw [if_pos (by rfl)]
    by_cases hr : r.val < 4096
    · rw [halves_upper _ _ r d hr, slice_top, if_pos hr]
    · rw [halves_lower _ _ r d hr, slice_bottom, if_neg hr]
      exact congrArg A0 (funext fun a => Fin.ext (by
        match a with
        | ⟨0, _⟩ => show r.val - 4096 + 4096 = r.val; omega
        | ⟨1, _⟩ => rfl))
  | ⟨1, _⟩ =>
    refine (concatenate_pair_apply_right (t := S2x8192x256) (s₁ := S1x8192x256) (s₂ := S1x8192x256) 0 _ _ _ (ix3 (⟨1, by norm_num⟩ : Fin 2) r d) rfl rfl (ix3 (0 : Fin 1) r d)
      (fun b hb => by
        match b with
        | ⟨0, _⟩ => exact absurd rfl hb
        | ⟨1, _⟩ => rfl
        | ⟨2, _⟩ => rfl) (by rfl)).trans ?_
    rw [bcast_plane]
    rw [if_neg (by show ¬((1 : ℕ) % 2 = 0); norm_num)]
    by_cases hr : r.val < 4096
    · rw [halves_upper _ _ r d hr, slice_bottom, dif_pos hr]
    · rw [halves_lower _ _ r d hr, slice_top, dif_neg hr]

/-- The features of term `t` as the kernel finds them are the term's rows of the two arguments. -/
theorem featsK_eq (c : Dev nD) (t : ℕ) :
    featsK m c t = termRows (m ((c : Thread nD τ).loc main_arg0)) (m ((c : Thread nD τ).loc main_arg1)) t := by
  funext i
  obtain ⟨r, d, rfl⟩ : ∃ (r : Fin 8192) (d : Fin 256), i = ix2 r d := ⟨i 0, i 1, eq_ix2 i⟩
  unfold featsK plane termFeats
  show (V m c main_v8 : S2x8192x256.Idx → EReal) (ix3 (⟨t % 2, Nat.mod_lt _ (by norm_num)⟩ : Fin 2) r d) = _
  rw [V_stacked, stacked_read]
  unfold termRows
  simp only [Nat.mod_mod]

/-- The scale the body extracts is the scalar argument. -/
theorem scaleK_eq (c : Dev nD) : scaleK m c = (m ((c : Thread nD τ).loc main_arg2) : S_.Idx → EReal) ix0 := by
  unfold scaleK k0_pay5 extractAt
  rw [V_scale]
  unfold shapeCast
  exact congrArg _ (funext fun a => a.elim0)

theorem shiftK_eq (c : Dev nD) : shiftK m c = (m ((c : Thread nD τ).loc main_arg3) : S_.Idx → EReal) ix0 := by
  unfold shiftK k0_pay6 extractAt
  rw [V_shift]
  unfold shapeCast
  exact congrArg _ (funext fun a => a.elim0)

end Cert.KernelIdeal.Read

end
-- ==== Proof.RefRun.lean ====
/-
  The reference program is a straight line of host operations: its run is the run of that line, and since no
  operation of the line writes an argument array, the four arguments end as they were launched.
-/
import proofs.«111949_j33792802685631_1_alg».proof.Proof.Gen.ReferenceIdeal
import Idealize.ShloMosaic.Lib.StableHlo.Run
import Idealize.ShloMosaic.Lib.Tactic

noncomputable section

namespace Cert.ReferenceIdeal.HostRun

open Cert.ReferenceIdeal Cert.ReferenceIdeal.Gen Idealize.ShloMosaic Idealize.ShloMosaic.TcCoe Idealize.SL.Sem Idealize.ShloMosaic.StableHlo

variable {F : FTy → Type} [FloatOps F]

/-- @main's 126 operations, in order (a called function's operations stand in its call's place, spelt `TRef.…`). -/
abbrev ops0 : List (HloOp τ sig (Elt F)) :=
  [ nullary main_v0 (iotaInDim S4096x4096 32 0),
    nullary main_v1 (iotaInDim S4096x4096 32 1),
    nullary main_c (constantI S_ 32 0#32),
    unary main_c main_v2 (broadcastInDim S4096x4096 ![] bcast_S_S4096x4096 : (⟨S_, .i32⟩ : BufTy).Contents (Elt F) → (⟨S4096x4096, .i32⟩ : BufTy).Contents (Elt F)),
    binary main_v0 main_v2 main_v3 (addi : (⟨S4096x4096, .i32⟩ : BufTy).Contents (Elt F) → (⟨S4096x4096, .i32⟩ : BufTy).Contents (Elt F) → (⟨S4096x4096, .i32⟩ : BufTy).Contents (Elt F)),
    binary main_v3 main_v1 main_v4 (cmpi .eq : (⟨S4096x4096, .i32⟩ : BufTy).Contents (Elt F) → (⟨S4096x4096, .i32⟩ : BufTy).Contents (Elt F) → (⟨S4096x4096, .i1⟩ : BufTy).Contents (Elt F)),
    unary main_v4 main_v5 (uitofp .f32 : (⟨S4096x4096, .i1⟩ : BufTy).Contents (Elt F) → (⟨S4096x4096, .f32⟩ : BufTy).Contents (Elt F)),
    reshape main_v5 main_v6 rfl shapeCasts_S4096x4096_S1x4096x1x4096,
    unary main_v6 main_v7 (broadcastInDim S2x4096x2x4096 ![0, 1, 2, 3] bcast_S1x4096x1x4096_S2x4096x2x4096_0_1_2_3 : (⟨S1x4096x1x4096, .f32⟩ : BufTy).Contents (Elt F) → (⟨S2x4096x2x4096, .f32⟩ : BufTy).Contents (Elt F)),
    reshape main_v7 main_v8 rfl shapeCasts_S2x4096x2x4096_S8192x8192,
    nullary main_v9 (iotaInDim S8192x8192 32 0),
    nullary main_v10 (iotaInDim S8192x8192 32 1),
    nullary main_c_0 (constantI S_ 32 0#32),
    unary main_c_0 main_v11 (broadcastInDim S8192x8192 ![] bcast_S_S8192x8192 : (⟨S_, .i32⟩ : BufTy).Contents (Elt F) → (⟨S8192x8192, .i32⟩ : BufTy).Contents (Elt F)),
    binary main_v9 main_v11 main_v12 (addi : (⟨S8192x8192, .i32⟩ : BufTy).Contents (Elt F) → (⟨S8192x8192, .i32⟩ : BufTy).Contents (Elt F) → (⟨S8192x8192, .i32⟩ : BufTy).Contents (Elt F)),
    binary main_v12 main_v10 main_v13 (cmpi .eq : (⟨S8192x8192, .i32⟩ : BufTy).Contents (Elt F) → (⟨S8192x8192, .i32⟩ : BufTy).Contents (Elt F) → (⟨S8192x8192, .i1⟩ : BufTy).Contents (Elt F)),
    unary main_v13 main_v14 (uitofp .f32 : (⟨S8192x8192, .i1⟩ : BufTy).Contents (Elt F) → (⟨S8192x8192, .f32⟩ : BufTy).Contents (Elt F)),
    nullary main_cst (constant S_ .f32 0x3F800000#32),
    unary main_cst main_v15 (broadcastInDim S8192x8192 ![] bcast_S_S8192x8192 : (⟨S_, .f32⟩ : BufTy).Contents (Elt F) → (⟨S8192x8192, .f32⟩ : BufTy).Contents (Elt F)),
    binary main_v15 main_v14 main_v16 (subf : (⟨S8192x8192, .f32⟩ : BufTy).Contents (Elt F) → (⟨S8192x8192, .f32⟩ : BufTy).Contents (Elt F) → (⟨S8192x8192, .f32⟩ : BufTy).Contents (Elt F)),
    binary main_v8 main_v16 main_v17 (mulf : (⟨S8192x8192, .f32⟩ : BufTy).Contents (Elt F) → (⟨S8192x8192, .f32⟩ : BufTy).Contents (Elt F) → (⟨S8192x8192, .f32⟩ : BufTy).Contents (Elt F)),
    reshape main_arg0 main_v18 rfl shapeCasts_S8192x256_S2x4096x256,
    reshape main_arg1 main_v19 rfl shapeCasts_S8192x256_S2x4096x256,
    unary main_v19 main_v20 ((extractStridedSlice S1x4096x256 ![0, 0, 0] · slices_S2x4096x256_S1x4096x256_0_0_0) : (⟨S2x4096x256, .f32⟩ : BufTy).Contents (Elt F) → (⟨S1x4096x256, .f32⟩ : BufTy).Contents (Elt F)),
    reshape main_v20 main_v21 rfl shapeCasts_S1x4096x256_S4096x256,
    unary main_v18 main_v22 ((extractStridedSlice S1x4096x256 ![1, 0, 0] · slices_S2x4096x256_S1x4096x256_1_0_0) : (⟨S2x4096x256, .f32⟩ : BufTy).Contents (Elt F) → (⟨S1x4096x256, .f32⟩ : BufTy).Contents (Elt F)),
    reshape main_v22 main_v23 rfl shapeCasts_S1x4096x256_S4096x256,
    binary main_v21 main_v23 main_v24 ((fun a b => concatenate S8192x256 0 [⟨S4096x256, a⟩, ⟨S4096x256, b⟩] concatenates_S4096x256_S4096x256_S8192x256_d0) : (⟨S4096x256, .f32⟩ : BufTy).Contents (Elt F) → (⟨S4096x256, .f32⟩ : BufTy).Contents (Elt F) → (⟨S8192x256, .f32⟩ : BufTy).Contents (Elt F)),
    TRef.binary (TRef.of (T := ⟨S8192x256, .f32⟩) main_v24) (TRef.of (T := ⟨S8192x256, .f32⟩) main_v24) (TRef.of (T := ⟨S8192x256, .f32⟩) main_call0_v0) mulf,
    TRef.nullary (TRef.of (T := ⟨S_, .f32⟩) main_call0_cst) (constant S_ .f32 0x00000000#32),
    TRef.binary (TRef.of (T := ⟨S8192x256, .f32⟩) main_call0_v0) (TRef.of (T := ⟨S_, .f32⟩) main_call0_cst) (TRef.of (T := ⟨S8192, .f32⟩) main_call0_v1) (fun x v => Host.reduceAdd x v reducesTo_S8192x256_S8192_d1 h_S_),
    TRef.unary (TRef.of (T := ⟨S8192, .f32⟩) main_call0_v1) (TRef.of (T := ⟨S8192x1, .f32⟩) main_call0_v2) (broadcastInDim S8192x1 ![0] bcast_S8192_S8192x1_0),
    TRef.unary (TRef.of (T := ⟨S8192x1, .f32⟩) main_call0_v2) (TRef.of (T := ⟨S8192x1, .f32⟩) main_v25) Host.sqrt,
    nullary main_cst_1 (constant S_ .f32 0x322BCC77#32),
    unary main_cst_1 main_v26 (broadcastInDim S8192x1 ![] bcast_S_S8192x1 : (⟨S_, .f32⟩ : BufTy).Contents (Elt F) → (⟨S8192x1, .f32⟩ : BufTy).Contents (Elt F)),
    binary main_v25 main_v26 main_v27 (maximumf : (⟨S8192x1, .f32⟩ : BufTy).Contents (Elt F) → (⟨S8192x1, .f32⟩ : BufTy).Contents (Elt F) → (⟨S8192x1, .f32⟩ : BufTy).Contents (Elt F)),
    unary main_v27 main_v28 (broadcastInDim S8192x256 ![0, 1] bcast_S8192x1_S8192x256_0_1 : (⟨S8192x1, .f32⟩ : BufTy).Contents (Elt F) → (⟨S8192x256, .f32⟩ : BufTy).Contents (Elt F)),
    binary main_v24 main_v28 main_v29 (Host.divf : (⟨S8192x256, .f32⟩ : BufTy).Contents (Elt F) → (⟨S8192x256, .f32⟩ : BufTy).Contents (Elt F) → (⟨S8192x256, .f32⟩ : BufTy).Contents (Elt F)),
    unary main_v29 main_v30 ((transpose S256x8192 [1, 0] · transposes_S8192x256_S256x8192_1_0) : (⟨S8192x256, .f32⟩ : BufTy).Contents (Elt F) → (⟨S256x8192, .f32⟩ : BufTy).Contents (Elt F)),
    binary main_v29 main_v30 main_v31 ((fun l r => Host.dotGeneral dot_S8192x256_S256x8192_S8192x8192_1_0_0_1_n_n none l r) : (⟨S8192x256, .f32⟩ : BufTy).Contents (Elt F) → (⟨S256x8192, .f32⟩ : BufTy).Contents (Elt F) → (⟨S8192x8192, .f32⟩ : BufTy).Contents (Elt F)),
    unary main_arg2 main_v32 (broadcastInDim S8192x8192 ![] bcast_S_S8192x8192 : (⟨S_, .f32⟩ : BufTy).Contents (Elt F) → (⟨S8192x8192, .f32⟩ : BufTy).Contents (Elt F)),
    binary main_v31 main_v32 main_v33 (mulf : (⟨S8192x8192, .f32⟩ : BufTy).Contents (Elt F) → (⟨S8192x8192, .f32⟩ : BufTy).Contents (Elt F) → (⟨S8192x8192, .f32⟩ : BufTy).Contents (Elt F)),
    unary main_arg3 main_v34 (broadcastInDim S8192x8192 ![] bcast_S_S8192x8192 : (⟨S_, .f32⟩ : BufTy).Contents (Elt F) → (⟨S8192x8192, .f32⟩ : BufTy).Contents (Elt F)),
    binary main_v33 main_v34 main_v35 (addf : (⟨S8192x8192, .f32⟩ : BufTy).Contents (Elt F) → (⟨S8192x8192, .f32⟩ : BufTy).Contents (Elt F) → (⟨S8192x8192, .f32⟩ : BufTy).Contents (Elt F)),
    nullary main_cst_2 (constant S_ .f32 0x3F800000#32),
    unary main_cst_2 main_v36 (broadcastInDim S8192x8192 ![] bcast_S_S8192x8192 : (⟨S_, .f32⟩ : BufTy).Contents (Elt F) → (⟨S8192x8192, .f32⟩ : BufTy).Contents (Elt F)),
    binary main_v35 main_v36 main_v37 (Host.divf : (⟨S8192x8192, .f32⟩ : BufTy).Contents (Elt F) → (⟨S8192x8192, .f32⟩ : BufTy).Contents (Elt F) → (⟨S8192x8192, .f32⟩ : BufTy).Contents (Elt F)),
    nullary main_cst_3 (constant S_ .f32 0xFF800000#32),
    binary main_v37 main_cst_3 main_v38 ((fun x v => Host.reduce FloatOps.maximumf x v reducesTo_S8192x8192_S8192_d1 h_S_) : (⟨S8192x8192, .f32⟩ : BufTy).Contents (Elt F) → (⟨S_, .f32⟩ : BufTy).Contents (Elt F) → (⟨S8192, .f32⟩ : BufTy).Contents (Elt F)),
    unary main_v38 main_v39 (broadcastInDim S8192x1 ![0] bcast_S8192_S8192x1_0 : (⟨S8192, .f32⟩ : BufTy).Contents (Elt F) → (⟨S8192x1, .f32⟩ : BufTy).Contents (Elt F)),
    unary main_v39 main_v40 (broadcastInDim S8192x8192 ![0, 1] bcast_S8192x1_S8192x8192_0_1 : (⟨S8192x1, .f32⟩ : BufTy).Contents (Elt F) → (⟨S8192x8192, .f32⟩ : BufTy).Contents (Elt F)),
    binary main_v37 main_v40 main_v41 (subf : (⟨S8192x8192, .f32⟩ : BufTy).Contents (Elt F) → (⟨S8192x8192, .f32⟩ : BufTy).Contents (Elt F) → (⟨S8192x8192, .f32⟩ : BufTy).Contents (Elt F)),
    unary main_v41 main_v42 (Host.exp : (⟨S8192x8192, .f32⟩ : BufTy).Contents (Elt F) → (⟨S8192x8192, .f32⟩ : BufTy).Contents (Elt F)),
    binary main_v42 main_v16 main_v43 (mulf : (⟨S8192x8192, .f32⟩ : BufTy).Contents (Elt F) → (⟨S8192x8192, .f32⟩ : BufTy).Contents (Elt F) → (⟨S8192x8192, .f32⟩ : BufTy).Contents (Elt F)),
    nullary main_cst_4 (constant S_ .f32 0x00000000#32),
    binary main_v43 main_cst_4 main_v44 ((fun x v => Host.reduceAdd x v reducesTo_S8192x8192_S8192_d1 h_S_) : (⟨S8192x8192, .f32⟩ : BufTy).Contents (Elt F) → (⟨S_, .f32⟩ : BufTy).Contents (Elt F) → (⟨S8192, .f32⟩ : BufTy).Contents (Elt F)),
    unary main_v44 main_v45 (broadcastInDim S8192x1 ![0] bcast_S8192_S8192x1_0 : (⟨S8192, .f32⟩ : BufTy).Contents (Elt F) → (⟨S8192x1, .f32⟩ : BufTy).Contents (Elt F)),
    unary main_v45 main_v46 (Host.log : (⟨S8192x1, .f32⟩ : BufTy).Contents (Elt F) → (⟨S8192x1, .f32⟩ : BufTy).Contents (Elt F)),
    unary main_v46 main_v47 (broadcastInDim S8192x8192 ![0, 1] bcast_S8192x1_S8192x8192_0_1 : (⟨S8192x1, .f32⟩ : BufTy).Contents (Elt F) → (⟨S8192x8192, .f32⟩ : BufTy).Contents (Elt F)),
    binary main_v41 main_v47 main_v48 (subf : (⟨S8192x8192, .f32⟩ : BufTy).Contents (Elt F) → (⟨S8192x8192, .f32⟩ : BufTy).Contents (Elt F) → (⟨S8192x8192, .f32⟩ : BufTy).Contents (Elt F)),
    binary main_v17 main_v48 main_v49 (mulf : (⟨S8192x8192, .f32⟩ : BufTy).Contents (Elt F) → (⟨S8192x8192, .f32⟩ : BufTy).Contents (Elt F) → (⟨S8192x8192, .f32⟩ : BufTy).Contents (Elt F)),
    nullary main_cst_5 (constant S_ .f32 0x00000000#32),
    binary main_v49 main_cst_5 main_v50 ((fun x v => Host.reduceAdd x v reducesTo_S8192x8192_S8192_d1 h_S_) : (⟨S8192x8192, .f32⟩ : BufTy).Contents (Elt F) → (⟨S_, .f32⟩ : BufTy).Contents (Elt F) → (⟨S8192, .f32⟩ : BufTy).Contents (Elt F)),
    nullary main_cst_6 (constant S_ .f32 0x00000000#32) ]

/-- The operations of the second half of the program. -/
abbrev ops1 : List (HloOp τ sig (Elt F)) :=
  [ binary main_v17 main_cst_6 main_v51 ((fun x v => Host.reduceAdd x v reducesTo_S8192x8192_S8192_d1 h_S_) : (⟨S8192x8192, .f32⟩ : BufTy).Contents (Elt F) → (⟨S_, .f32⟩ : BufTy).Contents (Elt F) → (⟨S8192, .f32⟩ : BufTy).Contents (Elt F)),
    binary main_v50 main_v51 main_v52 (Host.divf : (⟨S8192, .f32⟩ : BufTy).Contents (Elt F) → (⟨S8192, .f32⟩ : BufTy).Contents (Elt F) → (⟨S8192, .f32⟩ : BufTy).Contents (Elt F)),
    nullary main_cst_7 (constant S_ .f32 0x00000000#32),
    binary main_v52 main_cst_7 main_v53 ((fun x v => Host.reduceAdd x v reducesTo_S8192_S_d0 h_S_) : (⟨S8192, .f32⟩ : BufTy).Contents (Elt F) → (⟨S_, .f32⟩ : BufTy).Contents (Elt F) → (⟨S_, .f32⟩ : BufTy).Contents (Elt F)),
    nullary main_cst_8 (constant S_ .f32 0x46000000#32),
    binary main_v53 main_cst_8 main_v54 (Host.divf : (⟨S_, .f32⟩ : BufTy).Contents (Elt F) → (⟨S_, .f32⟩ : BufTy).Contents (Elt F) → (⟨S_, .f32⟩ : BufTy).Contents (Elt F)),
    nullary main_cst_9 (constant S_ .f32 0xC1649249#32),
    binary main_cst_9 main_v54 main_v55 (mulf : (⟨S_, .f32⟩ : BufTy).Contents (Elt F) → (⟨S_, .f32⟩ : BufTy).Contents (Elt F) → (⟨S_, .f32⟩ : BufTy).Contents (Elt F)),
    nullary main_cst_10 (constant S_ .f32 0x00000000#32),
    binary main_cst_10 main_v55 main_v56 (addf : (⟨S_, .f32⟩ : BufTy).Contents (Elt F) → (⟨S_, .f32⟩ : BufTy).Contents (Elt F) → (⟨S_, .f32⟩ : BufTy).Contents (Elt F)),
    unary main_v19 main_v57 ((extractStridedSlice S1x4096x256 ![1, 0, 0] · slices_S2x4096x256_S1x4096x256_1_0_0) : (⟨S2x4096x256, .f32⟩ : BufTy).Contents (Elt F) → (⟨S1x4096x256, .f32⟩ : BufTy).Contents (Elt F)),
    reshape main_v57 main_v58 rfl shapeCasts_S1x4096x256_S4096x256,
    unary main_v18 main_v59 ((extractStridedSlice S1x4096x256 ![0, 0, 0] · slices_S2x4096x256_S1x4096x256_0_0_0) : (⟨S2x4096x256, .f32⟩ : BufTy).Contents (Elt F) → (⟨S1x4096x256, .f32⟩ : BufTy).Contents (Elt F)),
    reshape main_v59 main_v60 rfl shapeCasts_S1x4096x256_S4096x256,
    binary main_v58 main_v60 main_v61 ((fun a b => concatenate S8192x256 0 [⟨S4096x256, a⟩, ⟨S4096x256, b⟩] concatenates_S4096x256_S4096x256_S8192x256_d0) : (⟨S4096x256, .f32⟩ : BufTy).Contents (Elt F) → (⟨S4096x256, .f32⟩ : BufTy).Contents (Elt F) → (⟨S8192x256, .f32⟩ : BufTy).Contents (Elt F)),
    TRef.binary (TRef.of (T := ⟨S8192x256, .f32⟩) main_v61) (TRef.of (T := ⟨S8192x256, .f32⟩) main_v61) (TRef.of (T := ⟨S8192x256, .f32⟩) main_call1_v0) mulf,
    TRef.nullary (TRef.of (T := ⟨S_, .f32⟩) main_call1_cst) (constant S_ .f32 0x00000000#32),
    TRef.binary (TRef.of (T := ⟨S8192x256, .f32⟩) main_call1_v0) (TRef.of (T := ⟨S_, .f32⟩) main_call1_cst) (TRef.of (T := ⟨S8192, .f32⟩) main_call1_v1) (fun x v => Host.reduceAdd x v reducesTo_S8192x256_S8192_d1 h_S_),
    TRef.unary (TRef.of (T := ⟨S8192, .f32⟩) main_call1_v1) (TRef.of (T := ⟨S8192x1, .f32⟩) main_call1_v2) (broadcastInDim S8192x1 ![0] bcast_S8192_S8192x1_0),
    TRef.unary (TRef.of (T := ⟨S8192x1, .f32⟩) main_call1_v2) (TRef.of (T := ⟨S8192x1, .f32⟩) main_v62) Host.sqrt,
    nullary main_cst_11 (constant S_ .f32 0x322BCC77#32),
    unary main_cst_11 main_v63 (broadcastInDim S8192x1 ![] bcast_S_S8192x1 : (⟨S_, .f32⟩ : BufTy).Contents (Elt F) → (⟨S8192x1, .f32⟩ : BufTy).Contents (Elt F)),
    binary main_v62 main_v63 main_v64 (maximumf : (⟨S8192x1, .f32⟩ : BufTy).Contents (Elt F) → (⟨S8192x1, .f32⟩ : BufTy).Contents (Elt F) → (⟨S8192x1, .f32⟩ : BufTy).Contents (Elt F)),
    unary main_v64 main_v65 (broadcastInDim S8192x256 ![0, 1] bcast_S8192x1_S8192x256_0_1 : (⟨S8192x1, .f32⟩ : BufTy).Contents (Elt F) → (⟨S8192x256, .f32⟩ : BufTy).Contents (Elt F)),
    binary main_v61 main_v65 main_v66 (Host.divf : (⟨S8192x256, .f32⟩ : BufTy).Contents (Elt F) → (⟨S8192x256, .f32⟩ : BufTy).Contents (Elt F) → (⟨S8192x256, .f32⟩ : BufTy).Contents (Elt F)),
    unary main_v66 main_v67 ((transpose S256x8192 [1, 0] · transposes_S8192x256_S256x8192_1_0) : (⟨S8192x256, .f32⟩ : BufTy).Contents (Elt F) → (⟨S256x8192, .f32⟩ : BufTy).Contents (Elt F)),
    binary main_v66 main_v67 main_v68 ((fun l r => Host.dotGeneral dot_S8192x256_S256x8192_S8192x8192_1_0_0_1_n_n none l r) : (⟨S8192x256, .f32⟩ : BufTy).Contents (Elt F) → (⟨S256x8192, .f32⟩ : BufTy).Contents (Elt F) → (⟨S8192x8192, .f32⟩ : BufTy).Contents (Elt F)),
    unary main_arg2 main_v69 (broadcastInDim S8192x8192 ![] bcast_S_S8192x8192 : (⟨S_, .f32⟩ : BufTy).Contents (Elt F) → (⟨S8192x8192, .f32⟩ : BufTy).Contents (Elt F)),
    binary main_v68 main_v69 main_v70 (mulf : (⟨S8192x8192, .f32⟩ : BufTy).Contents (Elt F) → (⟨S8192x8192, .f32⟩ : BufTy).Contents (Elt F) → (⟨S8192x8192, .f32⟩ : BufTy).Contents (Elt F)),
    unary main_arg3 main_v71 (broadcastInDim S8192x8192 ![] bcast_S_S8192x8192 : (⟨S_, .f32⟩ : BufTy).Contents (Elt F) → (⟨S8192x8192, .f32⟩ : BufTy).Contents (Elt F)),
    binary main_v70 main_v71 main_v72 (addf : (⟨S8192x8192, .f32⟩ : BufTy).Contents (Elt F) → (⟨S8192x8192, .f32⟩ : BufTy).Contents (Elt F) → (⟨S8192x8192, .f32⟩ : BufTy).Contents (Elt F)),
    nullary main_cst_12 (constant S_ .f32 0x3F800000#32),
    unary main_cst_12 main_v73 (broadcastInDim S8192x8192 ![] bcast_S_S8192x8192 : (⟨S_, .f32⟩ : BufTy).Contents (Elt F) → (⟨S8192x8192, .f32⟩ : BufTy).Contents (Elt F)),
    binary main_v72 main_v73 main_v74 (Host.divf : (⟨S8192x8192, .f32⟩ : BufTy).Contents (Elt F) → (⟨S8192x8192, .f32⟩ : BufTy).Contents (Elt F) → (⟨S8192x8192, .f32⟩ : BufTy).Contents (Elt F)),
    nullary main_cst_13 (constant S_ .f32 0xFF800000#32),
    binary main_v74 main_cst_13 main_v75 ((fun x v => Host.reduce FloatOps.maximumf x v reducesTo_S8192x8192_S8192_d1 h_S_) : (⟨S8192x8192, .f32⟩ : BufTy).Contents (Elt F) → (⟨S_, .f32⟩ : BufTy).Contents (Elt F) → (⟨S8192, .f32⟩ : BufTy).Contents (Elt F)),
    unary main_v75 main_v76 (broadcastInDim S8192x1 ![0] bcast_S8192_S8192x1_0 : (⟨S8192, .f32⟩ : BufTy).Contents (Elt F) → (⟨S8192x1, .f32⟩ : BufTy).Contents (Elt F)),
    unary main_v76 main_v77 (broadcastInDim S8192x8192 ![0, 1] bcast_S8192x1_S8192x8192_0_1 : (⟨S8192x1, .f32⟩ : BufTy).Contents (Elt F) → (⟨S8192x8192, .f32⟩ : BufTy).Contents (Elt F)),
    binary main_v74 main_v77 main_v78 (subf : (⟨S8192x8192, .f32⟩ : BufTy).Contents (Elt F) → (⟨S8192x8192, .f32⟩ : BufTy).Contents (Elt F) → (⟨S8192x8192, .f32⟩ : BufTy).Contents (Elt F)),
    unary main_v78 main_v79 (Host.exp : (⟨S8192x8192, .f32⟩ : BufTy).Contents (Elt F) → (⟨S8192x8192, .f32⟩ : BufTy).Contents (Elt F)),
    binary main_v79 main_v16 main_v80 (mulf : (⟨S8192x8192, .f32⟩ : BufTy).Contents (Elt F) → (⟨S8192x8192, .f32⟩ : BufTy).Contents (Elt F) → (⟨S8192x8192, .f32⟩ : BufTy).Contents (Elt F)),
    nullary main_cst_14 (constant S_ .f32 0x00000000#32),
    binary main_v80 main_cst_14 main_v81 ((fun x v => Host.reduceAdd x v reducesTo_S8192x8192_S8192_d1 h_S_) : (⟨S8192x8192, .f32⟩ : BufTy).Contents (Elt F) → (⟨S_, .f32⟩ : BufTy).Contents (Elt F) → (⟨S8192, .f32⟩ : BufTy).Contents (Elt F)),
    unary main_v81 main_v82 (broadcastInDim S8192x1 ![0] bcast_S8192_S8192x1_0 : (⟨S8192, .f32⟩ : BufTy).Contents (Elt F) → (⟨S8192x1, .f32⟩ : BufTy).Contents (Elt F)),
    unary main_v82 main_v83 (Host.log : (⟨S8192x1, .f32⟩ : BufTy).Contents (Elt F) → (⟨S8192x1, .f32⟩ : BufTy).Contents (Elt F)),
    unary main_v83 main_v84 (broadcastInDim S8192x8192 ![0, 1] bcast_S8192x1_S8192x8192_0_1 : (⟨S8192x1, .f32⟩ : BufTy).Contents (Elt F) → (⟨S8192x8192, .f32⟩ : BufTy).Contents (Elt F)),
    binary main_v78 main_v84 main_v85 (subf : (⟨S8192x8192, .f32⟩ : BufTy).Contents (Elt F) → (⟨S8192x8192, .f32⟩ : BufTy).Contents (Elt F) → (⟨S8192x8192, .f32⟩ : BufTy).Contents (Elt F)),
    binary main_v17 main_v85 main_v86 (mulf : (⟨S8192x8192, .f32⟩ : BufTy).Contents (Elt F) → (⟨S8192x8192, .f32⟩ : BufTy).Contents (Elt F) → (⟨S8192x8192, .f32⟩ : BufTy).Contents (Elt F)),
    nullary main_cst_15 (constant S_ .f32 0x00000000#32),
    binary main_v86 main_cst_15 main_v87 ((fun x v => Host.reduceAdd x v reducesTo_S8192x8192_S8192_d1 h_S_) : (⟨S8192x8192, .f32⟩ : BufTy).Contents (Elt F) → (⟨S_, .f32⟩ : BufTy).Contents (Elt F) → (⟨S8192, .f32⟩ : BufTy).Contents (Elt F)),
    nullary main_cst_16 (constant S_ .f32 0x00000000#32),
    binary main_v17 main_cst_16 main_v88 ((fun x v => Host.reduceAdd x v reducesTo_S8192x8192_S8192_d1 h_S_) : (⟨S8192x8192, .f32⟩ : BufTy).Contents (Elt F) → (⟨S_, .f32⟩ : BufTy).Contents (Elt F) → (⟨S8192, .f32⟩ : BufTy).Contents (Elt F)),
    binary main_v87 main_v88 main_v89 (Host.divf : (⟨S8192, .f32⟩ : BufTy).Contents (Elt F) → (⟨S8192, .f32⟩ : BufTy).Contents (Elt F) → (⟨S8192, .f32⟩ : BufTy).Contents (Elt F)),
    nullary main_cst_17 (constant S_ .f32 0x00000000#32),
    binary main_v89 main_cst_17 main_v90 ((fun x v => Host.reduceAdd x v reducesTo_S8192_S_d0 h_S_) : (⟨S8192, .f32⟩ : BufTy).Contents (Elt F) → (⟨S_, .f32⟩ : BufTy).Contents (Elt F) → (⟨S_, .f32⟩ : BufTy).Contents (Elt F)),
    nullary main_cst_18 (constant S_ .f32 0x46000000#32),
    binary main_v90 main_cst_18 main_v91 (Host.divf : (⟨S_, .f32⟩ : BufTy).Contents (Elt F) → (⟨S_, .f32⟩ : BufTy).Contents (Elt F) → (⟨S_, .f32⟩ : BufTy).Contents (Elt F)),
    nullary main_cst_19 (constant S_ .f32 0xC1649249#32),
    binary main_cst_19 main_v91 main_v92 (mulf : (⟨S_, .f32⟩ : BufTy).Contents (Elt F) → (⟨S_, .f32⟩ : BufTy).Contents (Elt F) → (⟨S_, .f32⟩ : BufTy).Contents (Elt F)),
    binary main_v56 main_v92 main_v93 (addf : (⟨S_, .f32⟩ : BufTy).Contents (Elt F) → (⟨S_, .f32⟩ : BufTy).Contents (Elt F) → (⟨S_, .f32⟩ : BufTy).Contents (Elt F)),
    nullary main_cst_20 (constant S_ .f32 0x40000000#32),
    binary main_v93 main_cst_20 main_v94 (Host.divf : (⟨S_, .f32⟩ : BufTy).Contents (Elt F) → (⟨S_, .f32⟩ : BufTy).Contents (Elt F) → (⟨S_, .f32⟩ : BufTy).Contents (Elt F)) ]

/-- All the operations, in order. -/
abbrev ops : List (HloOp τ sig (Elt F)) := ops0 ++ ops1

set_option maxRecDepth 4096 in
/-- The first half of the program is the line of its operations (the called norm's operations standing at its call site). -/
theorem part0_eq (c : Dev nD) : main_part0 (F := F) c = seq ops0 := by
  simp only [main_part0, fn_norm.body, seq, bind_assoc, pure_bind]
  rfl
set_option maxRecDepth 4096 in
/-- So is the second half. -/
theorem part1_eq (c : Dev nD) : main_part1 (F := F) c = seq ops1 := by
  simp only [main_part1, fn_norm.body, seq, bind_assoc, pure_bind]
/-- The program is the line of all its operations. -/
theorem main_eq (c : Dev nD) : main (F := F) c = seq ops := by
  rw [seq_append, ← part0_eq c, ← part1_eq c]
  rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops0_sub : (ops0 : List (HloOp τ sig (Elt F))).Forall fun op => op.bufs ⊆ tcRefs τ sig :=
  ⟨nullary_bufs_sub .., nullary_bufs_sub .., nullary_bufs_sub .., unary_bufs_sub .., binary_bufs_sub .., binary_bufs_sub .., unary_bufs_sub .., reshape_bufs_sub .., unary_bufs_sub .., reshape_bufs_sub .., nullary_bufs_sub .., nullary_bufs_sub .., nullary_bufs_sub .., unary_bufs_sub .., binary_bufs_sub .., binary_bufs_sub .., unary_bufs_sub .., nullary_bufs_sub .., unary_bufs_sub .., binary_bufs_sub .., binary_bufs_sub .., reshape_bufs_sub .., reshape_bufs_sub .., unary_bufs_sub .., reshape_bufs_sub .., unary_bufs_sub .., reshape_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub .., unary_bufs_sub .., binary_bufs_sub .., unary_bufs_sub .., binary_bufs_sub .., unary_bufs_sub .., binary_bufs_sub .., nullary_bufs_sub .., unary_bufs_sub .., binary_bufs_sub .., nullary_bufs_sub .., binary_bufs_sub .., unary_bufs_sub .., unary_bufs_sub .., binary_bufs_sub .., unary_bufs_sub .., binary_bufs_sub .., nullary_bufs_sub .., binary_bufs_sub .., unary_bufs_sub .., unary_bufs_sub .., unary_bufs_sub .., binary_bufs_sub .., binary_bufs_sub .., nullary_bufs_sub .., binary_bufs_sub .., nullary_bufs_sub ..⟩
set_option maxRecDepth 8192 in
theorem ops1_sub : (ops1 : List (HloOp τ sig (Elt F))).Forall fun op => op.bufs ⊆ tcRefs τ sig :=
  ⟨binary_bufs_sub .., binary_bufs_sub .., nullary_bufs_sub .., binary_bufs_sub .., nullary_bufs_sub .., binary_bufs_sub .., nullary_bufs_sub .., binary_bufs_sub .., nullary_bufs_sub .., binary_bufs_sub .., unary_bufs_sub .., reshape_bufs_sub .., unary_bufs_sub .., reshape_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub .., unary_bufs_sub .., binary_bufs_sub .., unary_bufs_sub .., binary_bufs_sub .., unary_bufs_sub .., binary_bufs_sub .., nullary_bufs_sub .., unary_bufs_sub .., binary_bufs_sub .., nullary_bufs_sub .., binary_bufs_sub .., unary_bufs_sub .., unary_bufs_sub .., binary_bufs_sub .., unary_bufs_sub .., binary_bufs_sub .., nullary_bufs_sub .., binary_bufs_sub .., unary_bufs_sub .., unary_bufs_sub .., unary_bufs_sub .., binary_bufs_sub .., binary_bufs_sub .., nullary_bufs_sub .., binary_bufs_sub .., nullary_bufs_sub .., binary_bufs_sub .., binary_bufs_sub .., nullary_bufs_sub .., binary_bufs_sub .., nullary_bufs_sub .., binary_bufs_sub .., nullary_bufs_sub .., binary_bufs_sub .., binary_bufs_sub .., nullary_bufs_sub .., binary_bufs_sub ..⟩
theorem ops_sub : (ops : List (HloOp τ sig (Elt F))).Forall fun op => op.bufs ⊆ tcRefs τ sig :=
  List.forall_iff_forall_mem.mpr fun op hop => by
    rcases List.mem_append.mp hop with h | h
    · exact List.forall_iff_forall_mem.mp ops0_sub op h
    · exact List.forall_iff_forall_mem.mp ops1_sub op h

/-- The contents after two lines run one after the other. -/
theorem after_append {Val : EltTy → Type} (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-! No operation of either half writes an argument. -/
set_option maxRecDepth 8192 in
set_option maxHeartbeats 4000000 in
theorem keep0_main_arg0 (V : Valuation τ sig (Elt F)) : after ops0 V (Proc.devRef .tc main_arg0) = V (Proc.devRef .tc main_arg0) := by
  after_results_simp <;> rfl
set_option maxRecDepth 8192 in
set_option maxHeartbeats 4000000 in
theorem keep1_main_arg0 (V : Valuation τ sig (Elt F)) : after ops1 V (Proc.devRef .tc main_arg0) = V (Proc.devRef .tc main_arg0) := by
  after_results_simp <;> rfl
set_option maxRecDepth 8192 in
set_option maxHeartbeats 4000000 in
theorem keep0_main_arg1 (V : Valuation τ sig (Elt F)) : after ops0 V (Proc.devRef .tc main_arg1) = V (Proc.devRef .tc main_arg1) := by
  after_results_simp <;> rfl
set_option maxRecDepth 8192 in
set_option maxHeartbeats 4000000 in
theorem keep1_main_arg1 (V : Valuation τ sig (Elt F)) : after ops1 V (Proc.devRef .tc main_arg1) = V (Proc.devRef .tc main_arg1) := by
  after_results_simp <;> rfl
set_option maxRecDepth 8192 in
set_option maxHeartbeats 4000000 in
theorem keep0_main_arg2 (V : Valuation τ sig (Elt F)) : after ops0 V (Proc.devRef .tc main_arg2) = V (Proc.devRef .tc main_arg2) := by
  after_results_simp <;> rfl
set_option maxRecDepth 8192 in
set_option maxHeartbeats 4000000 in
theorem keep1_main_arg2 (V : Valuation τ sig (Elt F)) : after ops1 V (Proc.devRef .tc main_arg2) = V (Proc.devRef .tc main_arg2) := by
  after_results_simp <;> rfl
set_option maxRecDepth 8192 in
set_option maxHeartbeats 4000000 in
theorem keep0_main_arg3 (V : Valuation τ sig (Elt F)) : after ops0 V (Proc.devRef .tc main_arg3) = V (Proc.devRef .tc main_arg3) := by
  after_results_simp <;> rfl
set_option maxRecDepth 8192 in
set_option maxHeartbeats 4000000 in
theorem keep1_main_arg3 (V : Valuation τ sig (Elt F)) : after ops1 V (Proc.devRef .tc main_arg3) = V (Proc.devRef .tc main_arg3) := by
  after_results_simp <;> rfl

/-- The frame: the reference runs and its argument arrays end unchanged. -/
theorem frame (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨
      (h c main_arg0).trans (by rw [after_append, keep1_main_arg0, keep0_main_arg0]),
      (h c main_arg1).trans (by rw [after_append, keep1_main_arg1, keep0_main_arg1]),
      (h c main_arg2).trans (by rw [after_append, keep1_main_arg2, keep0_main_arg2]),
      (h c main_arg3).trans (by rw [after_append, keep1_main_arg3, keep0_main_arg3])⟩)
    (run_seq scopedRefs_eq scopedSems_eq defs main (fun _ => ops) main_eq (fun _ => ops_sub) m ρ)

end Cert.ReferenceIdeal.HostRun

end
-- ==== Proof.LibMatProd.lean ====
/-
  GENERAL LEMMAS: a plain matrix product, written two ways, read at the ideal values.

  The product of an `R × K` matrix `X` with a `K × N` matrix `W` has entry `(r, q)` equal to
  `∑ k, X (r, k) · W (k, q)`, a sum of `K` products of extended reals (`matProd`).
  Both ways a program can write that product read, at `Ideal`, as this same sum:

  * a matrix unit's `matmul` accumulated into a zero splat (`matmul_zero_eq`), and
  * the host's `dot_general` (`dotGeneral_eq`),

  for ANY dimension record that contracts the left operand's axis 1 with the right operand's axis 0 and keeps
  the other two axes in order, whatever the operands' float formats, precision and schedule. That the record does
  so is stated as four equations of coordinate values (`Contracts`), which a literal record proves by unfolding
  (two by `DotDims.lhsIdx_val_of_single` / `rhsIdx_val_of_single`, two by `dif_neg` / `dif_pos` on its literal
  axis lists). Nothing here needs a finiteness hypothesis: the two sides are the same sum of the same products,
  term by term. Imports the library only.
-/
import Idealize.ShloMosaic.PureOps.Ideal.Laws
import Idealize.ShloMosaic.Lib.ValueIdx

noncomputable section

open scoped BigOperators

namespace Cert.Linear

open Idealize.ShloMosaic Idealize.ShloMosaic.ValueIdx

/-- The shape of a matrix of `a` rows and `b` columns. -/
abbrev Mat (a b : Nat) : Shape := ⟨2, ![a, b]⟩

/-- `X · W`, entry by entry: row `r` of `X` against column `q` of `W`. -/
def matProd {R K N : Nat} (X : (Mat R K).Idx → EReal) (W : (Mat K N).Idx → EReal) : (Mat R N).Idx → EReal :=
  fun i => ∑ k : Fin K, X (ix2 (n0 := R) (n1 := K) (i 0) k) * W (ix2 (n0 := K) (n1 := N) k (i 1))

/-- A dimension record for `[R,K] × [K,N] → [R,N]` that contracts the left operand's columns with the right
    operand's rows: one contracted axis of extent `K`, and at result index `i` and contraction index `q` the left
    operand is read at `(i 0, q)` and the right one at `(q, i 1)`. -/
structure Contracts {R K N : Nat} (d : DotDims (Mat R K) (Mat K N) (Mat R N)) : Prop where
  rank : d.contr.rank = 1
  size : d.contr.size ⟨0, by omega⟩ = K
  lhs0 : ∀ (i : (Mat R N).Idx) (q : d.contr.Idx), (d.lhsIdx i q 0).val = (i 0).val
  lhs1 : ∀ (i : (Mat R N).Idx) (q : d.contr.Idx), (d.lhsIdx i q 1).val = (q ⟨0, by omega⟩).val
  rhs0 : ∀ (i : (Mat R N).Idx) (q : d.contr.Idx), (d.rhsIdx i q 0).val = (q ⟨0, by omega⟩).val
  rhs1 : ∀ (i : (Mat R N).Idx) (q : d.contr.Idx), (d.rhsIdx i q 1).val = (i 1).val

/-- The sum over such a record's contraction index of the operands' products is the sum over `k < K` of
    `X (i 0, k) · W (k, i 1)`: the contraction index is its one coordinate. -/
theorem contraction_sum {R K N : Nat} {d : DotDims (Mat R K) (Mat K N) (Mat R N)} (h : Contracts d)
    (X : (Mat R K).Idx → EReal) (W : (Mat K N).Idx → EReal) (i : (Mat R N).Idx) :
    ∑ q : d.contr.Idx, X (d.lhsIdx i q) * W (d.rhsIdx i q) = matProd X W i := by
  unfold matProd
  rw [← Equiv.sum_comp (contrEquiv1 d K h.rank h.size).symm]
  refine Finset.sum_congr rfl fun k _ => ?_
  have hk := contrEquiv1_symm_val d K h.rank h.size k
  have el : d.lhsIdx i ((contrEquiv1 d K h.rank h.size).symm k) = ix2 (n0 := R) (n1 := K) (i 0) k :=
    funext fun a => Fin.ext (by
      match a with
      | ⟨0, _⟩ => exact h.lhs0 _ _
      | ⟨1, _⟩ => exact (h.lhs1 _ _).trans hk)
  have er : d.rhsIdx i ((contrEquiv1 d K h.rank h.size).symm k) = ix2 (n0 := K) (n1 := N) k (i 1) :=
    funext fun a => Fin.ext (by
      match a with
      | ⟨0, _⟩ => exact (h.rhs0 _ _).trans hk
      | ⟨1, _⟩ => exact h.rhs1 _ _)
  rw [el, er]

/-- A matrix unit's product accumulated into the zero splat is `X · W`, whatever the operands' float formats. -/
theorem matmul_zero_eq {R K N : Nat} {φ₁ φ₂ : FTy} {d : DotDims (Mat R K) (Mat K N) (Mat R N)} (h : Contracts d)
    (prec : Option ContractPrecision) (X : FVec Ideal (Mat R K) φ₁) (W : FVec Ideal (Mat K N) φ₂) :
    FloatOps.matmul d prec X W (constant (F := Ideal) (Mat R N) .f32 0x00000000#32) = matProd X W :=
  funext fun i => (Ideal.matmul_constant_zero_apply d prec X W i).trans (contraction_sum h X W i)

/-- The host's `dot_general` is `X · W`, whatever its precision and schedule. -/
theorem dotGeneral_eq {R K N : Nat} {φ₁ φ₂ : FTy} {d : DotDims (Mat R K) (Mat K N) (Mat R N)} (h : Contracts d)
    (prec : Option ContractPrecision) (sched : HostSchedule) (X : FVec Ideal (Mat R K) φ₁) (W : FVec Ideal (Mat K N) φ₂) :
    FloatOps.dotGeneral d prec sched X W = matProd X W :=
  funext fun i => (Ideal.dotGeneral_apply d prec sched X W i).trans (contraction_sum h X W i)

end Cert.Linear

end
-- ==== Proof.RefOps.lean ====
/-
  The reference's operations read at an index, at the extended reals: column and row broadcasts, row sums and
  row maxima of the host, the product of the normalized features with their transpose.
-/
import proofs.«111949_j33792802685631_1_alg».proof.Proof.RefRun
import proofs.«111949_j33792802685631_1_alg».proof.Proof.LibRowMax
import proofs.«111949_j33792802685631_1_alg».proof.Proof.LibMatProd
import Idealize.ShloMosaic.Lib.IdealHost
import Idealize.ShloMosaic.Lib.Pipeline.Value
import Idealize.ShloMosaic.Lib.ValueIdx
import Idealize.ShloMosaic.PureOps.Ideal.Laws

set_option maxRecDepth 16384

noncomputable section

open scoped BigOperators

namespace Cert.ReferenceIdeal.Read

open Cert.ReferenceIdeal Cert.ReferenceIdeal.Gen
open Idealize.ShloMosaic Idealize.ShloMosaic.ValueIdx

/-! ## Elementwise host functions -/

theorem hsqrt_at {s : Shape} {φ : FTy} (v : FVec Ideal s φ) (i : s.Idx) : Host.sqrt v i = Ideal.sqrt (v i) := rfl
theorem hexp_at {s : Shape} {φ : FTy} (v : FVec Ideal s φ) (i : s.Idx) : Host.exp v i = Ideal.exp (v i) := rfl
theorem hlog_at {s : Shape} {φ : FTy} (v : FVec Ideal s φ) (i : s.Idx) : Host.log v i = Ideal.log (v i) := rfl

/-! ## Broadcasts -/

/-- A vector as a column. -/
theorem bcast_col {α : Type} (v : S8192.Idx → α) (r : Fin 8192) (u : Fin 1) :
    broadcastInDim S8192x1 ![0] bcast_S8192_S8192x1_0 v (ix2 r u) = v (ix1 r) :=
  broadcastInDim_apply _ _ v _ (ix1 r) (fun a => by
    match a with
    | ⟨0, _⟩ => show r.val = if (8192 : ℕ) = 1 then 0 else r.val; rw [if_neg (by norm_num)])

/-- A column repeated along 256 columns, -/
theorem bcast_cols256 {α : Type} (v : S8192x1.Idx → α) (r : Fin 8192) (d : Fin 256) :
    broadcastInDim S8192x256 ![0, 1] bcast_S8192x1_S8192x256_0_1 v (ix2 r d) = v (ix2 r (0 : Fin 1)) :=
  broadcastInDim_apply _ _ v _ (ix2 r (0 : Fin 1)) (fun a => by
    match a with
    | ⟨0, _⟩ => show r.val = if (8192 : ℕ) = 1 then 0 else r.val; rw [if_neg (by norm_num)]
    | ⟨1, _⟩ => show (0 : ℕ) = if (1 : ℕ) = 1 then 0 else d.val; rw [if_pos rfl])

/-- and along 8192. -/
theorem bcast_cols8192 {α : Type} (v : S8192x1.Idx → α) (r s : Fin 8192) :
    broadcastInDim S8192x8192 ![0, 1] bcast_S8192x1_S8192x8192_0_1 v (ix2 r s) = v (ix2 r (0 : Fin 1)) :=
  broadcastInDim_apply _ _ v _ (ix2 r (0 : Fin 1)) (fun a => by
    match a with
    | ⟨0, _⟩ => show r.val = if (8192 : ℕ) = 1 then 0 else r.val; rw [if_neg (by norm_num)]
    | ⟨1, _⟩ => show (0 : ℕ) = if (1 : ℕ) = 1 then 0 else s.val; rw [if_pos rfl])

/-! ## Sums and maxima along the second axis, and the total of a vector -/

theorem first_scalar (h : 0 < S_.numel) : Shape.Idx.first h = (ix0 : S_.Idx) := funext fun a => a.elim0

theorem hsum_rows256 (x : FVec Ideal S8192x256 .f32) (init : FVec Ideal S_ .f32) (r : Fin 8192) :
    Host.reduceAdd x init reducesTo_S8192x256_S8192_d1 h_S_ (ix1 r) = init ix0 + ∑ d : Fin 256, x (ix2 r d) := by
  rw [hostReduceAdd_apply, Ideal.hostReduceAdd_single _ (by decide : S8192x256.Reduces [1] S8192), first_scalar]
  exact congrArg (init ix0 + ·) (Finset.sum_congr rfl fun d _ => congrArg x (LibRowMax.lift_rows _ r d))

theorem hsum_rows8192 (x : FVec Ideal S8192x8192 .f32) (init : FVec Ideal S_ .f32) (r : Fin 8192) :
    Host.reduceAdd x init reducesTo_S8192x8192_S8192_d1 h_S_ (ix1 r) = init ix0 + ∑ s : Fin 8192, x (ix2 r s) := by
  rw [hostReduceAdd_apply, Ideal.hostReduceAdd_single _ (by decide : S8192x8192.Reduces [1] S8192), first_scalar]
  exact congrArg (init ix0 + ·) (Finset.sum_congr rfl fun d _ => congrArg x (LibRowMax.lift_rows _ r d))

theorem hmax_rows8192 (x : FVec Ideal S8192x8192 .f32) (init : FVec Ideal S_ .f32) (r : Fin 8192) :
    Host.reduce (FloatOps.maximumf (F := Ideal) (φ := .f32)) x init reducesTo_S8192x8192_S8192_d1 h_S_ (ix1 r)
      = (Finset.univ : Finset (Fin 8192)).fold max (init ix0) (fun s => x (ix2 r s)) := by
  rw [LibRowMax.hostReduce_maximumf_rows x init _ (by decide : S8192x8192.Reduces [1] S8192) _ r, first_scalar]

/-- A rank-1 index is its coordinate. -/
def idxEquiv1 {n : ℕ} : (⟨1, ![n]⟩ : Shape).Idx ≃ Fin n where
  toFun i := i 0
  invFun a := ix1 a
  left_inv i := (eq_ix1 i).symm
  right_inv _ := rfl

theorem sum_idx1 {M : Type*} [AddCommMonoid M] {n : ℕ} (f : (⟨1, ![n]⟩ : Shape).Idx → M) : ∑ i, f i = ∑ a : Fin n, f (ix1 a) := by
  rw [← Equiv.sum_comp (idxEquiv1 (n := n)).symm f]
  rfl

theorem hsum_all8192 (x : FVec Ideal S8192 .f32) (init : FVec Ideal S_ .f32) (j : S_.Idx) :
    Host.reduceAdd x init reducesTo_S8192_S_d0 h_S_ j = init ix0 + ∑ r : Fin 8192, x (ix1 r) := by
  rw [hostReduceAdd_apply, Ideal.hostReduceAdd_total _ (fun b => b.elim0), first_scalar, sum_idx1]

/-! ## The product with the transpose -/

theorem transposed_at (U : FVec Ideal S8192x256 .f32) (k : Fin 256) (s : Fin 8192) :
    transpose S256x8192 [1, 0] U transposes_S8192x256_S256x8192_1_0 (ix2 k s) = U (ix2 s k) :=
  transpose_apply _ U _ (ix2 k s) (ix2 s k) (fun b => by
    match b with
    | ⟨0, _⟩ => rfl
    | ⟨1, _⟩ => rfl)

theorem dr_contracts : Cert.Linear.Contracts dot_S8192x256_S256x8192_S8192x8192_1_0_0_1_n_n where
  rank := by decide
  size := by decide
  lhs0 := fun j k => by simp [DotDims.lhsIdx, dot_S8192x256_S256x8192_S8192x8192_1_0_0_1_n_n]; rfl
  lhs1 := fun j k => by simp [DotDims.lhsIdx, dot_S8192x256_S256x8192_S8192x8192_1_0_0_1_n_n]; rfl
  rhs0 := fun j k => by simp [DotDims.rhsIdx, dot_S8192x256_S256x8192_S8192x8192_1_0_0_1_n_n]; rfl
  rhs1 := fun j k => by simp [DotDims.rhsIdx, dot_S8192x256_S256x8192_S8192x8192_1_0_0_1_n_n]; rfl

/-- Entry `(r, s)` of the product of `U` with its transpose: row `r` against row `s`. -/
theorem gram_at (U : FVec Ideal S8192x256 .f32) (r s : Fin 8192) :
    Host.dotGeneral dot_S8192x256_S256x8192_S8192x8192_1_0_0_1_n_n none U (transpose S256x8192 [1, 0] U transposes_S8192x256_S256x8192_1_0) (ix2 r s)
      = ∑ d : Fin 256, U (ix2 r d) * U (ix2 s d) := by
  simp only [Host.dotGeneral]
  rw [Cert.Linear.dotGeneral_eq dr_contracts]
  unfold Cert.Linear.matProd
  exact Finset.sum_congr rfl fun k _ => by rw [transposed_at]

end Cert.ReferenceIdeal.Read

end
-- ==== Proof.RefStages.lean ====
/-
  The reference's operations as functions: the two masks (which entries are off the diagonal, which rows are
  partners), the two terms' feature arrays cut from the arguments, one term's loss as a chain of functions of its
  features, and the mean of the two terms' losses. The line of operations, cut into fourteen segments, leaves exactly
  these in its buffers: each segment's results are read from what the segments before it left.
-/
import proofs.«111949_j33792802685631_1_alg».proof.Proof.RefRun

noncomputable section

namespace Cert.ReferenceIdeal.Stage

open Cert.ReferenceIdeal Cert.ReferenceIdeal.Gen Cert.ReferenceIdeal.HostRun
open Idealize.ShloMosaic Idealize.ShloMosaic.TcCoe Idealize.SL.Sem Idealize.ShloMosaic.StableHlo

variable {F : FTy → Type} [FloatOps F]

/-! ## The masks -/

def m_v0 : (⟨S4096x4096, .i32⟩ : BufTy).Contents (Elt F) := (iotaInDim S4096x4096 32 0)
def m_v1 : (⟨S4096x4096, .i32⟩ : BufTy).Contents (Elt F) := (iotaInDim S4096x4096 32 1)
def m_c : (⟨S_, .i32⟩ : BufTy).Contents (Elt F) := (constantI S_ 32 0#32)
def m_v2 : (⟨S4096x4096, .i32⟩ : BufTy).Contents (Elt F) := ((broadcastInDim S4096x4096 ![] bcast_S_S4096x4096) (m_c (F := F)))
def m_v3 : (⟨S4096x4096, .i32⟩ : BufTy).Contents (Elt F) := ((addi) (m_v0 (F := F)) (m_v2 (F := F)))
def m_v4 : (⟨S4096x4096, .i1⟩ : BufTy).Contents (Elt F) := ((cmpi .eq) (m_v3 (F := F)) (m_v1 (F := F)))
def m_v5 : (⟨S4096x4096, .f32⟩ : BufTy).Contents (Elt F) := ((uitofp .f32) (m_v4 (F := F)))
def m_v6 : (⟨S1x4096x1x4096, .f32⟩ : BufTy).Contents (Elt F) := (shapeCast S1x4096x1x4096 (m_v5 (F := F)) shapeCasts_S4096x4096_S1x4096x1x4096)
def m_v7 : (⟨S2x4096x2x4096, .f32⟩ : BufTy).Contents (Elt F) := ((broadcastInDim S2x4096x2x4096 ![0, 1, 2, 3] bcast_S1x4096x1x4096_S2x4096x2x4096_0_1_2_3) (m_v6 (F := F)))
def m_v8 : (⟨S8192x8192, .f32⟩ : BufTy).Contents (Elt F) := (shapeCast S8192x8192 (m_v7 (F := F)) shapeCasts_S2x4096x2x4096_S8192x8192)
def m_v9 : (⟨S8192x8192, .i32⟩ : BufTy).Contents (Elt F) := (iotaInDim S8192x8192 32 0)
def m_v10 : (⟨S8192x8192, .i32⟩ : BufTy).Contents (Elt F) := (iotaInDim S8192x8192 32 1)
def m_c_0 : (⟨S_, .i32⟩ : BufTy).Contents (Elt F) := (constantI S_ 32 0#32)
def m_v11 : (⟨S8192x8192, .i32⟩ : BufTy).Contents (Elt F) := ((broadcastInDim S8192x8192 ![] bcast_S_S8192x8192) (m_c_0 (F := F)))
def m_v12 : (⟨S8192x8192, .i32⟩ : BufTy).Contents (Elt F) := ((addi) (m_v9 (F := F)) (m_v11 (F := F)))
def m_v13 : (⟨S8192x8192, .i1⟩ : BufTy).Contents (Elt F) := ((cmpi .eq) (m_v12 (F := F)) (m_v10 (F := F)))
def m_v14 : (⟨S8192x8192, .f32⟩ : BufTy).Contents (Elt F) := ((uitofp .f32) (m_v13 (F := F)))
def m_cst : (⟨S_, .f32⟩ : BufTy).Contents (Elt F) := (constant S_ .f32 0x3F800000#32)
def m_v15 : (⟨S8192x8192, .f32⟩ : BufTy).Contents (Elt F) := ((broadcastInDim S8192x8192 ![] bcast_S_S8192x8192) (m_cst (F := F)))
def m_v16 : (⟨S8192x8192, .f32⟩ : BufTy).Contents (Elt F) := ((subf) (m_v15 (F := F)) (m_v14 (F := F)))
def m_v17 : (⟨S8192x8192, .f32⟩ : BufTy).Contents (Elt F) := ((mulf) (m_v8 (F := F)) (m_v16 (F := F)))

/-! ## The two terms' features, cut from the arguments -/

def f_v18 (a0 a1 : (⟨S8192x256, .f32⟩ : BufTy).Contents (Elt F)) : (⟨S2x4096x256, .f32⟩ : BufTy).Contents (Elt F) := (shapeCast S2x4096x256 a0 shapeCasts_S8192x256_S2x4096x256)
def f_v19 (a0 a1 : (⟨S8192x256, .f32⟩ : BufTy).Contents (Elt F)) : (⟨S2x4096x256, .f32⟩ : BufTy).Contents (Elt F) := (shapeCast S2x4096x256 a1 shapeCasts_S8192x256_S2x4096x256)
def f_v20 (a0 a1 : (⟨S8192x256, .f32⟩ : BufTy).Contents (Elt F)) : (⟨S1x4096x256, .f32⟩ : BufTy).Contents (Elt F) := (((extractStridedSlice S1x4096x256 ![0, 0, 0] · slices_S2x4096x256_S1x4096x256_0_0_0)) (f_v19 a0 a1))
def f_v21 (a0 a1 : (⟨S8192x256, .f32⟩ : BufTy).Contents (Elt F)) : (⟨S4096x256, .f32⟩ : BufTy).Contents (Elt F) := (shapeCast S4096x256 (f_v20 a0 a1) shapeCasts_S1x4096x256_S4096x256)
def f_v22 (a0 a1 : (⟨S8192x256, .f32⟩ : BufTy).Contents (Elt F)) : (⟨S1x4096x256, .f32⟩ : BufTy).Contents (Elt F) := (((extractStridedSlice S1x4096x256 ![1, 0, 0] · slices_S2x4096x256_S1x4096x256_1_0_0)) (f_v18 a0 a1))
def f_v23 (a0 a1 : (⟨S8192x256, .f32⟩ : BufTy).Contents (Elt F)) : (⟨S4096x256, .f32⟩ : BufTy).Contents (Elt F) := (shapeCast S4096x256 (f_v22 a0 a1) shapeCasts_S1x4096x256_S4096x256)
def f_v24 (a0 a1 : (⟨S8192x256, .f32⟩ : BufTy).Contents (Elt F)) : (⟨S8192x256, .f32⟩ : BufTy).Contents (Elt F) := (((fun a b => concatenate S8192x256 0 [⟨S4096x256, a⟩, ⟨S4096x256, b⟩] concatenates_S4096x256_S4096x256_S8192x256_d0)) (f_v21 a0 a1) (f_v23 a0 a1))
def f_v57 (a0 a1 : (⟨S8192x256, .f32⟩ : BufTy).Contents (Elt F)) : (⟨S1x4096x256, .f32⟩ : BufTy).Contents (Elt F) := (((extractStridedSlice S1x4096x256 ![1, 0, 0] · slices_S2x4096x256_S1x4096x256_1_0_0)) (f_v19 a0 a1))
def f_v58 (a0 a1 : (⟨S8192x256, .f32⟩ : BufTy).Contents (Elt F)) : (⟨S4096x256, .f32⟩ : BufTy).Contents (Elt F) := (shapeCast S4096x256 (f_v57 a0 a1) shapeCasts_S1x4096x256_S4096x256)
def f_v59 (a0 a1 : (⟨S8192x256, .f32⟩ : BufTy).Contents (Elt F)) : (⟨S1x4096x256, .f32⟩ : BufTy).Contents (Elt F) := (((extractStridedSlice S1x4096x256 ![0, 0, 0] · slices_S2x4096x256_S1x4096x256_0_0_0)) (f_v18 a0 a1))
def f_v60 (a0 a1 : (⟨S8192x256, .f32⟩ : BufTy).Contents (Elt F)) : (⟨S4096x256, .f32⟩ : BufTy).Contents (Elt F) := (shapeCast S4096x256 (f_v59 a0 a1) shapeCasts_S1x4096x256_S4096x256)
def f_v61 (a0 a1 : (⟨S8192x256, .f32⟩ : BufTy).Contents (Elt F)) : (⟨S8192x256, .f32⟩ : BufTy).Contents (Elt F) := (((fun a b => concatenate S8192x256 0 [⟨S4096x256, a⟩, ⟨S4096x256, b⟩] concatenates_S4096x256_S4096x256_S8192x256_d0)) (f_v58 a0 a1) (f_v60 a0 a1))

/-! ## One term's loss, operation by operation, from its features `X`, the scale `w`, the shift `b` and the two masks -/

def T_call0_v0 (X : (⟨S8192x256, .f32⟩ : BufTy).Contents (Elt F)) (w b : (⟨S_, .f32⟩ : BufTy).Contents (Elt F)) (OD PM : (⟨S8192x8192, .f32⟩ : BufTy).Contents (Elt F)) : (⟨S8192x256, .f32⟩ : BufTy).Contents (Elt F) := ((mulf) X X)
def T_call0_cst (X : (⟨S8192x256, .f32⟩ : BufTy).Contents (Elt F)) (w b : (⟨S_, .f32⟩ : BufTy).Contents (Elt F)) (OD PM : (⟨S8192x8192, .f32⟩ : BufTy).Contents (Elt F)) : (⟨S_, .f32⟩ : BufTy).Contents (Elt F) := (constant S_ .f32 0x00000000#32)
def T_call0_v1 (X : (⟨S8192x256, .f32⟩ : BufTy).Contents (Elt F)) (w b : (⟨S_, .f32⟩ : BufTy).Contents (Elt F)) (OD PM : (⟨S8192x8192, .f32⟩ : BufTy).Contents (Elt F)) : (⟨S8192, .f32⟩ : BufTy).Contents (Elt F) := (((fun x v => Host.reduceAdd x v reducesTo_S8192x256_S8192_d1 h_S_)) (T_call0_v0 X w b OD PM) (T_call0_cst X w b OD PM))
def T_call0_v2 (X : (⟨S8192x256, .f32⟩ : BufTy).Contents (Elt F)) (w b : (⟨S_, .f32⟩ : BufTy).Contents (Elt F)) (OD PM : (⟨S8192x8192, .f32⟩ : BufTy).Contents (Elt F)) : (⟨S8192x1, .f32⟩ : BufTy).Contents (Elt F) := (((broadcastInDim S8192x1 ![0] bcast_S8192_S8192x1_0)) (T_call0_v1 X w b OD PM))
def T_v25 (X : (⟨S8192x256, .f32⟩ : BufTy).Contents (Elt F)) (w b : (⟨S_, .f32⟩ : BufTy).Contents (Elt F)) (OD PM : (⟨S8192x8192, .f32⟩ : BufTy).Contents (Elt F)) : (⟨S8192x1, .f32⟩ : BufTy).Contents (Elt F) := ((Host.sqrt) (T_call0_v2 X w b OD PM))
def T_cst_1 (X : (⟨S8192x256, .f32⟩ : BufTy).Contents (Elt F)) (w b : (⟨S_, .f32⟩ : BufTy).Contents (Elt F)) (OD PM : (⟨S8192x8192, .f32⟩ : BufTy).Contents (Elt F)) : (⟨S_, .f32⟩ : BufTy).Contents (Elt F) := (constant S_ .f32 0x322BCC77#32)
def T_v26 (X : (⟨S8192x256, .f32⟩ : BufTy).Contents (Elt F)) (w b : (⟨S_, .f32⟩ : BufTy).Contents (Elt F)) (OD PM : (⟨S8192x8192, .f32⟩ : BufTy).Contents (Elt F)) : (⟨S8192x1, .f32⟩ : BufTy).Contents (Elt F) := ((broadcastInDim S8192x1 ![] bcast_S_S8192x1) (T_cst_1 X w b OD PM))
def T_v27 (X : (⟨S8192x256, .f32⟩ : BufTy).Contents (Elt F)) (w b : (⟨S_, .f32⟩ : BufTy).Contents (Elt F)) (OD PM : (⟨S8192x8192, .f32⟩ : BufTy).Contents (Elt F)) : (⟨S8192x1, .f32⟩ : BufTy).Contents (Elt F) := ((maximumf) (T_v25 X w b OD PM) (T_v26 X w b OD PM))
def T_v28 (X : (⟨S8192x256, .f32⟩ : BufTy).Contents (Elt F)) (w b : (⟨S_, .f32⟩ : BufTy).Contents (Elt F)) (OD PM : (⟨S8192x8192, .f32⟩ : BufTy).Contents (Elt F)) : (⟨S8192x256, .f32⟩ : BufTy).Contents (Elt F) := ((broadcastInDim S8192x256 ![0, 1] bcast_S8192x1_S8192x256_0_1) (T_v27 X w b OD PM))
def T_v29 (X : (⟨S8192x256, .f32⟩ : BufTy).Contents (Elt F)) (w b : (⟨S_, .f32⟩ : BufTy).Contents (Elt F)) (OD PM : (⟨S8192x8192, .f32⟩ : BufTy).Contents (Elt F)) : (⟨S8192x256, .f32⟩ : BufTy).Contents (Elt F) := ((Host.divf) X (T_v28 X w b OD PM))
def T_v30 (X : (⟨S8192x256, .f32⟩ : BufTy).Contents (Elt F)) (w b : (⟨S_, .f32⟩ : BufTy).Contents (Elt F)) (OD PM : (⟨S8192x8192, .f32⟩ : BufTy).Contents (Elt F)) : (⟨S256x8192, .f32⟩ : BufTy).Contents (Elt F) := (((transpose S256x8192 [1, 0] · transposes_S8192x256_S256x8192_1_0)) (T_v29 X w b OD PM))
def T_v31 (X : (⟨S8192x256, .f32⟩ : BufTy).Contents (Elt F)) (w b : (⟨S_, .f32⟩ : BufTy).Contents (Elt F)) (OD PM : (⟨S8192x8192, .f32⟩ : BufTy).Contents (Elt F)) : (⟨S8192x8192, .f32⟩ : BufTy).Contents (Elt F) := (((fun l r => Host.dotGeneral dot_S8192x256_S256x8192_S8192x8192_1_0_0_1_n_n none l r)) (T_v29 X w b OD PM) (T_v30 X w b OD PM))
def T_v32 (X : (⟨S8192x256, .f32⟩ : BufTy).Contents (Elt F)) (w b : (⟨S_, .f32⟩ : BufTy).Contents (Elt F)) (OD PM : (⟨S8192x8192, .f32⟩ : BufTy).Contents (Elt F)) : (⟨S8192x8192, .f32⟩ : BufTy).Contents (Elt F) := ((broadcastInDim S8192x8192 ![] bcast_S_S8192x8192) w)
def T_v33 (X : (⟨S8192x256, .f32⟩ : BufTy).Contents (Elt F)) (w b : (⟨S_, .f32⟩ : BufTy).Contents (Elt F)) (OD PM : (⟨S8192x8192, .f32⟩ : BufTy).Contents (Elt F)) : (⟨S8192x8192, .f32⟩ : BufTy).Contents (Elt F) := ((mulf) (T_v31 X w b OD PM) (T_v32 X w b OD PM))
def T_v34 (X : (⟨S8192x256, .f32⟩ : BufTy).Contents (Elt F)) (w b : (⟨S_, .f32⟩ : BufTy).Contents (Elt F)) (OD PM : (⟨S8192x8192, .f32⟩ : BufTy).Contents (Elt F)) : (⟨S8192x8192, .f32⟩ : BufTy).Contents (Elt F) := ((broadcastInDim S8192x8192 ![] bcast_S_S8192x8192) b)
def T_v35 (X : (⟨S8192x256, .f32⟩ : BufTy).Contents (Elt F)) (w b : (⟨S_, .f32⟩ : BufTy).Contents (Elt F)) (OD PM : (⟨S8192x8192, .f32⟩ : BufTy).Contents (Elt F)) : (⟨S8192x8192, .f32⟩ : BufTy).Contents (Elt F) := ((addf) (T_v33 X w b OD PM) (T_v34 X w b OD PM))
def T_cst_2 (X : (⟨S8192x256, .f32⟩ : BufTy).Contents (Elt F)) (w b : (⟨S_, .f32⟩ : BufTy).Contents (Elt F)) (OD PM : (⟨S8192x8192, .f32⟩ : BufTy).Contents (Elt F)) : (⟨S_, .f32⟩ : BufTy).Contents (Elt F) := (constant S_ .f32 0x3F800000#32)
def T_v36 (X : (⟨S8192x256, .f32⟩ : BufTy).Contents (Elt F)) (w b : (⟨S_, .f32⟩ : BufTy).Contents (Elt F)) (OD PM : (⟨S8192x8192, .f32⟩ : BufTy).Contents (Elt F)) : (⟨S8192x8192, .f32⟩ : BufTy).Contents (Elt F) := ((broadcastInDim S8192x8192 ![] bcast_S_S8192x8192) (T_cst_2 X w b OD PM))
def T_v37 (X : (⟨S8192x256, .f32⟩ : BufTy).Contents (Elt F)) (w b : (⟨S_, .f32⟩ : BufTy).Contents (Elt F)) (OD PM : (⟨S8192x8192, .f32⟩ : BufTy).Contents (Elt F)) : (⟨S8192x8192, .f32⟩ : BufTy).Contents (Elt F) := ((Host.divf) (T_v35 X w b OD PM) (T_v36 X w b OD PM))
def T_cst_3 (X : (⟨S8192x256, .f32⟩ : BufTy).Contents (Elt F)) (w b : (⟨S_, .f32⟩ : BufTy).Contents (Elt F)) (OD PM : (⟨S8192x8192, .f32⟩ : BufTy).Contents (Elt F)) : (⟨S_, .f32⟩ : BufTy).Contents (Elt F) := (constant S_ .f32 0xFF800000#32)
def T_v38 (X : (⟨S8192x256, .f32⟩ : BufTy).Contents (Elt F)) (w b : (⟨S_, .f32⟩ : BufTy).Contents (Elt F)) (OD PM : (⟨S8192x8192, .f32⟩ : BufTy).Contents (Elt F)) : (⟨S8192, .f32⟩ : BufTy).Contents (Elt F) := (((fun x v => Host.reduce FloatOps.maximumf x v reducesTo_S8192x8192_S8192_d1 h_S_)) (T_v37 X w b OD PM) (T_cst_3 X w b OD PM))
def T_v39 (X : (⟨S8192x256, .f32⟩ : BufTy).Contents (Elt F)) (w b : (⟨S_, .f32⟩ : BufTy).Contents (Elt F)) (OD PM : (⟨S8192x8192, .f32⟩ : BufTy).Contents (Elt F)) : (⟨S8192x1, .f32⟩ : BufTy).Contents (Elt F) := ((broadcastInDim S8192x1 ![0] bcast_S8192_S8192x1_0) (T_v38 X w b OD PM))
def T_v40 (X : (⟨S8192x256, .f32⟩ : BufTy).Contents (Elt F)) (w b : (⟨S_, .f32⟩ : BufTy).Contents (Elt F)) (OD PM : (⟨S8192x8192, .f32⟩ : BufTy).Contents (Elt F)) : (⟨S8192x8192, .f32⟩ : BufTy).Contents (Elt F) := ((broadcastInDim S8192x8192 ![0, 1] bcast_S8192x1_S8192x8192_0_1) (T_v39 X w b OD PM))
def T_v41 (X : (⟨S8192x256, .f32⟩ : BufTy).Contents (Elt F)) (w b : (⟨S_, .f32⟩ : BufTy).Contents (Elt F)) (OD PM : (⟨S8192x8192, .f32⟩ : BufTy).Contents (Elt F)) : (⟨S8192x8192, .f32⟩ : BufTy).Contents (Elt F) := ((subf) (T_v37 X w b OD PM) (T_v40 X w b OD PM))
def T_v42 (X : (⟨S8192x256, .f32⟩ : BufTy).Contents (Elt F)) (w b : (⟨S_, .f32⟩ : BufTy).Contents (Elt F)) (OD PM : (⟨S8192x8192, .f32⟩ : BufTy).Contents (Elt F)) : (⟨S8192x8192, .f32⟩ : BufTy).Contents (Elt F) := ((Host.exp) (T_v41 X w b OD PM))
def T_v43 (X : (⟨S8192x256, .f32⟩ : BufTy).Contents (Elt F)) (w b : (⟨S_, .f32⟩ : BufTy).Contents (Elt F)) (OD PM : (⟨S8192x8192, .f32⟩ : BufTy).Contents (Elt F)) : (⟨S8192x8192, .f32⟩ : BufTy).Contents (Elt F) := ((mulf) (T_v42 X w b OD PM) OD)
def T_cst_4 (X : (⟨S8192x256, .f32⟩ : BufTy).Contents (Elt F)) (w b : (⟨S_, .f32⟩ : BufTy).Contents (Elt F)) (OD PM : (⟨S8192x8192, .f32⟩ : BufTy).Contents (Elt F)) : (⟨S_, .f32⟩ : BufTy).Contents (Elt F) := (constant S_ .f32 0x00000000#32)
def T_v44 (X : (⟨S8192x256, .f32⟩ : BufTy).Contents (Elt F)) (w b : (⟨S_, .f32⟩ : BufTy).Contents (Elt F)) (OD PM : (⟨S8192x8192, .f32⟩ : BufTy).Contents (Elt F)) : (⟨S8192, .f32⟩ : BufTy).Contents (Elt F) := (((fun x v => Host.reduceAdd x v reducesTo_S8192x8192_S8192_d1 h_S_)) (T_v43 X w b OD PM) (T_cst_4 X w b OD PM))
def T_v45 (X : (⟨S8192x256, .f32⟩ : BufTy).Contents (Elt F)) (w b : (⟨S_, .f32⟩ : BufTy).Contents (Elt F)) (OD PM : (⟨S8192x8192, .f32⟩ : BufTy).Contents (Elt F)) : (⟨S8192x1, .f32⟩ : BufTy).Contents (Elt F) := ((broadcastInDim S8192x1 ![0] bcast_S8192_S8192x1_0) (T_v44 X w b OD PM))
def T_v46 (X : (⟨S8192x256, .f32⟩ : BufTy).Contents (Elt F)) (w b : (⟨S_, .f32⟩ : BufTy).Contents (Elt F)) (OD PM : (⟨S8192x8192, .f32⟩ : BufTy).Contents (Elt F)) : (⟨S8192x1, .f32⟩ : BufTy).Contents (Elt F) := ((Host.log) (T_v45 X w b OD PM))
def T_v47 (X : (⟨S8192x256, .f32⟩ : BufTy).Contents (Elt F)) (w b : (⟨S_, .f32⟩ : BufTy).Contents (Elt F)) (OD PM : (⟨S8192x8192, .f32⟩ : BufTy).Contents (Elt F)) : (⟨S8192x8192, .f32⟩ : BufTy).Contents (Elt F) := ((broadcastInDim S8192x8192 ![0, 1] bcast_S8192x1_S8192x8192_0_1) (T_v46 X w b OD PM))
def T_v48 (X : (⟨S8192x256, .f32⟩ : BufTy).Contents (Elt F)) (w b : (⟨S_, .f32⟩ : BufTy).Contents (Elt F)) (OD PM : (⟨S8192x8192, .f32⟩ : BufTy).Contents (Elt F)) : (⟨S8192x8192, .f32⟩ : BufTy).Contents (Elt F) := ((subf) (T_v41 X w b OD PM) (T_v47 X w b OD PM))
def T_v49 (X : (⟨S8192x256, .f32⟩ : BufTy).Contents (Elt F)) (w b : (⟨S_, .f32⟩ : BufTy).Contents (Elt F)) (OD PM : (⟨S8192x8192, .f32⟩ : BufTy).Contents (Elt F)) : (⟨S8192x8192, .f32⟩ : BufTy).Contents (Elt F) := ((mulf) PM (T_v48 X w b OD PM))
def T_cst_5 (X : (⟨S8192x256, .f32⟩ : BufTy).Contents (Elt F)) (w b : (⟨S_, .f32⟩ : BufTy).Contents (Elt F)) (OD PM : (⟨S8192x8192, .f32⟩ : BufTy).Contents (Elt F)) : (⟨S_, .f32⟩ : BufTy).Contents (Elt F) := (constant S_ .f32 0x00000000#32)
def T_v50 (X : (⟨S8192x256, .f32⟩ : BufTy).Contents (Elt F)) (w b : (⟨S_, .f32⟩ : BufTy).Contents (Elt F)) (OD PM : (⟨S8192x8192, .f32⟩ : BufTy).Contents (Elt F)) : (⟨S8192, .f32⟩ : BufTy).Contents (Elt F) := (((fun x v => Host.reduceAdd x v reducesTo_S8192x8192_S8192_d1 h_S_)) (T_v49 X w b OD PM) (T_cst_5 X w b OD PM))
def T_cst_6 (X : (⟨S8192x256, .f32⟩ : BufTy).Contents (Elt F)) (w b : (⟨S_, .f32⟩ : BufTy).Contents (Elt F)) (OD PM : (⟨S8192x8192, .f32⟩ : BufTy).Contents (Elt F)) : (⟨S_, .f32⟩ : BufTy).Contents (Elt F) := (constant S_ .f32 0x00000000#32)
def T_v51 (X : (⟨S8192x256, .f32⟩ : BufTy).Contents (Elt F)) (w b : (⟨S_, .f32⟩ : BufTy).Contents (Elt F)) (OD PM : (⟨S8192x8192, .f32⟩ : BufTy).Contents (Elt F)) : (⟨S8192, .f32⟩ : BufTy).Contents (Elt F) := (((fun x v => Host.reduceAdd x v reducesTo_S8192x8192_S8192_d1 h_S_)) PM (T_cst_6 X w b OD PM))
def T_v52 (X : (⟨S8192x256, .f32⟩ : BufTy).Contents (Elt F)) (w b : (⟨S_, .f32⟩ : BufTy).Contents (Elt F)) (OD PM : (⟨S8192x8192, .f32⟩ : BufTy).Contents (Elt F)) : (⟨S8192, .f32⟩ : BufTy).Contents (Elt F) := ((Host.divf) (T_v50 X w b OD PM) (T_v51 X w b OD PM))
def T_cst_7 (X : (⟨S8192x256, .f32⟩ : BufTy).Contents (Elt F)) (w b : (⟨S_, .f32⟩ : BufTy).Contents (Elt F)) (OD PM : (⟨S8192x8192, .f32⟩ : BufTy).Contents (Elt F)) : (⟨S_, .f32⟩ : BufTy).Contents (Elt F) := (constant S_ .f32 0x00000000#32)
def T_v53 (X : (⟨S8192x256, .f32⟩ : BufTy).Contents (Elt F)) (w b : (⟨S_, .f32⟩ : BufTy).Contents (Elt F)) (OD PM : (⟨S8192x8192, .f32⟩ : BufTy).Contents (Elt F)) : (⟨S_, .f32⟩ : BufTy).Contents (Elt F) := (((fun x v => Host.reduceAdd x v reducesTo_S8192_S_d0 h_S_)) (T_v52 X w b OD PM) (T_cst_7 X w b OD PM))
def T_cst_8 (X : (⟨S8192x256, .f32⟩ : BufTy).Contents (Elt F)) (w b : (⟨S_, .f32⟩ : BufTy).Contents (Elt F)) (OD PM : (⟨S8192x8192, .f32⟩ : BufTy).Contents (Elt F)) : (⟨S_, .f32⟩ : BufTy).Contents (Elt F) := (constant S_ .f32 0x46000000#32)
def T_v54 (X : (⟨S8192x256, .f32⟩ : BufTy).Contents (Elt F)) (w b : (⟨S_, .f32⟩ : BufTy).Contents (Elt F)) (OD PM : (⟨S8192x8192, .f32⟩ : BufTy).Contents (Elt F)) : (⟨S_, .f32⟩ : BufTy).Contents (Elt F) := ((Host.divf) (T_v53 X w b OD PM) (T_cst_8 X w b OD PM))
def T_cst_9 (X : (⟨S8192x256, .f32⟩ : BufTy).Contents (Elt F)) (w b : (⟨S_, .f32⟩ : BufTy).Contents (Elt F)) (OD PM : (⟨S8192x8192, .f32⟩ : BufTy).Contents (Elt F)) : (⟨S_, .f32⟩ : BufTy).Contents (Elt F) := (constant S_ .f32 0xC1649249#32)
def T_v55 (X : (⟨S8192x256, .f32⟩ : BufTy).Contents (Elt F)) (w b : (⟨S_, .f32⟩ : BufTy).Contents (Elt F)) (OD PM : (⟨S8192x8192, .f32⟩ : BufTy).Contents (Elt F)) : (⟨S_, .f32⟩ : BufTy).Contents (Elt F) := ((mulf) (T_cst_9 X w b OD PM) (T_v54 X w b OD PM))

/-! ## The mean of the two terms' losses -/

def R_cst_10 (a0 a1 : (⟨S8192x256, .f32⟩ : BufTy).Contents (Elt F)) (w b : (⟨S_, .f32⟩ : BufTy).Contents (Elt F)) : (⟨S_, .f32⟩ : BufTy).Contents (Elt F) := (constant S_ .f32 0x00000000#32)
def R_v56 (a0 a1 : (⟨S8192x256, .f32⟩ : BufTy).Contents (Elt F)) (w b : (⟨S_, .f32⟩ : BufTy).Contents (Elt F)) : (⟨S_, .f32⟩ : BufTy).Contents (Elt F) := ((addf) (R_cst_10 a0 a1 w b) (T_v55 (f_v24 a0 a1) w b (m_v16 (F := F)) (m_v17 (F := F))))
def R_v93 (a0 a1 : (⟨S8192x256, .f32⟩ : BufTy).Contents (Elt F)) (w b : (⟨S_, .f32⟩ : BufTy).Contents (Elt F)) : (⟨S_, .f32⟩ : BufTy).Contents (Elt F) := ((addf) (R_v56 a0 a1 w b) (T_v55 (f_v61 a0 a1) w b (m_v16 (F := F)) (m_v17 (F := F))))
def R_cst_20 (a0 a1 : (⟨S8192x256, .f32⟩ : BufTy).Contents (Elt F)) (w b : (⟨S_, .f32⟩ : BufTy).Contents (Elt F)) : (⟨S_, .f32⟩ : BufTy).Contents (Elt F) := (constant S_ .f32 0x40000000#32)
def R_v94 (a0 a1 : (⟨S8192x256, .f32⟩ : BufTy).Contents (Elt F)) (w b : (⟨S_, .f32⟩ : BufTy).Contents (Elt F)) : (⟨S_, .f32⟩ : BufTy).Contents (Elt F) := ((Host.divf) (R_v93 a0 a1 w b) (R_cst_20 a0 a1 w b))

/-- The reference's result as a function of its four arguments. -/
abbrev refTotal (a0 a1 : (⟨S8192x256, .f32⟩ : BufTy).Contents (Elt F)) (w b : (⟨S_, .f32⟩ : BufTy).Contents (Elt F)) : (⟨S_, .f32⟩ : BufTy).Contents (Elt F) := R_v94 a0 a1 w b

/-! ## The line, segment by segment -/

/-- The launch contents. -/
def val0 (V0 : Valuation τ sig (Elt F)) : Valuation τ sig (Elt F) := V0
theorem val0_main_arg0 (V0 : Valuation τ sig (Elt F)) : val0 V0 (no_index (Proc.devRef .tc main_arg0)) = V0 (Proc.devRef .tc main_arg0) := rfl
theorem val0_main_arg1 (V0 : Valuation τ sig (Elt F)) : val0 V0 (no_index (Proc.devRef .tc main_arg1)) = V0 (Proc.devRef .tc main_arg1) := rfl
theorem val0_main_arg2 (V0 : Valuation τ sig (Elt F)) : val0 V0 (no_index (Proc.devRef .tc main_arg2)) = V0 (Proc.devRef .tc main_arg2) := rfl
theorem val0_main_arg3 (V0 : Valuation τ sig (Elt F)) : val0 V0 (no_index (Proc.devRef .tc main_arg3)) = V0 (Proc.devRef .tc main_arg3) := rfl

/-- Operations 1 to 21 of the line. -/
abbrev seg1 : List (HloOp τ sig (Elt F)) :=
  [ nullary main_v0 (iotaInDim S4096x4096 32 0),
    nullary main_v1 (iotaInDim S4096x4096 32 1),
    nullary main_c (constantI S_ 32 0#32),
    unary main_c main_v2 (broadcastInDim S4096x4096 ![] bcast_S_S4096x4096 : (⟨S_, .i32⟩ : BufTy).Contents (Elt F) → (⟨S4096x4096, .i32⟩ : BufTy).Contents (Elt F)),
    binary main_v0 main_v2 main_v3 (addi : (⟨S4096x4096, .i32⟩ : BufTy).Contents (Elt F) → (⟨S4096x4096, .i32⟩ : BufTy).Contents (Elt F) → (⟨S4096x4096, .i32⟩ : BufTy).Contents (Elt F)),
    binary main_v3 main_v1 main_v4 (cmpi .eq : (⟨S4096x4096, .i32⟩ : BufTy).Contents (Elt F) → (⟨S4096x4096, .i32⟩ : BufTy).Contents (Elt F) → (⟨S4096x4096, .i1⟩ : BufTy).Contents (Elt F)),
    unary main_v4 main_v5 (uitofp .f32 : (⟨S4096x4096, .i1⟩ : BufTy).Contents (Elt F) → (⟨S4096x4096, .f32⟩ : BufTy).Contents (Elt F)),
    reshape main_v5 main_v6 rfl shapeCasts_S4096x4096_S1x4096x1x4096,
    unary main_v6 main_v7 (broadcastInDim S2x4096x2x4096 ![0, 1, 2, 3] bcast_S1x4096x1x4096_S2x4096x2x4096_0_1_2_3 : (⟨S1x4096x1x4096, .f32⟩ : BufTy).Contents (Elt F) → (⟨S2x4096x2x4096, .f32⟩ : BufTy).Contents (Elt F)),
    reshape main_v7 main_v8 rfl shapeCasts_S2x4096x2x4096_S8192x8192,
    nullary main_v9 (iotaInDim S8192x8192 32 0),
    nullary main_v10 (iotaInDim S8192x8192 32 1),
    nullary main_c_0 (constantI S_ 32 0#32),
    unary main_c_0 main_v11 (broadcastInDim S8192x8192 ![] bcast_S_S8192x8192 : (⟨S_, .i32⟩ : BufTy).Contents (Elt F) → (⟨S8192x8192, .i32⟩ : BufTy).Contents (Elt F)),
    binary main_v9 main_v11 main_v12 (addi : (⟨S8192x8192, .i32⟩ : BufTy).Contents (Elt F) → (⟨S8192x8192, .i32⟩ : BufTy).Contents (Elt F) → (⟨S8192x8192, .i32⟩ : BufTy).Contents (Elt F)),
    binary main_v12 main_v10 main_v13 (cmpi .eq : (⟨S8192x8192, .i32⟩ : BufTy).Contents (Elt F) → (⟨S8192x8192, .i32⟩ : BufTy).Contents (Elt F) → (⟨S8192x8192, .i1⟩ : BufTy).Contents (Elt F)),
    unary main_v13 main_v14 (uitofp .f32 : (⟨S8192x8192, .i1⟩ : BufTy).Contents (Elt F) → (⟨S8192x8192, .f32⟩ : BufTy).Contents (Elt F)),
    nullary main_cst (constant S_ .f32 0x3F800000#32),
    unary main_cst main_v15 (broadcastInDim S8192x8192 ![] bcast_S_S8192x8192 : (⟨S_, .f32⟩ : BufTy).Contents (Elt F) → (⟨S8192x8192, .f32⟩ : BufTy).Contents (Elt F)),
    binary main_v15 main_v14 main_v16 (subf : (⟨S8192x8192, .f32⟩ : BufTy).Contents (Elt F) → (⟨S8192x8192, .f32⟩ : BufTy).Contents (Elt F) → (⟨S8192x8192, .f32⟩ : BufTy).Contents (Elt F)),
    binary main_v8 main_v16 main_v17 (mulf : (⟨S8192x8192, .f32⟩ : BufTy).Contents (Elt F) → (⟨S8192x8192, .f32⟩ : BufTy).Contents (Elt F) → (⟨S8192x8192, .f32⟩ : BufTy).Contents (Elt F)) ]

abbrev seg1_W : List (Ref sig .tc) := [main_v0, main_v1, main_c, main_v2, main_v3, main_v4, main_v5, main_v6, main_v7, main_v8, main_v9, main_v10, main_c_0, main_v11, main_v12, main_v13, main_v14, main_cst, main_v15, main_v16, main_v17]

set_option maxRecDepth 8192 in
theorem seg1_writes : (seg1 : List (HloOp τ sig (Elt F))).Forall fun op => op.writes ⊆ (seg1_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- The buffers' contents after the first 1 segments. -/
def val1 (V0 : Valuation τ sig (Elt F)) : Valuation τ sig (Elt F) := after seg1 (val0 V0)

theorem val1_keep (V0 : Valuation τ sig (Elt F)) (r : Ref sig .tc) (h : r ∉ seg1_W) :
    val1 V0 (Proc.devRef .tc r) = val0 V0 (Proc.devRef .tc r) :=
  after_of_writes_sub seg1 _ seg1_writes h

theorem val1_main_arg0 (V0 : Valuation τ sig (Elt F)) : val1 V0 (no_index (Proc.devRef .tc main_arg0)) = (V0 (Proc.devRef .tc main_arg0)) :=
  (val1_keep V0 main_arg0 (by decide)).trans (val0_main_arg0 V0)

theorem val1_main_arg1 (V0 : Valuation τ sig (Elt F)) : val1 V0 (no_index (Proc.devRef .tc main_arg1)) = (V0 (Proc.devRef .tc main_arg1)) :=
  (val1_keep V0 main_arg1 (by decide)).trans (val0_main_arg1 V0)

theorem val1_main_arg2 (V0 : Valuation τ sig (Elt F)) : val1 V0 (no_index (Proc.devRef .tc main_arg2)) = (V0 (Proc.devRef .tc main_arg2)) :=
  (val1_keep V0 main_arg2 (by decide)).trans (val0_main_arg2 V0)

theorem val1_main_arg3 (V0 : Valuation τ sig (Elt F)) : val1 V0 (no_index (Proc.devRef .tc main_arg3)) = (V0 (Proc.devRef .tc main_arg3)) :=
  (val1_keep V0 main_arg3 (by decide)).trans (val0_main_arg3 V0)

set_option maxRecDepth 8192 in
set_option maxHeartbeats 2000000 in
theorem val1_main_v16 (V0 : Valuation τ sig (Elt F)) : val1 V0 (no_index (Proc.devRef .tc main_v16)) = (m_v16 (F := F)) := by
  unfold val1
  simp only [seg1]
  after_results_simp
  try after_results
  rfl

set_option maxRecDepth 8192 in
set_option maxHeartbeats 2000000 in
theorem val1_main_v17 (V0 : Valuation τ sig (Elt F)) : val1 V0 (no_index (Proc.devRef .tc main_v17)) = (m_v17 (F := F)) := by
  unfold val1
  simp only [seg1]
  after_results_simp
  try after_results
  rfl

/-- Operations 22 to 28 of the line. -/
abbrev seg2 : List (HloOp τ sig (Elt F)) :=
  [ reshape main_arg0 main_v18 rfl shapeCasts_S8192x256_S2x4096x256,
    reshape main_arg1 main_v19 rfl shapeCasts_S8192x256_S2x4096x256,
    unary main_v19 main_v20 ((extractStridedSlice S1x4096x256 ![0, 0, 0] · slices_S2x4096x256_S1x4096x256_0_0_0) : (⟨S2x4096x256, .f32⟩ : BufTy).Contents (Elt F) → (⟨S1x4096x256, .f32⟩ : BufTy).Contents (Elt F)),
    reshape main_v20 main_v21 rfl shapeCasts_S1x4096x256_S4096x256,
    unary main_v18 main_v22 ((extractStridedSlice S1x4096x256 ![1, 0, 0] · slices_S2x4096x256_S1x4096x256_1_0_0) : (⟨S2x4096x256, .f32⟩ : BufTy).Contents (Elt F) → (⟨S1x4096x256, .f32⟩ : BufTy).Contents (Elt F)),
    reshape main_v22 main_v23 rfl shapeCasts_S1x4096x256_S4096x256,
    binary main_v21 main_v23 main_v24 ((fun a b => concatenate S8192x256 0 [⟨S4096x256, a⟩, ⟨S4096x256, b⟩] concatenates_S4096x256_S4096x256_S8192x256_d0) : (⟨S4096x256, .f32⟩ : BufTy).Contents (Elt F) → (⟨S4096x256, .f32⟩ : BufTy).Contents (Elt F) → (⟨S8192x256, .f32⟩ : BufTy).Contents (Elt F)) ]

abbrev seg2_W : List (Ref sig .tc) := [main_v18, main_v19, main_v20, main_v21, main_v22, main_v23, main_v24]

set_option maxRecDepth 8192 in
theorem seg2_writes : (seg2 : List (HloOp τ sig (Elt F))).Forall fun op => op.writes ⊆ (seg2_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- The buffers' contents after the first 2 segments. -/
def val2 (V0 : Valuation τ sig (Elt F)) : Valuation τ sig (Elt F) := after seg2 (val1 V0)

theorem val2_keep (V0 : Valuation τ sig (Elt F)) (r : Ref sig .tc) (h : r ∉ seg2_W) :
    val2 V0 (Proc.devRef .tc r) = val1 V0 (Proc.devRef .tc r) :=
  after_of_writes_sub seg2 _ seg2_writes h

set_option maxRecDepth 8192 in
set_option maxHeartbeats 2000000 in
theorem val2_main_v24 (V0 : Valuation τ sig (Elt F)) : val2 V0 (no_index (Proc.devRef .tc main_v24)) = (f_v24 (V0 (Proc.devRef .tc main_arg0)) (V0 (Proc.devRef .tc main_arg1))) := by
  unfold val2
  simp only [seg2]
  after_results_simp
  try after_results
  try simp only [val1_main_arg0, val1_main_arg1]
  rfl

theorem val2_main_arg2 (V0 : Valuation τ sig (Elt F)) : val2 V0 (no_index (Proc.devRef .tc main_arg2)) = (V0 (Proc.devRef .tc main_arg2)) :=
  (val2_keep V0 main_arg2 (by decide)).trans (val1_main_arg2 V0)

theorem val2_main_arg3 (V0 : Valuation τ sig (Elt F)) : val2 V0 (no_index (Proc.devRef .tc main_arg3)) = (V0 (Proc.devRef .tc main_arg3)) :=
  (val2_keep V0 main_arg3 (by decide)).trans (val1_main_arg3 V0)

theorem val2_main_v16 (V0 : Valuation τ sig (Elt F)) : val2 V0 (no_index (Proc.devRef .tc main_v16)) = (m_v16 (F := F)) :=
  (val2_keep V0 main_v16 (by decide)).trans (val1_main_v16 V0)

theorem val2_main_v17 (V0 : Valuation τ sig (Elt F)) : val2 V0 (no_index (Proc.devRef .tc main_v17)) = (m_v17 (F := F)) :=
  (val2_keep V0 main_v17 (by decide)).trans (val1_main_v17 V0)

set_option maxRecDepth 8192 in
set_option maxHeartbeats 2000000 in
theorem val2_main_v19 (V0 : Valuation τ sig (Elt F)) : val2 V0 (no_index (Proc.devRef .tc main_v19)) = (f_v19 (V0 (Proc.devRef .tc main_arg0)) (V0 (Proc.devRef .tc main_arg1))) := by
  unfold val2
  simp only [seg2]
  after_results_simp
  try after_results
  try simp only [val1_main_arg0, val1_main_arg1]
  rfl

set_option maxRecDepth 8192 in
set_option maxHeartbeats 2000000 in
theorem val2_main_v18 (V0 : Valuation τ sig (Elt F)) : val2 V0 (no_index (Proc.devRef .tc main_v18)) = (f_v18 (V0 (Proc.devRef .tc main_arg0)) (V0 (Proc.devRef .tc main_arg1))) := by
  unfold val2
  simp only [seg2]
  after_results_simp
  try after_results
  try simp only [val1_main_arg0, val1_main_arg1]
  rfl

/-- Operations 29 to 38 of the line. -/
abbrev seg3 : List (HloOp τ sig (Elt F)) :=
  [ TRef.binary (TRef.of (T := ⟨S8192x256, .f32⟩) main_v24) (TRef.of (T := ⟨S8192x256, .f32⟩) main_v24) (TRef.of (T := ⟨S8192x256, .f32⟩) main_call0_v0) mulf,
    TRef.nullary (TRef.of (T := ⟨S_, .f32⟩) main_call0_cst) (constant S_ .f32 0x00000000#32),
    TRef.binary (TRef.of (T := ⟨S8192x256, .f32⟩) main_call0_v0) (TRef.of (T := ⟨S_, .f32⟩) main_call0_cst) (TRef.of (T := ⟨S8192, .f32⟩) main_call0_v1) (fun x v => Host.reduceAdd x v reducesTo_S8192x256_S8192_d1 h_S_),
    TRef.unary (TRef.of (T := ⟨S8192, .f32⟩) main_call0_v1) (TRef.of (T := ⟨S8192x1, .f32⟩) main_call0_v2) (broadcastInDim S8192x1 ![0] bcast_S8192_S8192x1_0),
    TRef.unary (TRef.of (T := ⟨S8192x1, .f32⟩) main_call0_v2) (TRef.of (T := ⟨S8192x1, .f32⟩) main_v25) Host.sqrt,
    nullary main_cst_1 (constant S_ .f32 0x322BCC77#32),
    unary main_cst_1 main_v26 (broadcastInDim S8192x1 ![] bcast_S_S8192x1 : (⟨S_, .f32⟩ : BufTy).Contents (Elt F) → (⟨S8192x1, .f32⟩ : BufTy).Contents (Elt F)),
    binary main_v25 main_v26 main_v27 (maximumf : (⟨S8192x1, .f32⟩ : BufTy).Contents (Elt F) → (⟨S8192x1, .f32⟩ : BufTy).Contents (Elt F) → (⟨S8192x1, .f32⟩ : BufTy).Contents (Elt F)),
    unary main_v27 main_v28 (broadcastInDim S8192x256 ![0, 1] bcast_S8192x1_S8192x256_0_1 : (⟨S8192x1, .f32⟩ : BufTy).Contents (Elt F) → (⟨S8192x256, .f32⟩ : BufTy).Contents (Elt F)),
    binary main_v24 main_v28 main_v29 (Host.divf : (⟨S8192x256, .f32⟩ : BufTy).Contents (Elt F) → (⟨S8192x256, .f32⟩ : BufTy).Contents (Elt F) → (⟨S8192x256, .f32⟩ : BufTy).Contents (Elt F)) ]

abbrev seg3_W : List (Ref sig .tc) := [main_call0_v0, main_call0_cst, main_call0_v1, main_call0_v2, main_v25, main_cst_1, main_v26, main_v27, main_v28, main_v29]

set_option maxRecDepth 8192 in
theorem seg3_writes : (seg3 : List (HloOp τ sig (Elt F))).Forall fun op => op.writes ⊆ (seg3_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- The buffers' contents after the first 3 segments. -/
def val3 (V0 : Valuation τ sig (Elt F)) : Valuation τ sig (Elt F) := after seg3 (val2 V0)

theorem val3_keep (V0 : Valuation τ sig (Elt F)) (r : Ref sig .tc) (h : r ∉ seg3_W) :
    val3 V0 (Proc.devRef .tc r) = val2 V0 (Proc.devRef .tc r) :=
  after_of_writes_sub seg3 _ seg3_writes h

set_option maxRecDepth 8192 in
set_option maxHeartbeats 2000000 in
theorem val3_main_v29 (V0 : Valuation τ sig (Elt F)) : val3 V0 (no_index (Proc.devRef .tc main_v29)) = (T_v29 (f_v24 (V0 (Proc.devRef .tc main_arg0)) (V0 (Proc.devRef .tc main_arg1))) (V0 (Proc.devRef .tc main_arg2)) (V0 (Proc.devRef .tc main_arg3)) (m_v16 (F := F)) (m_v17 (F := F))) := by
  unfold val3
  simp only [seg3]
  after_results_simp
  try after_results
  try simp only [val2_main_v24]
  rfl

theorem val3_main_arg2 (V0 : Valuation τ sig (Elt F)) : val3 V0 (no_index (Proc.devRef .tc main_arg2)) = (V0 (Proc.devRef .tc main_arg2)) :=
  (val3_keep V0 main_arg2 (by decide)).trans (val2_main_arg2 V0)

theorem val3_main_arg3 (V0 : Valuation τ sig (Elt F)) : val3 V0 (no_index (Proc.devRef .tc main_arg3)) = (V0 (Proc.devRef .tc main_arg3)) :=
  (val3_keep V0 main_arg3 (by decide)).trans (val2_main_arg3 V0)

theorem val3_main_v16 (V0 : Valuation τ sig (Elt F)) : val3 V0 (no_index (Proc.devRef .tc main_v16)) = (m_v16 (F := F)) :=
  (val3_keep V0 main_v16 (by decide)).trans (val2_main_v16 V0)

theorem val3_main_v17 (V0 : Valuation τ sig (Elt F)) : val3 V0 (no_index (Proc.devRef .tc main_v17)) = (m_v17 (F := F)) :=
  (val3_keep V0 main_v17 (by decide)).trans (val2_main_v17 V0)

theorem val3_main_v19 (V0 : Valuation τ sig (Elt F)) : val3 V0 (no_index (Proc.devRef .tc main_v19)) = (f_v19 (V0 (Proc.devRef .tc main_arg0)) (V0 (Proc.devRef .tc main_arg1))) :=
  (val3_keep V0 main_v19 (by decide)).trans (val2_main_v19 V0)

theorem val3_main_v18 (V0 : Valuation τ sig (Elt F)) : val3 V0 (no_index (Proc.devRef .tc main_v18)) = (f_v18 (V0 (Proc.devRef .tc main_arg0)) (V0 (Proc.devRef .tc main_arg1))) :=
  (val3_keep V0 main_v18 (by decide)).trans (val2_main_v18 V0)

/-- Operations 39 to 47 of the line. -/
abbrev seg4 : List (HloOp τ sig (Elt F)) :=
  [ unary main_v29 main_v30 ((transpose S256x8192 [1, 0] · transposes_S8192x256_S256x8192_1_0) : (⟨S8192x256, .f32⟩ : BufTy).Contents (Elt F) → (⟨S256x8192, .f32⟩ : BufTy).Contents (Elt F)),
    binary main_v29 main_v30 main_v31 ((fun l r => Host.dotGeneral dot_S8192x256_S256x8192_S8192x8192_1_0_0_1_n_n none l r) : (⟨S8192x256, .f32⟩ : BufTy).Contents (Elt F) → (⟨S256x8192, .f32⟩ : BufTy).Contents (Elt F) → (⟨S8192x8192, .f32⟩ : BufTy).Contents (Elt F)),
    unary main_arg2 main_v32 (broadcastInDim S8192x8192 ![] bcast_S_S8192x8192 : (⟨S_, .f32⟩ : BufTy).Contents (Elt F) → (⟨S8192x8192, .f32⟩ : BufTy).Contents (Elt F)),
    binary main_v31 main_v32 main_v33 (mulf : (⟨S8192x8192, .f32⟩ : BufTy).Contents (Elt F) → (⟨S8192x8192, .f32⟩ : BufTy).Contents (Elt F) → (⟨S8192x8192, .f32⟩ : BufTy).Contents (Elt F)),
    unary main_arg3 main_v34 (broadcastInDim S8192x8192 ![] bcast_S_S8192x8192 : (⟨S_, .f32⟩ : BufTy).Contents (Elt F) → (⟨S8192x8192, .f32⟩ : BufTy).Contents (Elt F)),
    binary main_v33 main_v34 main_v35 (addf : (⟨S8192x8192, .f32⟩ : BufTy).Contents (Elt F) → (⟨S8192x8192, .f32⟩ : BufTy).Contents (Elt F) → (⟨S8192x8192, .f32⟩ : BufTy).Contents (Elt F)),
    nullary main_cst_2 (constant S_ .f32 0x3F800000#32),
    unary main_cst_2 main_v36 (broadcastInDim S8192x8192 ![] bcast_S_S8192x8192 : (⟨S_, .f32⟩ : BufTy).Contents (Elt F) → (⟨S8192x8192, .f32⟩ : BufTy).Contents (Elt F)),
    binary main_v35 main_v36 main_v37 (Host.divf : (⟨S8192x8192, .f32⟩ : BufTy).Contents (Elt F) → (⟨S8192x8192, .f32⟩ : BufTy).Contents (Elt F) → (⟨S8192x8192, .f32⟩ : BufTy).Contents (Elt F)) ]

abbrev seg4_W : List (Ref sig .tc) := [main_v30, main_v31, main_v32, main_v33, main_v34, main_v35, main_cst_2, main_v36, main_v37]

set_option maxRecDepth 8192 in
theorem seg4_writes : (seg4 : List (HloOp τ sig (Elt F))).Forall fun op => op.writes ⊆ (seg4_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- The buffers' contents after the first 4 segments. -/
def val4 (V0 : Valuation τ sig (Elt F)) : Valuation τ sig (Elt F) := after seg4 (val3 V0)

theorem val4_keep (V0 : Valuation τ sig (Elt F)) (r : Ref sig .tc) (h : r ∉ seg4_W) :
    val4 V0 (Proc.devRef .tc r) = val3 V0 (Proc.devRef .tc r) :=
  after_of_writes_sub seg4 _ seg4_writes h

set_option maxRecDepth 8192 in
set_option maxHeartbeats 2000000 in
theorem val4_main_v37 (V0 : Valuation τ sig (Elt F)) : val4 V0 (no_index (Proc.devRef .tc main_v37)) = (T_v37 (f_v24 (V0 (Proc.devRef .tc main_arg0)) (V0 (Proc.devRef .tc main_arg1))) (V0 (Proc.devRef .tc main_arg2)) (V0 (Proc.devRef .tc main_arg3)) (m_v16 (F := F)) (m_v17 (F := F))) := by
  unfold val4
  simp only [seg4]
  after_results_simp
  try after_results
  try simp only [val3_main_v29, val3_main_arg2, val3_main_arg3]
  rfl

theorem val4_main_v16 (V0 : Valuation τ sig (Elt F)) : val4 V0 (no_index (Proc.devRef .tc main_v16)) = (m_v16 (F := F)) :=
  (val4_keep V0 main_v16 (by decide)).trans (val3_main_v16 V0)

theorem val4_main_v17 (V0 : Valuation τ sig (Elt F)) : val4 V0 (no_index (Proc.devRef .tc main_v17)) = (m_v17 (F := F)) :=
  (val4_keep V0 main_v17 (by decide)).trans (val3_main_v17 V0)

theorem val4_main_v19 (V0 : Valuation τ sig (Elt F)) : val4 V0 (no_index (Proc.devRef .tc main_v19)) = (f_v19 (V0 (Proc.devRef .tc main_arg0)) (V0 (Proc.devRef .tc main_arg1))) :=
  (val4_keep V0 main_v19 (by decide)).trans (val3_main_v19 V0)

theorem val4_main_v18 (V0 : Valuation τ sig (Elt F)) : val4 V0 (no_index (Proc.devRef .tc main_v18)) = (f_v18 (V0 (Proc.devRef .tc main_arg0)) (V0 (Proc.devRef .tc main_arg1))) :=
  (val4_keep V0 main_v18 (by decide)).trans (val3_main_v18 V0)

theorem val4_main_arg2 (V0 : Valuation τ sig (Elt F)) : val4 V0 (no_index (Proc.devRef .tc main_arg2)) = (V0 (Proc.devRef .tc main_arg2)) :=
  (val4_keep V0 main_arg2 (by decide)).trans (val3_main_arg2 V0)

theorem val4_main_arg3 (V0 : Valuation τ sig (Elt F)) : val4 V0 (no_index (Proc.devRef .tc main_arg3)) = (V0 (Proc.devRef .tc main_arg3)) :=
  (val4_keep V0 main_arg3 (by decide)).trans (val3_main_arg3 V0)

/-- Operations 48 to 52 of the line. -/
abbrev seg5 : List (HloOp τ sig (Elt F)) :=
  [ nullary main_cst_3 (constant S_ .f32 0xFF800000#32),
    binary main_v37 main_cst_3 main_v38 ((fun x v => Host.reduce FloatOps.maximumf x v reducesTo_S8192x8192_S8192_d1 h_S_) : (⟨S8192x8192, .f32⟩ : BufTy).Contents (Elt F) → (⟨S_, .f32⟩ : BufTy).Contents (Elt F) → (⟨S8192, .f32⟩ : BufTy).Contents (Elt F)),
    unary main_v38 main_v39 (broadcastInDim S8192x1 ![0] bcast_S8192_S8192x1_0 : (⟨S8192, .f32⟩ : BufTy).Contents (Elt F) → (⟨S8192x1, .f32⟩ : BufTy).Contents (Elt F)),
    unary main_v39 main_v40 (broadcastInDim S8192x8192 ![0, 1] bcast_S8192x1_S8192x8192_0_1 : (⟨S8192x1, .f32⟩ : BufTy).Contents (Elt F) → (⟨S8192x8192, .f32⟩ : BufTy).Contents (Elt F)),
    binary main_v37 main_v40 main_v41 (subf : (⟨S8192x8192, .f32⟩ : BufTy).Contents (Elt F) → (⟨S8192x8192, .f32⟩ : BufTy).Contents (Elt F) → (⟨S8192x8192, .f32⟩ : BufTy).Contents (Elt F)) ]

abbrev seg5_W : List (Ref sig .tc) := [main_cst_3, main_v38, main_v39, main_v40, main_v41]

set_option maxRecDepth 8192 in
theorem seg5_writes : (seg5 : List (HloOp τ sig (Elt F))).Forall fun op => op.writes ⊆ (seg5_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- The buffers' contents after the first 5 segments. -/
def val5 (V0 : Valuation τ sig (Elt F)) : Valuation τ sig (Elt F) := after seg5 (val4 V0)

theorem val5_keep (V0 : Valuation τ sig (Elt F)) (r : Ref sig .tc) (h : r ∉ seg5_W) :
    val5 V0 (Proc.devRef .tc r) = val4 V0 (Proc.devRef .tc r) :=
  after_of_writes_sub seg5 _ seg5_writes h

set_option maxRecDepth 8192 in
set_option maxHeartbeats 2000000 in
theorem val5_main_v41 (V0 : Valuation τ sig (Elt F)) : val5 V0 (no_index (Proc.devRef .tc main_v41)) = (T_v41 (f_v24 (V0 (Proc.devRef .tc main_arg0)) (V0 (Proc.devRef .tc main_arg1))) (V0 (Proc.devRef .tc main_arg2)) (V0 (Proc.devRef .tc main_arg3)) (m_v16 (F := F)) (m_v17 (F := F))) := by
  unfold val5
  simp only [seg5]
  after_results_simp
  try after_results
  try simp only [val4_main_v37]
  rfl

theorem val5_main_v16 (V0 : Valuation τ sig (Elt F)) : val5 V0 (no_index (Proc.devRef .tc main_v16)) = (m_v16 (F := F)) :=
  (val5_keep V0 main_v16 (by decide)).trans (val4_main_v16 V0)

theorem val5_main_v17 (V0 : Valuation τ sig (Elt F)) : val5 V0 (no_index (Proc.devRef .tc main_v17)) = (m_v17 (F := F)) :=
  (val5_keep V0 main_v17 (by decide)).trans (val4_main_v17 V0)

theorem val5_main_v19 (V0 : Valuation τ sig (Elt F)) : val5 V0 (no_index (Proc.devRef .tc main_v19)) = (f_v19 (V0 (Proc.devRef .tc main_arg0)) (V0 (Proc.devRef .tc main_arg1))) :=
  (val5_keep V0 main_v19 (by decide)).trans (val4_main_v19 V0)

theorem val5_main_v18 (V0 : Valuation τ sig (Elt F)) : val5 V0 (no_index (Proc.devRef .tc main_v18)) = (f_v18 (V0 (Proc.devRef .tc main_arg0)) (V0 (Proc.devRef .tc main_arg1))) :=
  (val5_keep V0 main_v18 (by decide)).trans (val4_main_v18 V0)

theorem val5_main_arg2 (V0 : Valuation τ sig (Elt F)) : val5 V0 (no_index (Proc.devRef .tc main_arg2)) = (V0 (Proc.devRef .tc main_arg2)) :=
  (val5_keep V0 main_arg2 (by decide)).trans (val4_main_arg2 V0)

theorem val5_main_arg3 (V0 : Valuation τ sig (Elt F)) : val5 V0 (no_index (Proc.devRef .tc main_arg3)) = (V0 (Proc.devRef .tc main_arg3)) :=
  (val5_keep V0 main_arg3 (by decide)).trans (val4_main_arg3 V0)

/-- Operations 53 to 60 of the line. -/
abbrev seg6 : List (HloOp τ sig (Elt F)) :=
  [ unary main_v41 main_v42 (Host.exp : (⟨S8192x8192, .f32⟩ : BufTy).Contents (Elt F) → (⟨S8192x8192, .f32⟩ : BufTy).Contents (Elt F)),
    binary main_v42 main_v16 main_v43 (mulf : (⟨S8192x8192, .f32⟩ : BufTy).Contents (Elt F) → (⟨S8192x8192, .f32⟩ : BufTy).Contents (Elt F) → (⟨S8192x8192, .f32⟩ : BufTy).Contents (Elt F)),
    nullary main_cst_4 (constant S_ .f32 0x00000000#32),
    binary main_v43 main_cst_4 main_v44 ((fun x v => Host.reduceAdd x v reducesTo_S8192x8192_S8192_d1 h_S_) : (⟨S8192x8192, .f32⟩ : BufTy).Contents (Elt F) → (⟨S_, .f32⟩ : BufTy).Contents (Elt F) → (⟨S8192, .f32⟩ : BufTy).Contents (Elt F)),
    unary main_v44 main_v45 (broadcastInDim S8192x1 ![0] bcast_S8192_S8192x1_0 : (⟨S8192, .f32⟩ : BufTy).Contents (Elt F) → (⟨S8192x1, .f32⟩ : BufTy).Contents (Elt F)),
    unary main_v45 main_v46 (Host.log : (⟨S8192x1, .f32⟩ : BufTy).Contents (Elt F) → (⟨S8192x1, .f32⟩ : BufTy).Contents (Elt F)),
    unary main_v46 main_v47 (broadcastInDim S8192x8192 ![0, 1] bcast_S8192x1_S8192x8192_0_1 : (⟨S8192x1, .f32⟩ : BufTy).Contents (Elt F) → (⟨S8192x8192, .f32⟩ : BufTy).Contents (Elt F)),
    binary main_v41 main_v47 main_v48 (subf : (⟨S8192x8192, .f32⟩ : BufTy).Contents (Elt F) → (⟨S8192x8192, .f32⟩ : BufTy).Contents (Elt F) → (⟨S8192x8192, .f32⟩ : BufTy).Contents (Elt F)) ]

abbrev seg6_W : List (Ref sig .tc) := [main_v42, main_v43, main_cst_4, main_v44, main_v45, main_v46, main_v47, main_v48]

set_option maxRecDepth 8192 in
theorem seg6_writes : (seg6 : List (HloOp τ sig (Elt F))).Forall fun op => op.writes ⊆ (seg6_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- The buffers' contents after the first 6 segments. -/
def val6 (V0 : Valuation τ sig (Elt F)) : Valuation τ sig (Elt F) := after seg6 (val5 V0)

theorem val6_keep (V0 : Valuation τ sig (Elt F)) (r : Ref sig .tc) (h : r ∉ seg6_W) :
    val6 V0 (Proc.devRef .tc r) = val5 V0 (Proc.devRef .tc r) :=
  after_of_writes_sub seg6 _ seg6_writes h

theorem val6_main_v17 (V0 : Valuation τ sig (Elt F)) : val6 V0 (no_index (Proc.devRef .tc main_v17)) = (m_v17 (F := F)) :=
  (val6_keep V0 main_v17 (by decide)).trans (val5_main_v17 V0)

set_option maxRecDepth 8192 in
set_option maxHeartbeats 2000000 in
theorem val6_main_v48 (V0 : Valuation τ sig (Elt F)) : val6 V0 (no_index (Proc.devRef .tc main_v48)) = (T_v48 (f_v24 (V0 (Proc.devRef .tc main_arg0)) (V0 (Proc.devRef .tc main_arg1))) (V0 (Proc.devRef .tc main_arg2)) (V0 (Proc.devRef .tc main_arg3)) (m_v16 (F := F)) (m_v17 (F := F))) := by
  unfold val6
  simp only [seg6]
  after_results_simp
  try after_results
  try simp only [val5_main_v41, val5_main_v16]
  rfl

theorem val6_main_v19 (V0 : Valuation τ sig (Elt F)) : val6 V0 (no_index (Proc.devRef .tc main_v19)) = (f_v19 (V0 (Proc.devRef .tc main_arg0)) (V0 (Proc.devRef .tc main_arg1))) :=
  (val6_keep V0 main_v19 (by decide)).trans (val5_main_v19 V0)

theorem val6_main_v18 (V0 : Valuation τ sig (Elt F)) : val6 V0 (no_index (Proc.devRef .tc main_v18)) = (f_v18 (V0 (Proc.devRef .tc main_arg0)) (V0 (Proc.devRef .tc main_arg1))) :=
  (val6_keep V0 main_v18 (by decide)).trans (val5_main_v18 V0)

theorem val6_main_arg2 (V0 : Valuation τ sig (Elt F)) : val6 V0 (no_index (Proc.devRef .tc main_arg2)) = (V0 (Proc.devRef .tc main_arg2)) :=
  (val6_keep V0 main_arg2 (by decide)).trans (val5_main_arg2 V0)

theorem val6_main_arg3 (V0 : Valuation τ sig (Elt F)) : val6 V0 (no_index (Proc.devRef .tc main_arg3)) = (V0 (Proc.devRef .tc main_arg3)) :=
  (val6_keep V0 main_arg3 (by decide)).trans (val5_main_arg3 V0)

theorem val6_main_v16 (V0 : Valuation τ sig (Elt F)) : val6 V0 (no_index (Proc.devRef .tc main_v16)) = (m_v16 (F := F)) :=
  (val6_keep V0 main_v16 (by decide)).trans (val5_main_v16 V0)

/-- Operations 61 to 72 of the line. -/
abbrev seg7 : List (HloOp τ sig (Elt F)) :=
  [ binary main_v17 main_v48 main_v49 (mulf : (⟨S8192x8192, .f32⟩ : BufTy).Contents (Elt F) → (⟨S8192x8192, .f32⟩ : BufTy).Contents (Elt F) → (⟨S8192x8192, .f32⟩ : BufTy).Contents (Elt F)),
    nullary main_cst_5 (constant S_ .f32 0x00000000#32),
    binary main_v49 main_cst_5 main_v50 ((fun x v => Host.reduceAdd x v reducesTo_S8192x8192_S8192_d1 h_S_) : (⟨S8192x8192, .f32⟩ : BufTy).Contents (Elt F) → (⟨S_, .f32⟩ : BufTy).Contents (Elt F) → (⟨S8192, .f32⟩ : BufTy).Contents (Elt F)),
    nullary main_cst_6 (constant S_ .f32 0x00000000#32),
    binary main_v17 main_cst_6 main_v51 ((fun x v => Host.reduceAdd x v reducesTo_S8192x8192_S8192_d1 h_S_) : (⟨S8192x8192, .f32⟩ : BufTy).Contents (Elt F) → (⟨S_, .f32⟩ : BufTy).Contents (Elt F) → (⟨S8192, .f32⟩ : BufTy).Contents (Elt F)),
    binary main_v50 main_v51 main_v52 (Host.divf : (⟨S8192, .f32⟩ : BufTy).Contents (Elt F) → (⟨S8192, .f32⟩ : BufTy).Contents (Elt F) → (⟨S8192, .f32⟩ : BufTy).Contents (Elt F)),
    nullary main_cst_7 (constant S_ .f32 0x00000000#32),
    binary main_v52 main_cst_7 main_v53 ((fun x v => Host.reduceAdd x v reducesTo_S8192_S_d0 h_S_) : (⟨S8192, .f32⟩ : BufTy).Contents (Elt F) → (⟨S_, .f32⟩ : BufTy).Contents (Elt F) → (⟨S_, .f32⟩ : BufTy).Contents (Elt F)),
    nullary main_cst_8 (constant S_ .f32 0x46000000#32),
    binary main_v53 main_cst_8 main_v54 (Host.divf : (⟨S_, .f32⟩ : BufTy).Contents (Elt F) → (⟨S_, .f32⟩ : BufTy).Contents (Elt F) → (⟨S_, .f32⟩ : BufTy).Contents (Elt F)),
    nullary main_cst_9 (constant S_ .f32 0xC1649249#32),
    binary main_cst_9 main_v54 main_v55 (mulf : (⟨S_, .f32⟩ : BufTy).Contents (Elt F) → (⟨S_, .f32⟩ : BufTy).Contents (Elt F) → (⟨S_, .f32⟩ : BufTy).Contents (Elt F)) ]

abbrev seg7_W : List (Ref sig .tc) := [main_v49, main_cst_5, main_v50, main_cst_6, main_v51, main_v52, main_cst_7, main_v53, main_cst_8, main_v54, main_cst_9, main_v55]

set_option maxRecDepth 8192 in
theorem seg7_writes : (seg7 : List (HloOp τ sig (Elt F))).Forall fun op => op.writes ⊆ (seg7_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- The buffers' contents after the first 7 segments. -/
def val7 (V0 : Valuation τ sig (Elt F)) : Valuation τ sig (Elt F) := after seg7 (val6 V0)

theorem val7_keep (V0 : Valuation τ sig (Elt F)) (r : Ref sig .tc) (h : r ∉ seg7_W) :
    val7 V0 (Proc.devRef .tc r) = val6 V0 (Proc.devRef .tc r) :=
  after_of_writes_sub seg7 _ seg7_writes h

set_option maxRecDepth 8192 in
set_option maxHeartbeats 2000000 in
theorem val7_main_v55 (V0 : Valuation τ sig (Elt F)) : val7 V0 (no_index (Proc.devRef .tc main_v55)) = (T_v55 (f_v24 (V0 (Proc.devRef .tc main_arg0)) (V0 (Proc.devRef .tc main_arg1))) (V0 (Proc.devRef .tc main_arg2)) (V0 (Proc.devRef .tc main_arg3)) (m_v16 (F := F)) (m_v17 (F := F))) := by
  unfold val7
  simp only [seg7]
  after_results_simp
  try after_results
  try simp only [val6_main_v17, val6_main_v48]
  rfl

theorem val7_main_v19 (V0 : Valuation τ sig (Elt F)) : val7 V0 (no_index (Proc.devRef .tc main_v19)) = (f_v19 (V0 (Proc.devRef .tc main_arg0)) (V0 (Proc.devRef .tc main_arg1))) :=
  (val7_keep V0 main_v19 (by decide)).trans (val6_main_v19 V0)

theorem val7_main_v18 (V0 : Valuation τ sig (Elt F)) : val7 V0 (no_index (Proc.devRef .tc main_v18)) = (f_v18 (V0 (Proc.devRef .tc main_arg0)) (V0 (Proc.devRef .tc main_arg1))) :=
  (val7_keep V0 main_v18 (by decide)).trans (val6_main_v18 V0)

theorem val7_main_arg2 (V0 : Valuation τ sig (Elt F)) : val7 V0 (no_index (Proc.devRef .tc main_arg2)) = (V0 (Proc.devRef .tc main_arg2)) :=
  (val7_keep V0 main_arg2 (by decide)).trans (val6_main_arg2 V0)

theorem val7_main_arg3 (V0 : Valuation τ sig (Elt F)) : val7 V0 (no_index (Proc.devRef .tc main_arg3)) = (V0 (Proc.devRef .tc main_arg3)) :=
  (val7_keep V0 main_arg3 (by decide)).trans (val6_main_arg3 V0)

theorem val7_main_v16 (V0 : Valuation τ sig (Elt F)) : val7 V0 (no_index (Proc.devRef .tc main_v16)) = (m_v16 (F := F)) :=
  (val7_keep V0 main_v16 (by decide)).trans (val6_main_v16 V0)

theorem val7_main_v17 (V0 : Valuation τ sig (Elt F)) : val7 V0 (no_index (Proc.devRef .tc main_v17)) = (m_v17 (F := F)) :=
  (val7_keep V0 main_v17 (by decide)).trans (val6_main_v17 V0)

/-- Operations 73 to 79 of the line. -/
abbrev seg8 : List (HloOp τ sig (Elt F)) :=
  [ nullary main_cst_10 (constant S_ .f32 0x00000000#32),
    binary main_cst_10 main_v55 main_v56 (addf : (⟨S_, .f32⟩ : BufTy).Contents (Elt F) → (⟨S_, .f32⟩ : BufTy).Contents (Elt F) → (⟨S_, .f32⟩ : BufTy).Contents (Elt F)),
    unary main_v19 main_v57 ((extractStridedSlice S1x4096x256 ![1, 0, 0] · slices_S2x4096x256_S1x4096x256_1_0_0) : (⟨S2x4096x256, .f32⟩ : BufTy).Contents (Elt F) → (⟨S1x4096x256, .f32⟩ : BufTy).Contents (Elt F)),
    reshape main_v57 main_v58 rfl shapeCasts_S1x4096x256_S4096x256,
    unary main_v18 main_v59 ((extractStridedSlice S1x4096x256 ![0, 0, 0] · slices_S2x4096x256_S1x4096x256_0_0_0) : (⟨S2x4096x256, .f32⟩ : BufTy).Contents (Elt F) → (⟨S1x4096x256, .f32⟩ : BufTy).Contents (Elt F)),
    reshape main_v59 main_v60 rfl shapeCasts_S1x4096x256_S4096x256,
    binary main_v58 main_v60 main_v61 ((fun a b => concatenate S8192x256 0 [⟨S4096x256, a⟩, ⟨S4096x256, b⟩] concatenates_S4096x256_S4096x256_S8192x256_d0) : (⟨S4096x256, .f32⟩ : BufTy).Contents (Elt F) → (⟨S4096x256, .f32⟩ : BufTy).Contents (Elt F) → (⟨S8192x256, .f32⟩ : BufTy).Contents (Elt F)) ]

abbrev seg8_W : List (Ref sig .tc) := [main_cst_10, main_v56, main_v57, main_v58, main_v59, main_v60, main_v61]

set_option maxRecDepth 8192 in
theorem seg8_writes : (seg8 : List (HloOp τ sig (Elt F))).Forall fun op => op.writes ⊆ (seg8_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- The buffers' contents after the first 8 segments. -/
def val8 (V0 : Valuation τ sig (Elt F)) : Valuation τ sig (Elt F) := after seg8 (val7 V0)

theorem val8_keep (V0 : Valuation τ sig (Elt F)) (r : Ref sig .tc) (h : r ∉ seg8_W) :
    val8 V0 (Proc.devRef .tc r) = val7 V0 (Proc.devRef .tc r) :=
  after_of_writes_sub seg8 _ seg8_writes h

set_option maxRecDepth 8192 in
set_option maxHeartbeats 2000000 in
theorem val8_main_v61 (V0 : Valuation τ sig (Elt F)) : val8 V0 (no_index (Proc.devRef .tc main_v61)) = (f_v61 (V0 (Proc.devRef .tc main_arg0)) (V0 (Proc.devRef .tc main_arg1))) := by
  unfold val8
  simp only [seg8]
  after_results_simp
  try after_results
  try simp only [val7_main_v55, val7_main_v19, val7_main_v18]
  rfl

theorem val8_main_arg2 (V0 : Valuation τ sig (Elt F)) : val8 V0 (no_index (Proc.devRef .tc main_arg2)) = (V0 (Proc.devRef .tc main_arg2)) :=
  (val8_keep V0 main_arg2 (by decide)).trans (val7_main_arg2 V0)

theorem val8_main_arg3 (V0 : Valuation τ sig (Elt F)) : val8 V0 (no_index (Proc.devRef .tc main_arg3)) = (V0 (Proc.devRef .tc main_arg3)) :=
  (val8_keep V0 main_arg3 (by decide)).trans (val7_main_arg3 V0)

theorem val8_main_v16 (V0 : Valuation τ sig (Elt F)) : val8 V0 (no_index (Proc.devRef .tc main_v16)) = (m_v16 (F := F)) :=
  (val8_keep V0 main_v16 (by decide)).trans (val7_main_v16 V0)

theorem val8_main_v17 (V0 : Valuation τ sig (Elt F)) : val8 V0 (no_index (Proc.devRef .tc main_v17)) = (m_v17 (F := F)) :=
  (val8_keep V0 main_v17 (by decide)).trans (val7_main_v17 V0)

set_option maxRecDepth 8192 in
set_option maxHeartbeats 2000000 in
theorem val8_main_v56 (V0 : Valuation τ sig (Elt F)) : val8 V0 (no_index (Proc.devRef .tc main_v56)) = (R_v56 (V0 (Proc.devRef .tc main_arg0)) (V0 (Proc.devRef .tc main_arg1)) (V0 (Proc.devRef .tc main_arg2)) (V0 (Proc.devRef .tc main_arg3))) := by
  unfold val8
  simp only [seg8]
  after_results_simp
  try after_results
  try simp only [val7_main_v55, val7_main_v19, val7_main_v18]
  rfl

/-- Operations 80 to 89 of the line. -/
abbrev seg9 : List (HloOp τ sig (Elt F)) :=
  [ TRef.binary (TRef.of (T := ⟨S8192x256, .f32⟩) main_v61) (TRef.of (T := ⟨S8192x256, .f32⟩) main_v61) (TRef.of (T := ⟨S8192x256, .f32⟩) main_call1_v0) mulf,
    TRef.nullary (TRef.of (T := ⟨S_, .f32⟩) main_call1_cst) (constant S_ .f32 0x00000000#32),
    TRef.binary (TRef.of (T := ⟨S8192x256, .f32⟩) main_call1_v0) (TRef.of (T := ⟨S_, .f32⟩) main_call1_cst) (TRef.of (T := ⟨S8192, .f32⟩) main_call1_v1) (fun x v => Host.reduceAdd x v reducesTo_S8192x256_S8192_d1 h_S_),
    TRef.unary (TRef.of (T := ⟨S8192, .f32⟩) main_call1_v1) (TRef.of (T := ⟨S8192x1, .f32⟩) main_call1_v2) (broadcastInDim S8192x1 ![0] bcast_S8192_S8192x1_0),
    TRef.unary (TRef.of (T := ⟨S8192x1, .f32⟩) main_call1_v2) (TRef.of (T := ⟨S8192x1, .f32⟩) main_v62) Host.sqrt,
    nullary main_cst_11 (constant S_ .f32 0x322BCC77#32),
    unary main_cst_11 main_v63 (broadcastInDim S8192x1 ![] bcast_S_S8192x1 : (⟨S_, .f32⟩ : BufTy).Contents (Elt F) → (⟨S8192x1, .f32⟩ : BufTy).Contents (Elt F)),
    binary main_v62 main_v63 main_v64 (maximumf : (⟨S8192x1, .f32⟩ : BufTy).Contents (Elt F) → (⟨S8192x1, .f32⟩ : BufTy).Contents (Elt F) → (⟨S8192x1, .f32⟩ : BufTy).Contents (Elt F)),
    unary main_v64 main_v65 (broadcastInDim S8192x256 ![0, 1] bcast_S8192x1_S8192x256_0_1 : (⟨S8192x1, .f32⟩ : BufTy).Contents (Elt F) → (⟨S8192x256, .f32⟩ : BufTy).Contents (Elt F)),
    binary main_v61 main_v65 main_v66 (Host.divf : (⟨S8192x256, .f32⟩ : BufTy).Contents (Elt F) → (⟨S8192x256, .f32⟩ : BufTy).Contents (Elt F) → (⟨S8192x256, .f32⟩ : BufTy).Contents (Elt F)) ]

abbrev seg9_W : List (Ref sig .tc) := [main_call1_v0, main_call1_cst, main_call1_v1, main_call1_v2, main_v62, main_cst_11, main_v63, main_v64, main_v65, main_v66]

set_option maxRecDepth 8192 in
theorem seg9_writes : (seg9 : List (HloOp τ sig (Elt F))).Forall fun op => op.writes ⊆ (seg9_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- The buffers' contents after the first 9 segments. -/
def val9 (V0 : Valuation τ sig (Elt F)) : Valuation τ sig (Elt F) := after seg9 (val8 V0)

theorem val9_keep (V0 : Valuation τ sig (Elt F)) (r : Ref sig .tc) (h : r ∉ seg9_W) :
    val9 V0 (Proc.devRef .tc r) = val8 V0 (Proc.devRef .tc r) :=
  after_of_writes_sub seg9 _ seg9_writes h

set_option maxRecDepth 8192 in
set_option maxHeartbeats 2000000 in
theorem val9_main_v66 (V0 : Valuation τ sig (Elt F)) : val9 V0 (no_index (Proc.devRef .tc main_v66)) = (T_v29 (f_v61 (V0 (Proc.devRef .tc main_arg0)) (V0 (Proc.devRef .tc main_arg1))) (V0 (Proc.devRef .tc main_arg2)) (V0 (Proc.devRef .tc main_arg3)) (m_v16 (F := F)) (m_v17 (F := F))) := by
  unfold val9
  simp only [seg9]
  after_results_simp
  try after_results
  try simp only [val8_main_v61]
  rfl

theorem val9_main_arg2 (V0 : Valuation τ sig (Elt F)) : val9 V0 (no_index (Proc.devRef .tc main_arg2)) = (V0 (Proc.devRef .tc main_arg2)) :=
  (val9_keep V0 main_arg2 (by decide)).trans (val8_main_arg2 V0)

theorem val9_main_arg3 (V0 : Valuation τ sig (Elt F)) : val9 V0 (no_index (Proc.devRef .tc main_arg3)) = (V0 (Proc.devRef .tc main_arg3)) :=
  (val9_keep V0 main_arg3 (by decide)).trans (val8_main_arg3 V0)

theorem val9_main_v16 (V0 : Valuation τ sig (Elt F)) : val9 V0 (no_index (Proc.devRef .tc main_v16)) = (m_v16 (F := F)) :=
  (val9_keep V0 main_v16 (by decide)).trans (val8_main_v16 V0)

theorem val9_main_v17 (V0 : Valuation τ sig (Elt F)) : val9 V0 (no_index (Proc.devRef .tc main_v17)) = (m_v17 (F := F)) :=
  (val9_keep V0 main_v17 (by decide)).trans (val8_main_v17 V0)

theorem val9_main_v56 (V0 : Valuation τ sig (Elt F)) : val9 V0 (no_index (Proc.devRef .tc main_v56)) = (R_v56 (V0 (Proc.devRef .tc main_arg0)) (V0 (Proc.devRef .tc main_arg1)) (V0 (Proc.devRef .tc main_arg2)) (V0 (Proc.devRef .tc main_arg3))) :=
  (val9_keep V0 main_v56 (by decide)).trans (val8_main_v56 V0)

/-- Operations 90 to 98 of the line. -/
abbrev seg10 : List (HloOp τ sig (Elt F)) :=
  [ unary main_v66 main_v67 ((transpose S256x8192 [1, 0] · transposes_S8192x256_S256x8192_1_0) : (⟨S8192x256, .f32⟩ : BufTy).Contents (Elt F) → (⟨S256x8192, .f32⟩ : BufTy).Contents (Elt F)),
    binary main_v66 main_v67 main_v68 ((fun l r => Host.dotGeneral dot_S8192x256_S256x8192_S8192x8192_1_0_0_1_n_n none l r) : (⟨S8192x256, .f32⟩ : BufTy).Contents (Elt F) → (⟨S256x8192, .f32⟩ : BufTy).Contents (Elt F) → (⟨S8192x8192, .f32⟩ : BufTy).Contents (Elt F)),
    unary main_arg2 main_v69 (broadcastInDim S8192x8192 ![] bcast_S_S8192x8192 : (⟨S_, .f32⟩ : BufTy).Contents (Elt F) → (⟨S8192x8192, .f32⟩ : BufTy).Contents (Elt F)),
    binary main_v68 main_v69 main_v70 (mulf : (⟨S8192x8192, .f32⟩ : BufTy).Contents (Elt F) → (⟨S8192x8192, .f32⟩ : BufTy).Contents (Elt F) → (⟨S8192x8192, .f32⟩ : BufTy).Contents (Elt F)),
    unary main_arg3 main_v71 (broadcastInDim S8192x8192 ![] bcast_S_S8192x8192 : (⟨S_, .f32⟩ : BufTy).Contents (Elt F) → (⟨S8192x8192, .f32⟩ : BufTy).Contents (Elt F)),
    binary main_v70 main_v71 main_v72 (addf : (⟨S8192x8192, .f32⟩ : BufTy).Contents (Elt F) → (⟨S8192x8192, .f32⟩ : BufTy).Contents (Elt F) → (⟨S8192x8192, .f32⟩ : BufTy).Contents (Elt F)),
    nullary main_cst_12 (constant S_ .f32 0x3F800000#32),
    unary main_cst_12 main_v73 (broadcastInDim S8192x8192 ![] bcast_S_S8192x8192 : (⟨S_, .f32⟩ : BufTy).Contents (Elt F) → (⟨S8192x8192, .f32⟩ : BufTy).Contents (Elt F)),
    binary main_v72 main_v73 main_v74 (Host.divf : (⟨S8192x8192, .f32⟩ : BufTy).Contents (Elt F) → (⟨S8192x8192, .f32⟩ : BufTy).Contents (Elt F) → (⟨S8192x8192, .f32⟩ : BufTy).Contents (Elt F)) ]

abbrev seg10_W : List (Ref sig .tc) := [main_v67, main_v68, main_v69, main_v70, main_v71, main_v72, main_cst_12, main_v73, main_v74]

set_option maxRecDepth 8192 in
theorem seg10_writes : (seg10 : List (HloOp τ sig (Elt F))).Forall fun op => op.writes ⊆ (seg10_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- The buffers' contents after the first 10 segments. -/
def val10 (V0 : Valuation τ sig (Elt F)) : Valuation τ sig (Elt F) := after seg10 (val9 V0)

theorem val10_keep (V0 : Valuation τ sig (Elt F)) (r : Ref sig .tc) (h : r ∉ seg10_W) :
    val10 V0 (Proc.devRef .tc r) = val9 V0 (Proc.devRef .tc r) :=
  after_of_writes_sub seg10 _ seg10_writes h

set_option maxRecDepth 8192 in
set_option maxHeartbeats 2000000 in
theorem val10_main_v74 (V0 : Valuation τ sig (Elt F)) : val10 V0 (no_index (Proc.devRef .tc main_v74)) = (T_v37 (f_v61 (V0 (Proc.devRef .tc main_arg0)) (V0 (Proc.devRef .tc main_arg1))) (V0 (Proc.devRef .tc main_arg2)) (V0 (Proc.devRef .tc main_arg3)) (m_v16 (F := F)) (m_v17 (F := F))) := by
  unfold val10
  simp only [seg10]
  after_results_simp
  try after_results
  try simp only [val9_main_v66, val9_main_arg2, val9_main_arg3]
  rfl

theorem val10_main_v16 (V0 : Valuation τ sig (Elt F)) : val10 V0 (no_index (Proc.devRef .tc main_v16)) = (m_v16 (F := F)) :=
  (val10_keep V0 main_v16 (by decide)).trans (val9_main_v16 V0)

theorem val10_main_v17 (V0 : Valuation τ sig (Elt F)) : val10 V0 (no_index (Proc.devRef .tc main_v17)) = (m_v17 (F := F)) :=
  (val10_keep V0 main_v17 (by decide)).trans (val9_main_v17 V0)

theorem val10_main_v56 (V0 : Valuation τ sig (Elt F)) : val10 V0 (no_index (Proc.devRef .tc main_v56)) = (R_v56 (V0 (Proc.devRef .tc main_arg0)) (V0 (Proc.devRef .tc main_arg1)) (V0 (Proc.devRef .tc main_arg2)) (V0 (Proc.devRef .tc main_arg3))) :=
  (val10_keep V0 main_v56 (by decide)).trans (val9_main_v56 V0)

/-- Operations 99 to 103 of the line. -/
abbrev seg11 : List (HloOp τ sig (Elt F)) :=
  [ nullary main_cst_13 (constant S_ .f32 0xFF800000#32),
    binary main_v74 main_cst_13 main_v75 ((fun x v => Host.reduce FloatOps.maximumf x v reducesTo_S8192x8192_S8192_d1 h_S_) : (⟨S8192x8192, .f32⟩ : BufTy).Contents (Elt F) → (⟨S_, .f32⟩ : BufTy).Contents (Elt F) → (⟨S8192, .f32⟩ : BufTy).Contents (Elt F)),
    unary main_v75 main_v76 (broadcastInDim S8192x1 ![0] bcast_S8192_S8192x1_0 : (⟨S8192, .f32⟩ : BufTy).Contents (Elt F) → (⟨S8192x1, .f32⟩ : BufTy).Contents (Elt F)),
    unary main_v76 main_v77 (broadcastInDim S8192x8192 ![0, 1] bcast_S8192x1_S8192x8192_0_1 : (⟨S8192x1, .f32⟩ : BufTy).Contents (Elt F) → (⟨S8192x8192, .f32⟩ : BufTy).Contents (Elt F)),
    binary main_v74 main_v77 main_v78 (subf : (⟨S8192x8192, .f32⟩ : BufTy).Contents (Elt F) → (⟨S8192x8192, .f32⟩ : BufTy).Contents (Elt F) → (⟨S8192x8192, .f32⟩ : BufTy).Contents (Elt F)) ]

abbrev seg11_W : List (Ref sig .tc) := [main_cst_13, main_v75, main_v76, main_v77, main_v78]

set_option maxRecDepth 8192 in
theorem seg11_writes : (seg11 : List (HloOp τ sig (Elt F))).Forall fun op => op.writes ⊆ (seg11_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- The buffers' contents after the first 11 segments. -/
def val11 (V0 : Valuation τ sig (Elt F)) : Valuation τ sig (Elt F) := after seg11 (val10 V0)

theorem val11_keep (V0 : Valuation τ sig (Elt F)) (r : Ref sig .tc) (h : r ∉ seg11_W) :
    val11 V0 (Proc.devRef .tc r) = val10 V0 (Proc.devRef .tc r) :=
  after_of_writes_sub seg11 _ seg11_writes h

set_option maxRecDepth 8192 in
set_option maxHeartbeats 2000000 in
theorem val11_main_v78 (V0 : Valuation τ sig (Elt F)) : val11 V0 (no_index (Proc.devRef .tc main_v78)) = (T_v41 (f_v61 (V0 (Proc.devRef .tc main_arg0)) (V0 (Proc.devRef .tc main_arg1))) (V0 (Proc.devRef .tc main_arg2)) (V0 (Proc.devRef .tc main_arg3)) (m_v16 (F := F)) (m_v17 (F := F))) := by
  unfold val11
  simp only [seg11]
  after_results_simp
  try after_results
  try simp only [val10_main_v74]
  rfl

theorem val11_main_v16 (V0 : Valuation τ sig (Elt F)) : val11 V0 (no_index (Proc.devRef .tc main_v16)) = (m_v16 (F := F)) :=
  (val11_keep V0 main_v16 (by decide)).trans (val10_main_v16 V0)

theorem val11_main_v17 (V0 : Valuation τ sig (Elt F)) : val11 V0 (no_index (Proc.devRef .tc main_v17)) = (m_v17 (F := F)) :=
  (val11_keep V0 main_v17 (by decide)).trans (val10_main_v17 V0)

theorem val11_main_v56 (V0 : Valuation τ sig (Elt F)) : val11 V0 (no_index (Proc.devRef .tc main_v56)) = (R_v56 (V0 (Proc.devRef .tc main_arg0)) (V0 (Proc.devRef .tc main_arg1)) (V0 (Proc.devRef .tc main_arg2)) (V0 (Proc.devRef .tc main_arg3))) :=
  (val11_keep V0 main_v56 (by decide)).trans (val10_main_v56 V0)

/-- Operations 104 to 111 of the line. -/
abbrev seg12 : List (HloOp τ sig (Elt F)) :=
  [ unary main_v78 main_v79 (Host.exp : (⟨S8192x8192, .f32⟩ : BufTy).Contents (Elt F) → (⟨S8192x8192, .f32⟩ : BufTy).Contents (Elt F)),
    binary main_v79 main_v16 main_v80 (mulf : (⟨S8192x8192, .f32⟩ : BufTy).Contents (Elt F) → (⟨S8192x8192, .f32⟩ : BufTy).Contents (Elt F) → (⟨S8192x8192, .f32⟩ : BufTy).Contents (Elt F)),
    nullary main_cst_14 (constant S_ .f32 0x00000000#32),
    binary main_v80 main_cst_14 main_v81 ((fun x v => Host.reduceAdd x v reducesTo_S8192x8192_S8192_d1 h_S_) : (⟨S8192x8192, .f32⟩ : BufTy).Contents (Elt F) → (⟨S_, .f32⟩ : BufTy).Contents (Elt F) → (⟨S8192, .f32⟩ : BufTy).Contents (Elt F)),
    unary main_v81 main_v82 (broadcastInDim S8192x1 ![0] bcast_S8192_S8192x1_0 : (⟨S8192, .f32⟩ : BufTy).Contents (Elt F) → (⟨S8192x1, .f32⟩ : BufTy).Contents (Elt F)),
    unary main_v82 main_v83 (Host.log : (⟨S8192x1, .f32⟩ : BufTy).Contents (Elt F) → (⟨S8192x1, .f32⟩ : BufTy).Contents (Elt F)),
    unary main_v83 main_v84 (broadcastInDim S8192x8192 ![0, 1] bcast_S8192x1_S8192x8192_0_1 : (⟨S8192x1, .f32⟩ : BufTy).Contents (Elt F) → (⟨S8192x8192, .f32⟩ : BufTy).Contents (Elt F)),
    binary main_v78 main_v84 main_v85 (subf : (⟨S8192x8192, .f32⟩ : BufTy).Contents (Elt F) → (⟨S8192x8192, .f32⟩ : BufTy).Contents (Elt F) → (⟨S8192x8192, .f32⟩ : BufTy).Contents (Elt F)) ]

abbrev seg12_W : List (Ref sig .tc) := [main_v79, main_v80, main_cst_14, main_v81, main_v82, main_v83, main_v84, main_v85]

set_option maxRecDepth 8192 in
theorem seg12_writes : (seg12 : List (HloOp τ sig (Elt F))).Forall fun op => op.writes ⊆ (seg12_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- The buffers' contents after the first 12 segments. -/
def val12 (V0 : Valuation τ sig (Elt F)) : Valuation τ sig (Elt F) := after seg12 (val11 V0)

theorem val12_keep (V0 : Valuation τ sig (Elt F)) (r : Ref sig .tc) (h : r ∉ seg12_W) :
    val12 V0 (Proc.devRef .tc r) = val11 V0 (Proc.devRef .tc r) :=
  after_of_writes_sub seg12 _ seg12_writes h

theorem val12_main_v17 (V0 : Valuation τ sig (Elt F)) : val12 V0 (no_index (Proc.devRef .tc main_v17)) = (m_v17 (F := F)) :=
  (val12_keep V0 main_v17 (by decide)).trans (val11_main_v17 V0)

set_option maxRecDepth 8192 in
set_option maxHeartbeats 2000000 in
theorem val12_main_v85 (V0 : Valuation τ sig (Elt F)) : val12 V0 (no_index (Proc.devRef .tc main_v85)) = (T_v48 (f_v61 (V0 (Proc.devRef .tc main_arg0)) (V0 (Proc.devRef .tc main_arg1))) (V0 (Proc.devRef .tc main_arg2)) (V0 (Proc.devRef .tc main_arg3)) (m_v16 (F := F)) (m_v17 (F := F))) := by
  unfold val12
  simp only [seg12]
  after_results_simp
  try after_results
  try simp only [val11_main_v78, val11_main_v16]
  rfl

theorem val12_main_v56 (V0 : Valuation τ sig (Elt F)) : val12 V0 (no_index (Proc.devRef .tc main_v56)) = (R_v56 (V0 (Proc.devRef .tc main_arg0)) (V0 (Proc.devRef .tc main_arg1)) (V0 (Proc.devRef .tc main_arg2)) (V0 (Proc.devRef .tc main_arg3))) :=
  (val12_keep V0 main_v56 (by decide)).trans (val11_main_v56 V0)

/-- Operations 112 to 123 of the line. -/
abbrev seg13 : List (HloOp τ sig (Elt F)) :=
  [ binary main_v17 main_v85 main_v86 (mulf : (⟨S8192x8192, .f32⟩ : BufTy).Contents (Elt F) → (⟨S8192x8192, .f32⟩ : BufTy).Contents (Elt F) → (⟨S8192x8192, .f32⟩ : BufTy).Contents (Elt F)),
    nullary main_cst_15 (constant S_ .f32 0x00000000#32),
    binary main_v86 main_cst_15 main_v87 ((fun x v => Host.reduceAdd x v reducesTo_S8192x8192_S8192_d1 h_S_) : (⟨S8192x8192, .f32⟩ : BufTy).Contents (Elt F) → (⟨S_, .f32⟩ : BufTy).Contents (Elt F) → (⟨S8192, .f32⟩ : BufTy).Contents (Elt F)),
    nullary main_cst_16 (constant S_ .f32 0x00000000#32),
    binary main_v17 main_cst_16 main_v88 ((fun x v => Host.reduceAdd x v reducesTo_S8192x8192_S8192_d1 h_S_) : (⟨S8192x8192, .f32⟩ : BufTy).Contents (Elt F) → (⟨S_, .f32⟩ : BufTy).Contents (Elt F) → (⟨S8192, .f32⟩ : BufTy).Contents (Elt F)),
    binary main_v87 main_v88 main_v89 (Host.divf : (⟨S8192, .f32⟩ : BufTy).Contents (Elt F) → (⟨S8192, .f32⟩ : BufTy).Contents (Elt F) → (⟨S8192, .f32⟩ : BufTy).Contents (Elt F)),
    nullary main_cst_17 (constant S_ .f32 0x00000000#32),
    binary main_v89 main_cst_17 main_v90 ((fun x v => Host.reduceAdd x v reducesTo_S8192_S_d0 h_S_) : (⟨S8192, .f32⟩ : BufTy).Contents (Elt F) → (⟨S_, .f32⟩ : BufTy).Contents (Elt F) → (⟨S_, .f32⟩ : BufTy).Contents (Elt F)),
    nullary main_cst_18 (constant S_ .f32 0x46000000#32),
    binary main_v90 main_cst_18 main_v91 (Host.divf : (⟨S_, .f32⟩ : BufTy).Contents (Elt F) → (⟨S_, .f32⟩ : BufTy).Contents (Elt F) → (⟨S_, .f32⟩ : BufTy).Contents (Elt F)),
    nullary main_cst_19 (constant S_ .f32 0xC1649249#32),
    binary main_cst_19 main_v91 main_v92 (mulf : (⟨S_, .f32⟩ : BufTy).Contents (Elt F) → (⟨S_, .f32⟩ : BufTy).Contents (Elt F) → (⟨S_, .f32⟩ : BufTy).Contents (Elt F)) ]

abbrev seg13_W : List (Ref sig .tc) := [main_v86, main_cst_15, main_v87, main_cst_16, main_v88, main_v89, main_cst_17, main_v90, main_cst_18, main_v91, main_cst_19, main_v92]

set_option maxRecDepth 8192 in
theorem seg13_writes : (seg13 : List (HloOp τ sig (Elt F))).Forall fun op => op.writes ⊆ (seg13_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- The buffers' contents after the first 13 segments. -/
def val13 (V0 : Valuation τ sig (Elt F)) : Valuation τ sig (Elt F) := after seg13 (val12 V0)

theorem val13_keep (V0 : Valuation τ sig (Elt F)) (r : Ref sig .tc) (h : r ∉ seg13_W) :
    val13 V0 (Proc.devRef .tc r) = val12 V0 (Proc.devRef .tc r) :=
  after_of_writes_sub seg13 _ seg13_writes h

theorem val13_main_v56 (V0 : Valuation τ sig (Elt F)) : val13 V0 (no_index (Proc.devRef .tc main_v56)) = (R_v56 (V0 (Proc.devRef .tc main_arg0)) (V0 (Proc.devRef .tc main_arg1)) (V0 (Proc.devRef .tc main_arg2)) (V0 (Proc.devRef .tc main_arg3))) :=
  (val13_keep V0 main_v56 (by decide)).trans (val12_main_v56 V0)

set_option maxRecDepth 8192 in
set_option maxHeartbeats 2000000 in
theorem val13_main_v92 (V0 : Valuation τ sig (Elt F)) : val13 V0 (no_index (Proc.devRef .tc main_v92)) = (T_v55 (f_v61 (V0 (Proc.devRef .tc main_arg0)) (V0 (Proc.devRef .tc main_arg1))) (V0 (Proc.devRef .tc main_arg2)) (V0 (Proc.devRef .tc main_arg3)) (m_v16 (F := F)) (m_v17 (F := F))) := by
  unfold val13
  simp only [seg13]
  after_results_simp
  try after_results
  try simp only [val12_main_v17, val12_main_v85]
  rfl

/-- Operations 124 to 126 of the line. -/
abbrev seg14 : List (HloOp τ sig (Elt F)) :=
  [ binary main_v56 main_v92 main_v93 (addf : (⟨S_, .f32⟩ : BufTy).Contents (Elt F) → (⟨S_, .f32⟩ : BufTy).Contents (Elt F) → (⟨S_, .f32⟩ : BufTy).Contents (Elt F)),
    nullary main_cst_20 (constant S_ .f32 0x40000000#32),
    binary main_v93 main_cst_20 main_v94 (Host.divf : (⟨S_, .f32⟩ : BufTy).Contents (Elt F) → (⟨S_, .f32⟩ : BufTy).Contents (Elt F) → (⟨S_, .f32⟩ : BufTy).Contents (Elt F)) ]

abbrev seg14_W : List (Ref sig .tc) := [main_v93, main_cst_20, main_v94]

set_option maxRecDepth 8192 in
theorem seg14_writes : (seg14 : List (HloOp τ sig (Elt F))).Forall fun op => op.writes ⊆ (seg14_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- The buffers' contents after the first 14 segments. -/
def val14 (V0 : Valuation τ sig (Elt F)) : Valuation τ sig (Elt F) := after seg14 (val13 V0)

theorem val14_keep (V0 : Valuation τ sig (Elt F)) (r : Ref sig .tc) (h : r ∉ seg14_W) :
    val14 V0 (Proc.devRef .tc r) = val13 V0 (Proc.devRef .tc r) :=
  after_of_writes_sub seg14 _ seg14_writes h

set_option maxRecDepth 8192 in
set_option maxHeartbeats 2000000 in
theorem val14_main_v94 (V0 : Valuation τ sig (Elt F)) : val14 V0 (no_index (Proc.devRef .tc main_v94)) = (R_v94 (V0 (Proc.devRef .tc main_arg0)) (V0 (Proc.devRef .tc main_arg1)) (V0 (Proc.devRef .tc main_arg2)) (V0 (Proc.devRef .tc main_arg3))) := by
  unfold val14
  simp only [seg14]
  after_results_simp
  try after_results
  try simp only [val13_main_v56, val13_main_v92]
  rfl

/-- The line is its segments in order. -/
theorem ops_eq : (ops : List (HloOp τ sig (Elt F))) = seg1 ++ (seg2 ++ (seg3 ++ (seg4 ++ (seg5 ++ (seg6 ++ (seg7 ++ (seg8 ++ (seg9 ++ (seg10 ++ (seg11 ++ (seg12 ++ (seg13 ++ (seg14))))))))))))) := rfl

/-- The whole line leaves the reference's result in its last buffer. -/
theorem result_eq (V : Valuation τ sig (Elt F)) :
    after ops V (Proc.devRef .tc main_v94) = refTotal (V (Proc.devRef .tc main_arg0)) (V (Proc.devRef .tc main_arg1)) (V (Proc.devRef .tc main_arg2)) (V (Proc.devRef .tc main_arg3)) := by
  rw [ops_eq]
  simp only [after_append]
  exact val14_main_v94 V

/-- The reference's run, read: its result is `refTotal` of the arguments, which are kept. -/
theorem value_run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v94) = refTotal (m ((c.tc : Thread nD τ).loc main_arg0)) (m ((c.tc : Thread nD τ).loc main_arg1))
          (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨
      (h c main_v94).trans (result_eq _),
      (h c main_arg0).trans (by rw [after_append, keep1_main_arg0, keep0_main_arg0]),
      (h c main_arg1).trans (by rw [after_append, keep1_main_arg1, keep0_main_arg1]),
      (h c main_arg2).trans (by rw [after_append, keep1_main_arg2, keep0_main_arg2]),
      (h c main_arg3).trans (by rw [after_append, keep1_main_arg3, keep0_main_arg3])⟩)
    (run_seq scopedRefs_eq scopedSems_eq defs main (fun _ => ops) main_eq (fun _ => ops_sub) m ρ)

end Cert.ReferenceIdeal.Stage

end
-- ==== Proof.RefTerm.lean ====
/-
  One term's loss in the reference, read at the extended reals, operation by operation: each row's masked mean of
  log-probabilities is the log-probability of the row's partner, and the term's loss is the scaled mean of these over
  the 8192 rows.
-/
import proofs.«111949_j33792802685631_1_alg».proof.Proof.RefOps
import proofs.«111949_j33792802685631_1_alg».proof.Proof.RefStages
import proofs.«111949_j33792802685631_1_alg».proof.Proof.Bridge

set_option maxRecDepth 16384

noncomputable section

open scoped BigOperators

namespace Cert.ReferenceIdeal.Read

open Cert.ReferenceIdeal Cert.ReferenceIdeal.Gen Cert.ReferenceIdeal.Stage Cert.Contrast
open Idealize.ShloMosaic Idealize.ShloMosaic.ValueIdx

variable (X : FVec Ideal S8192x256 .f32) (w b : FVec Ideal S_ .f32) (OD PM : FVec Ideal S8192x8192 .f32)

/-! ## Normalizing the rows -/

theorem sq_at (r : Fin 8192) : T_call0_v1 (F := Ideal) X w b OD PM (ix1 r) = ∑ d : Fin 256, X (ix2 r d) * X (ix2 r d) := by
  unfold T_call0_v1
  refine (hsum_rows256 _ _ r).trans ?_
  show Ideal.ofBits .f32 0x00000000#32 + _ = _
  rw [Ideal.ofBits_zero_f32, zero_add]
  rfl

theorem norm_at (r : Fin 8192) (u : Fin 1) :
    T_v27 (F := Ideal) X w b OD PM (ix2 r u) = max (Ideal.sqrt (∑ d : Fin 256, X (ix2 r d) * X (ix2 r d))) tiny := by
  have h1 : T_call0_v2 (F := Ideal) X w b OD PM (ix2 r u) = T_call0_v1 (F := Ideal) X w b OD PM (ix1 r) := by
    unfold T_call0_v2; exact bcast_col _ r u
  have h2 : T_v26 (F := Ideal) X w b OD PM (ix2 r u) = tiny := by
    unfold T_v26 T_cst_1; exact broadcastInDim_scalar_apply _ _ _
  show max (Ideal.sqrt (T_call0_v2 (F := Ideal) X w b OD PM (ix2 r u))) (T_v26 (F := Ideal) X w b OD PM (ix2 r u)) = _
  rw [h1, h2, sq_at]

/-- The normalized features. -/
theorem unit_read (r : Fin 8192) (d : Fin 256) : T_v29 (F := Ideal) X w b OD PM (ix2 r d) = unitRows X (ix2 r d) := by
  have h1 : T_v28 (F := Ideal) X w b OD PM (ix2 r d) = T_v27 (F := Ideal) X w b OD PM (ix2 r (0 : Fin 1)) := by
    unfold T_v28; exact bcast_cols256 _ r d
  show Ideal.div (X (ix2 r d)) (T_v28 (F := Ideal) X w b OD PM (ix2 r d)) = _
  rw [h1, norm_at]
  rfl

/-! ## The logits -/

theorem gram_read (r s : Fin 8192) : T_v31 (F := Ideal) X w b OD PM (ix2 r s) = cosim X r s := by
  unfold T_v31 T_v30
  refine (gram_at _ r s).trans ?_
  unfold cosim
  exact Finset.sum_congr rfl fun d _ => by rw [unit_read, unit_read]

theorem logit_read (r s : Fin 8192) : T_v37 (F := Ideal) X w b OD PM (ix2 r s) = logit X (w ix0) (b ix0) r s := by
  have hw : T_v32 (F := Ideal) X w b OD PM (ix2 r s) = w ix0 := by unfold T_v32; exact broadcastInDim_scalar_apply _ _ _
  have hb : T_v34 (F := Ideal) X w b OD PM (ix2 r s) = b ix0 := by unfold T_v34; exact broadcastInDim_scalar_apply _ _ _
  have h1 : T_v36 (F := Ideal) X w b OD PM (ix2 r s) = 1 := by
    unfold T_v36 T_cst_2
    refine (broadcastInDim_scalar_apply _ _ _).trans ?_
    show Ideal.ofBits .f32 0x3F800000#32 = 1
    rw [ofBits_one, EReal.coe_one]
  show Ideal.div (T_v31 (F := Ideal) X w b OD PM (ix2 r s) * T_v32 (F := Ideal) X w b OD PM (ix2 r s) + T_v34 (F := Ideal) X w b OD PM (ix2 r s)) (T_v36 (F := Ideal) X w b OD PM (ix2 r s)) = _
  rw [hw, hb, h1, gram_read, div_one]
  rfl

theorem rowMax_read (r : Fin 8192) : T_v38 (F := Ideal) X w b OD PM (ix1 r) = rowMax X (w ix0) (b ix0) r := by
  unfold T_v38
  refine (hmax_rows8192 _ _ r).trans ?_
  unfold rowMax
  have h0 : T_cst_3 (F := Ideal) X w b OD PM ix0 = ⊥ := ofBits_negInf
  rw [h0]
  exact congrArg (fun f => (Finset.univ : Finset (Fin 8192)).fold max ⊥ f) (funext fun s => logit_read X w b OD PM r s)

theorem shifted_read (r s : Fin 8192) :
    T_v41 (F := Ideal) X w b OD PM (ix2 r s) = logit X (w ix0) (b ix0) r s - rowMax X (w ix0) (b ix0) r := by
  have h1 : T_v40 (F := Ideal) X w b OD PM (ix2 r s) = T_v39 (F := Ideal) X w b OD PM (ix2 r (0 : Fin 1)) := by unfold T_v40; exact bcast_cols8192 _ r s
  have h2 : T_v39 (F := Ideal) X w b OD PM (ix2 r (0 : Fin 1)) = T_v38 (F := Ideal) X w b OD PM (ix1 r) := by unfold T_v39; exact bcast_col _ r 0
  show T_v37 (F := Ideal) X w b OD PM (ix2 r s) - T_v40 (F := Ideal) X w b OD PM (ix2 r s) = _
  rw [h1, h2, logit_read, rowMax_read]

/-! ## The sum off the diagonal, and the log-probabilities -/

variable (hOD : ∀ r s : Fin 8192, OD (ix2 r s) = offDiag r s) (hPM : ∀ r s : Fin 8192, PM (ix2 r s) = partnerMask r s)

include hOD in
theorem offSum_read (r : Fin 8192) : T_v44 (F := Ideal) X w b OD PM (ix1 r) = offSum X (w ix0) (b ix0) r := by
  unfold T_v44
  refine (hsum_rows8192 _ _ r).trans ?_
  have h0 : T_cst_4 (F := Ideal) X w b OD PM ix0 = 0 := Ideal.ofBits_zero_f32
  rw [h0]
  unfold offSum
  refine Eq.trans ?_ (offDiag_sum r (fun s => logit X (w ix0) (b ix0) r s - rowMax X (w ix0) (b ix0) r))
  refine congrArg (0 + ·) (Finset.sum_congr rfl fun s _ => ?_)
  show Ideal.exp (T_v41 (F := Ideal) X w b OD PM (ix2 r s)) * OD (ix2 r s) = _
  rw [shifted_read, hOD]

include hOD in
theorem logp_read (r s : Fin 8192) :
    T_v48 (F := Ideal) X w b OD PM (ix2 r s) = (logit X (w ix0) (b ix0) r s - rowMax X (w ix0) (b ix0) r) - Ideal.log (offSum X (w ix0) (b ix0) r) := by
  have h1 : T_v47 (F := Ideal) X w b OD PM (ix2 r s) = T_v46 (F := Ideal) X w b OD PM (ix2 r (0 : Fin 1)) := by unfold T_v47; exact bcast_cols8192 _ r s
  have h2 : T_v45 (F := Ideal) X w b OD PM (ix2 r (0 : Fin 1)) = T_v44 (F := Ideal) X w b OD PM (ix1 r) := by unfold T_v45; exact bcast_col _ r 0
  have h3 : T_v46 (F := Ideal) X w b OD PM (ix2 r (0 : Fin 1)) = Ideal.log (T_v45 (F := Ideal) X w b OD PM (ix2 r (0 : Fin 1))) := rfl
  show T_v41 (F := Ideal) X w b OD PM (ix2 r s) - T_v47 (F := Ideal) X w b OD PM (ix2 r s) = _
  rw [h1, h3, h2, shifted_read, offSum_read X w b OD PM hOD]

include hOD hPM in
/-- A row's masked mean is its log-probability. -/
theorem rowLoss_read (r : Fin 8192) : T_v52 (F := Ideal) X w b OD PM (ix1 r) = logProb X (w ix0) (b ix0) r := by
  have h50 : T_v50 (F := Ideal) X w b OD PM (ix1 r) = 0 + ∑ s : Fin 8192, partnerMask r s
      * ((logit X (w ix0) (b ix0) r s - rowMax X (w ix0) (b ix0) r) - Ideal.log (offSum X (w ix0) (b ix0) r)) := by
    unfold T_v50
    refine (hsum_rows8192 _ _ r).trans ?_
    have h0 : T_cst_5 (F := Ideal) X w b OD PM ix0 = 0 := Ideal.ofBits_zero_f32
    rw [h0]
    refine congrArg (0 + ·) (Finset.sum_congr rfl fun s _ => ?_)
    show PM (ix2 r s) * T_v48 (F := Ideal) X w b OD PM (ix2 r s) = _
    rw [hPM, logp_read X w b OD PM hOD]
  have h51 : T_v51 (F := Ideal) X w b OD PM (ix1 r) = 0 + ∑ s : Fin 8192, partnerMask r s := by
    unfold T_v51
    refine (hsum_rows8192 _ _ r).trans ?_
    have h0 : T_cst_6 (F := Ideal) X w b OD PM ix0 = 0 := Ideal.ofBits_zero_f32
    rw [h0]
    exact congrArg (0 + ·) (Finset.sum_congr rfl fun s _ => hPM r s)
  show Ideal.div (T_v50 (F := Ideal) X w b OD PM (ix1 r)) (T_v51 (F := Ideal) X w b OD PM (ix1 r)) = _
  rw [h50, h51]
  exact masked_pick r (fun s => (logit X (w ix0) (b ix0) r s - rowMax X (w ix0) (b ix0) r) - Ideal.log (offSum X (w ix0) (b ix0) r))

include hOD hPM in
/-- The term's loss: the scaled mean of its rows' log-probabilities. -/
theorem termLoss_read (j : S_.Idx) :
    T_v55 (F := Ideal) X w b OD PM j = Ideal.ofBits .f32 0xC1649249#32
      * Ideal.div (0 + ∑ r : Fin 8192, logProb X (w ix0) (b ix0) r) (Ideal.ofBits .f32 0x46000000#32) := by
  have h53 : T_v53 (F := Ideal) X w b OD PM j = 0 + ∑ r : Fin 8192, logProb X (w ix0) (b ix0) r := by
    unfold T_v53
    refine (hsum_all8192 _ _ j).trans ?_
    have h0 : T_cst_7 (F := Ideal) X w b OD PM ix0 = 0 := Ideal.ofBits_zero_f32
    rw [h0]
    exact congrArg (0 + ·) (Finset.sum_congr rfl fun r _ => rowLoss_read X w b OD PM hOD hPM r)
  show Ideal.ofBits .f32 0xC1649249#32 * Ideal.div (T_v53 (F := Ideal) X w b OD PM j) (Ideal.ofBits .f32 0x46000000#32) = _
  rw [h53]

end Cert.ReferenceIdeal.Read

end
-- ==== Proof.RefMasks.lean ====
/-
  The reference's two masks, read at the extended reals: the off-diagonal mask is zero exactly on the diagonal, and
  the partner mask (an identity of size 4096 tiled 2 × 2, times the off-diagonal mask) is one exactly at a row's
  partner.
-/
import proofs.«111949_j33792802685631_1_alg».proof.Proof.RefOps
import proofs.«111949_j33792802685631_1_alg».proof.Proof.RefStages
import proofs.«111949_j33792802685631_1_alg».proof.Proof.Bridge

set_option maxRecDepth 16384

noncomputable section

open scoped BigOperators

namespace Cert.ReferenceIdeal.Read

open Cert.ReferenceIdeal Cert.ReferenceIdeal.Gen Cert.ReferenceIdeal.Stage Cert.Contrast
open Idealize.ShloMosaic Idealize.ShloMosaic.ValueIdx

/-- Two coordinates below 2³², as words, the first plus the zero word: equal exactly when the coordinates are. -/
theorem word_eq_iff (r s : ℕ) (hr : r < 4294967296) (hs : s < 4294967296) :
    IntOp.addi (BitVec.ofNat 32 r) (0#32) = BitVec.ofNat 32 s ↔ r = s := by
  constructor
  · intro h
    have := congrArg BitVec.toNat h
    simp only [IntOp.addi, BitVec.toNat_add, BitVec.toNat_ofNat] at this
    omega
  · intro h
    subst h
    apply BitVec.eq_of_toNat_eq
    simp only [IntOp.addi, BitVec.toNat_add, BitVec.toNat_ofNat]
    omega

/-- The identity test as a float: one on equal coordinates, zero otherwise. -/
theorem eye_word (r s : ℕ) (hr : r < 4294967296) (hs : s < 4294967296) :
    FloatOps.uitofp (F := Ideal) .f32 (IntOp.cmpi .eq (IntOp.addi (BitVec.ofNat 32 r) (0#32)) (BitVec.ofNat 32 s))
      = if r = s then (1 : EReal) else 0 := by
  unfold IntOp.cmpi
  by_cases h : r = s
  · rw [if_pos h, (word_eq_iff r s hr hs).mpr h, beq_self_eq_true]
    show (((1#1 : BitVec 1).toNat : ℝ) : EReal) = 1
    norm_num
  · rw [if_neg h, beq_eq_false_iff_ne.mpr (fun hh => h ((word_eq_iff r s hr hs).mp hh))]
    show (((0#1 : BitVec 1).toNat : ℝ) : EReal) = 0
    norm_num

/-- The off-diagonal mask. -/
theorem offDiag_read (r s : Fin 8192) : m_v16 (F := Ideal) (ix2 r s) = offDiag r s := by
  unfold m_v16 m_v15 m_cst m_v14 m_v13 m_v12 m_v11 m_c_0 m_v10 m_v9
  have hr := r.isLt
  have hs := s.isLt
  have e := eye_word r.val s.val (by omega) (by omega)
  show Ideal.ofBits .f32 0x3F800000#32
      - FloatOps.uitofp (F := Ideal) .f32 (IntOp.cmpi .eq (IntOp.addi (BitVec.ofNat 32 r.val) (0#32)) (BitVec.ofNat 32 s.val)) = _
  rw [e, ofBits_one]
  unfold offDiag
  by_cases h : r.val = s.val
  · rw [if_pos h, if_pos (Fin.ext h.symm), ← EReal.coe_one, ← EReal.coe_sub, sub_self, EReal.coe_zero]
  · rw [if_neg h, if_neg (fun hh => h (congrArg Fin.val hh).symm), sub_zero]
    exact EReal.coe_one

/-- The tiled identity: one where the two coordinates agree modulo 4096. -/
theorem tiled_read (r s : Fin 8192) :
    m_v8 (F := Ideal) (ix2 r s) = if r.val % 4096 = s.val % 4096 then (1 : EReal) else 0 := by
  have hr := r.isLt
  have hs := s.isLt
  unfold m_v8
  rw [shapeCast_apply (m_v7 (F := Ideal)) shapeCasts_S2x4096x2x4096_S8192x8192 (ix2 r s)
    (ix4 (⟨r.val / 4096, by omega⟩ : Fin 2) (⟨r.val % 4096, Nat.mod_lt _ (by norm_num)⟩ : Fin 4096)
      (⟨s.val / 4096, by omega⟩ : Fin 2) (⟨s.val % 4096, Nat.mod_lt _ (by norm_num)⟩ : Fin 4096))
    (by
      rw [Shape.rowMajor_val_four, Shape.rowMajor_val_two]
      show ((r.val / 4096 * 4096 + r.val % 4096) * 2 + s.val / 4096) * 4096 + s.val % 4096 = r.val * 8192 + s.val
      omega)]
  unfold m_v7
  rw [broadcastInDim_apply _ _ (m_v6 (F := Ideal)) _
    (ix4 (0 : Fin 1) (⟨r.val % 4096, Nat.mod_lt _ (by norm_num)⟩ : Fin 4096) (0 : Fin 1) (⟨s.val % 4096, Nat.mod_lt _ (by norm_num)⟩ : Fin 4096))
    (fun a => by
      match a with
      | ⟨0, _⟩ => show (0 : ℕ) = if (1 : ℕ) = 1 then 0 else r.val / 4096; rw [if_pos rfl]
      | ⟨1, _⟩ => show r.val % 4096 = if (4096 : ℕ) = 1 then 0 else r.val % 4096; rw [if_neg (by norm_num)]
      | ⟨2, _⟩ => show (0 : ℕ) = if (1 : ℕ) = 1 then 0 else s.val / 4096; rw [if_pos rfl]
      | ⟨3, _⟩ => show s.val % 4096 = if (4096 : ℕ) = 1 then 0 else s.val % 4096; rw [if_neg (by norm_num)])]
  unfold m_v6
  rw [shapeCast_apply (m_v5 (F := Ideal)) shapeCasts_S4096x4096_S1x4096x1x4096 _
    (ix2 (⟨r.val % 4096, Nat.mod_lt _ (by norm_num)⟩ : Fin 4096) (⟨s.val % 4096, Nat.mod_lt _ (by norm_num)⟩ : Fin 4096))
    (by
      rw [Shape.rowMajor_val_two, Shape.rowMajor_val_four]
      show r.val % 4096 * 4096 + s.val % 4096 = ((0 * 4096 + r.val % 4096) * 1 + 0) * 4096 + s.val % 4096
      omega)]
  unfold m_v5 m_v4 m_v3 m_v2 m_c m_v1 m_v0
  exact eye_word (r.val % 4096) (s.val % 4096) (by omega) (by omega)

/-- The partner mask. -/
theorem partnerMask_read (r s : Fin 8192) : m_v17 (F := Ideal) (ix2 r s) = partnerMask r s := by
  unfold m_v17
  show m_v8 (F := Ideal) (ix2 r s) * m_v16 (F := Ideal) (ix2 r s) = _
  rw [tiled_read, offDiag_read]
  unfold partnerMask offDiag partner
  have hr := r.isLt
  have hs := s.isLt
  by_cases h1 : r.val % 4096 = s.val % 4096
  · by_cases h2 : s = r
    · rw [if_pos h1, if_pos h2, mul_zero, if_neg]
      intro hh
      have := congrArg Fin.val hh
      rw [h2] at this
      simp only at this
      omega
    · rw [if_pos h1, if_neg h2, mul_one, if_pos]
      apply Fin.ext
      have : s.val ≠ r.val := fun hh => h2 (Fin.ext hh)
      show s.val = (r.val + 4096) % 8192
      omega
  · rw [if_neg h1, zero_mul, if_neg]
    intro hh
    have := congrArg Fin.val hh
    simp only at this
    omega

end Cert.ReferenceIdeal.Read

end
-- ==== Proof.RefFeats.lean ====
/-
  The two terms' features in the reference, read entry by entry: each argument is split into its two halves of
  4096 rows, and a term stacks one half of the teacher's array on one half of the student's.
-/
import proofs.«111949_j33792802685631_1_alg».proof.Proof.RefOps
import proofs.«111949_j33792802685631_1_alg».proof.Proof.RefStages
import proofs.«111949_j33792802685631_1_alg».proof.Proof.Bridge

set_option maxRecDepth 16384

noncomputable section

open scoped BigOperators

namespace Cert.ReferenceIdeal.Read

open Cert.ReferenceIdeal Cert.ReferenceIdeal.Gen Cert.ReferenceIdeal.Stage Cert.Contrast
open Idealize.ShloMosaic Idealize.ShloMosaic.ValueIdx

/-- The first half of an argument's rows, -/
theorem half0 (A : FVec Ideal S8192x256 .f32) (p : Fin 4096) (d : Fin 256) :
    shapeCast S4096x256 (extractStridedSlice S1x4096x256 ![0, 0, 0] (shapeCast S2x4096x256 A shapeCasts_S8192x256_S2x4096x256)
        slices_S2x4096x256_S1x4096x256_0_0_0) shapeCasts_S1x4096x256_S4096x256 (ix2 p d)
      = A (ix2 (⟨p.val, by have := p.isLt; omega⟩ : Fin 8192) d) := by
  rw [shapeCast_apply _ shapeCasts_S1x4096x256_S4096x256 (ix2 p d) (ix3 (0 : Fin 1) p d) (by
    rw [Shape.rowMajor_val_three, Shape.rowMajor_val_two]
    show (0 * 4096 + p.val) * 256 + d.val = p.val * 256 + d.val
    omega)]
  rw [extractStridedSlice_apply _ _ slices_S2x4096x256_S1x4096x256_0_0_0 (ix3 (0 : Fin 1) p d) (ix3 (0 : Fin 2) p d) (fun a => by
    match a with
    | ⟨0, _⟩ => rfl
    | ⟨1, _⟩ => show p.val = 0 + p.val; omega
    | ⟨2, _⟩ => show d.val = 0 + d.val; omega)]
  exact shapeCast_apply A shapeCasts_S8192x256_S2x4096x256 (ix3 (0 : Fin 2) p d) _ (by
    rw [Shape.rowMajor_val_two, Shape.rowMajor_val_three]
    show p.val * 256 + d.val = (0 * 4096 + p.val) * 256 + d.val
    omega)

/-- and the second half. -/
theorem half1 (A : FVec Ideal S8192x256 .f32) (p : Fin 4096) (d : Fin 256) :
    shapeCast S4096x256 (extractStridedSlice S1x4096x256 ![1, 0, 0] (shapeCast S2x4096x256 A shapeCasts_S8192x256_S2x4096x256)
        slices_S2x4096x256_S1x4096x256_1_0_0) shapeCasts_S1x4096x256_S4096x256 (ix2 p d)
      = A (ix2 (⟨p.val + 4096, by have := p.isLt; omega⟩ : Fin 8192) d) := by
  rw [shapeCast_apply _ shapeCasts_S1x4096x256_S4096x256 (ix2 p d) (ix3 (0 : Fin 1) p d) (by
    rw [Shape.rowMajor_val_three, Shape.rowMajor_val_two]
    show (0 * 4096 + p.val) * 256 + d.val = p.val * 256 + d.val
    omega)]
  rw [extractStridedSlice_apply _ _ slices_S2x4096x256_S1x4096x256_1_0_0 (ix3 (0 : Fin 1) p d) (ix3 (1 : Fin 2) p d) (fun a => by
    match a with
    | ⟨0, _⟩ => rfl
    | ⟨1, _⟩ => show p.val = 0 + p.val; omega
    | ⟨2, _⟩ => show d.val = 0 + d.val; omega)]
  exact shapeCast_apply A shapeCasts_S8192x256_S2x4096x256 (ix3 (1 : Fin 2) p d) _ (by
    rw [Shape.rowMajor_val_two, Shape.rowMajor_val_three]
    show (p.val + 4096) * 256 + d.val = (1 * 4096 + p.val) * 256 + d.val
    omega)

theorem stack_upper (P Q : FVec Ideal S4096x256 .f32) (r : Fin 8192) (d : Fin 256) (hr : r.val < 4096) :
    concatenate S8192x256 0 [⟨S4096x256, P⟩, ⟨S4096x256, Q⟩] concatenates_S4096x256_S4096x256_S8192x256_d0 (ix2 r d)
      = P (ix2 (⟨r.val, hr⟩ : Fin 4096) d) :=
  concatenate_pair_apply_left 0 P Q _ (ix2 r d) rfl (ix2 (⟨r.val, hr⟩ : Fin 4096) d) (fun b => by
    match b with
    | ⟨0, _⟩ => rfl
    | ⟨1, _⟩ => rfl)

theorem stack_lower (P Q : FVec Ideal S4096x256 .f32) (r : Fin 8192) (d : Fin 256) (hr : ¬r.val < 4096) :
    concatenate S8192x256 0 [⟨S4096x256, P⟩, ⟨S4096x256, Q⟩] concatenates_S4096x256_S4096x256_S8192x256_d0 (ix2 r d)
      = Q (ix2 (⟨r.val - 4096, by have := r.isLt; omega⟩ : Fin 4096) d) :=
  concatenate_pair_apply_right 0 P Q _ (ix2 r d) rfl rfl (ix2 (⟨r.val - 4096, by have := r.isLt; omega⟩ : Fin 4096) d)
    (fun b hb => by
      match b with
      | ⟨0, _⟩ => exact absurd rfl hb
      | ⟨1, _⟩ => rfl)
    (by show r.val - 4096 + 4096 = r.val; omega)

/-- Term 0's features. -/
theorem feats0_read (a0 a1 : FVec Ideal S8192x256 .f32) : (f_v24 (F := Ideal) a0 a1 : Feats) = termRows a0 a1 0 := by
  funext i
  obtain ⟨r, d, rfl⟩ : ∃ (r : Fin 8192) (d : Fin 256), i = ix2 r d := ⟨i 0, i 1, eq_ix2 i⟩
  unfold f_v24 f_v23 f_v22 f_v21 f_v20 f_v19 f_v18 termRows
  beta_reduce
  rw [if_pos (by rfl)]
  by_cases hr : r.val < 4096
  · rw [stack_upper _ _ r d hr, half0, if_pos hr]
  · rw [stack_lower _ _ r d hr, half1, if_neg hr]
    exact congrArg a0 (funext fun a => Fin.ext (by
      match a with
      | ⟨0, _⟩ => show r.val - 4096 + 4096 = r.val; omega
      | ⟨1, _⟩ => rfl))

/-- Term 1's features. -/
theorem feats1_read (a0 a1 : FVec Ideal S8192x256 .f32) : (f_v61 (F := Ideal) a0 a1 : Feats) = termRows a0 a1 1 := by
  funext i
  obtain ⟨r, d, rfl⟩ : ∃ (r : Fin 8192) (d : Fin 256), i = ix2 r d := ⟨i 0, i 1, eq_ix2 i⟩
  unfold f_v61 f_v60 f_v59 f_v58 f_v57 f_v19 f_v18 termRows
  beta_reduce
  rw [if_neg (by norm_num)]
  by_cases hr : r.val < 4096
  · rw [stack_upper _ _ r d hr, half1, dif_pos hr]
  · rw [stack_lower _ _ r d hr, half0, dif_neg hr]

end Cert.ReferenceIdeal.Read

end
-- ==== Proof.RefTotal.lean ====
/-
  The reference's result at the extended reals: the mean of the two terms' scaled means of log-probabilities.
-/
import proofs.«111949_j33792802685631_1_alg».proof.Proof.RefTerm
import proofs.«111949_j33792802685631_1_alg».proof.Proof.RefMasks
import proofs.«111949_j33792802685631_1_alg».proof.Proof.RefFeats

set_option maxRecDepth 16384

noncomputable section

open scoped BigOperators

namespace Cert.ReferenceIdeal.Read

open Cert.ReferenceIdeal Cert.ReferenceIdeal.Gen Cert.ReferenceIdeal.Stage Cert.Contrast
open Idealize.ShloMosaic Idealize.ShloMosaic.ValueIdx

theorem refTotal_read (a0 a1 : FVec Ideal S8192x256 .f32) (w b : FVec Ideal S_ .f32) (j : S_.Idx) :
    refTotal (F := Ideal) a0 a1 w b j
      = Ideal.div ((0 + Ideal.ofBits .f32 0xC1649249#32
              * Ideal.div (0 + ∑ r : Fin 8192, logProb (termRows a0 a1 0) (w ix0) (b ix0) r) (Ideal.ofBits .f32 0x46000000#32))
            + Ideal.ofBits .f32 0xC1649249#32
              * Ideal.div (0 + ∑ r : Fin 8192, logProb (termRows a0 a1 1) (w ix0) (b ix0) r) (Ideal.ofBits .f32 0x46000000#32))
          (Ideal.ofBits .f32 0x40000000#32) := by
  show R_v94 (F := Ideal) a0 a1 w b j = _
  unfold R_v94 R_cst_20 R_v93 R_v56 R_cst_10
  simp only [hostDivf_apply, addf_apply, constant_apply, Ideal.ofBits_zero_f32,
    termLoss_read _ w b _ _ offDiag_read partnerMask_read, feats0_read, feats1_read]

end Cert.ReferenceIdeal.Read

end
-- ==== Proof.lean ====
/-
  The certificate of the contrastive-loss kernel against its jnp reference.

  The kernel walks a grid of 2 terms × 32 row blocks. At the first row block of a term it L2-normalizes the
  term's 8192 × 256 features (each row divided by the larger of its Euclidean norm and 1e-8) into two scratch
  buffers, which the later row blocks of the term read back; every row block then forms its 256 × 8192 block
  of scaled and shifted cosine similarities, takes each row's maximum and the logarithm of the row's sum of
  exponentials off the diagonal, and stores, per row, the positive pair's similarity minus both. The host
  averages the 16384 stored values and scales the mean.

  Frames: the kernel's body is run once per case of its branch (first row block of a term, or a later one),
  the scratch buffers carried from point to point in the region invariant; the reference is a straight line
  of host operations, none of which writes an argument.

  Values: at the extended reals each stored value is the log-probability of one row of one term (the same
  function of the term's features on both sides: the reference's 0/1 masks pick the partner entry and drop the
  diagonal exactly as the kernel's direct read and select do), so the kernel's result is the scaled mean over both
  terms' rows and the reference's the mean of the two terms' scaled means. These agree because no log-probability is
  positive, which keeps both terms' sums away from +∞; no finiteness of the inputs is used.
-/
import proofs.«111949_j33792802685631_1_alg».proof.Defs
import proofs.«111949_j33792802685631_1_alg».proof.Proof.Gen.Kernel
import proofs.«111949_j33792802685631_1_alg».proof.Proof.Gen.KernelIdeal
import proofs.«111949_j33792802685631_1_alg».proof.Proof.Gen.ReferenceIdeal
import proofs.«111949_j33792802685631_1_alg».proof.Proof.Gen.Pre_finite_inputs
import proofs.«111949_j33792802685631_1_alg».proof.Proof.WordPointFrame
import proofs.«111949_j33792802685631_1_alg».proof.Proof.KernelArgs
import proofs.«111949_j33792802685631_1_alg».proof.Proof.RefTotal
import Idealize.ShloMosaic.Adequacy
import Idealize.ShloMosaic.Init

noncomputable section

namespace Cert.Proof

open Idealize.ShloMosaic Idealize.SL.Sem

/-- The kernel as printed runs and keeps its arguments. -/
theorem frame_word : Cert.frame_Kernel := fun m ρ _ => Cert.Kernel.Pt.frame m ρ
/-- So does its idealization. -/
theorem frame_ideal : Cert.frame_KernelIdeal := fun m ρ _ => Cert.KernelIdeal.Pt.frame m ρ
/-- And the reference. -/
theorem frame_ref : Cert.frame_ReferenceIdeal := fun m ρ _ => Cert.ReferenceIdeal.HostRun.frame m ρ

/-- The idealization rewrote nothing. -/
theorem preserves : Cert.preserves_Kernel_KernelIdeal := trivial

/-- At the extended reals the two programs end with the same loss. -/
theorem algebraic : Cert.algebraic_KernelIdeal_ReferenceIdeal := by
  intro m ρ m' ρ' _ hagree
  refine ⟨fun c => Cert.KernelIdeal.Pt.scaledMean (F := Ideal) (Cert.KernelIdeal.Pt.lpAll m c),
    Cert.KernelIdeal.Pt.value_run m ρ, ?_⟩
  refine (θ_run Cert.ReferenceIdeal.defs _ _).mono (fun _ h c => ⟨(h c).1.trans ?_, (h c).2⟩)
    (Cert.ReferenceIdeal.Stage.value_run (F := Ideal) m' ρ')
  rw [(hagree c).1, (hagree c).2.1, (hagree c).2.2.1, (hagree c).2.2.2]
  funext j
  show _ = Cert.KernelIdeal.Pt.scaledMean (F := Ideal) (Cert.KernelIdeal.Pt.lpAll m c) j
  rw [Cert.KernelIdeal.Read.kernel_total, Cert.ReferenceIdeal.Read.refTotal_read]
  simp only [Cert.KernelIdeal.Read.featsK_eq, Cert.KernelIdeal.Read.scaleK_eq, Cert.KernelIdeal.Read.shiftK_eq]
  exact (Cert.Contrast.totals_agree _ _ _ _).symm

theorem claim : Cert.Claim :=
  ⟨Cert.Kernel.Gen.facts, Cert.KernelIdeal.Gen.facts, Cert.ReferenceIdeal.Gen.facts, Cert.Pre_finite_inputs.Gen.facts,
    frame_word, frame_ideal, frame_ref, preserves, algebraic⟩

end Cert.Proof

end
